-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v44_0)) (v1 : (c : Dev Cert.KernelIdeal.nD) → Buf (Elt Ideal) ((c.tc : Thread Cert.KernelIdeal.nD Cert.KernelIdeal.τ).loc Cert.KernelIdeal.main_v44_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44_0) = v0 c
          ∧ r.2.mem ((c.tc : Thread Cert.KernelIdeal.nD Cert.KernelIdeal.τ).loc Cert.KernelIdeal.main_v44_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_v109) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x200000 : Shape := ⟨2, ![2, 200000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg7 : FVec F S128x128 .f32) (main_arg8 : FVec F S128 .f32) (main_arg9 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg7
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg8
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg9
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S50000x128 .f32) (main_arg1 : FVec F S50000x128 .f32) (main_arg2 : IVec S2x200000 32) (main_arg3 : IVec S2x200000 32) (main_arg4 : IVec S2x200000 32) (main_arg5 : FVec F S128x128 .f32) (main_arg6 : FVec F S128x128 .f32) (main_arg7 : FVec F S128x128 .f32) (main_arg8 : FVec F S128 .f32) (main_arg9 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S128x128 .f32 := Host.absf main_arg5
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg6
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg7 main_arg8 main_arg9 main_v13 main_v16
-- ==== Kernel.lean ====
abbrev S50000x128 : Shape := ⟨2, ![50000, 128]⟩
abbrev S2x200000 : Shape := ⟨2, ![2, 200000]⟩
abbrev S128x128 : Shape := ⟨2, ![128, 128]⟩
abbrev S128 : Shape := ⟨1, ![128]⟩
abbrev S_ : Shape := ⟨0, ![]⟩
abbrev S1000x128 : Shape := ⟨2, ![1000, 128]⟩
abbrev S1x200000 : Shape := ⟨2, ![1, 200000]⟩
abbrev S200000 : Shape := ⟨1, ![200000]⟩
abbrev S200000x1 : Shape := ⟨2, ![200000, 1]⟩
abbrev S1 : Shape := ⟨1, ![1]⟩
abbrev S1x1 : Shape := ⟨2, ![1, 1]⟩
abbrev S200000x128 : Shape := ⟨2, ![200000, 128]⟩
abbrev S50000x1 : Shape := ⟨2, ![50000, 1]⟩
abbrev S1x128 : Shape := ⟨2, ![1, 128]⟩
abbrev S1000x1 : Shape := ⟨2, ![1000, 1]⟩
abbrev S1000 : Shape := ⟨1, ![1000]⟩

abbrev nBuf : Space → Nat
  | .hbm => 133
  | .vmem => 28
  | .smem => 0
  | _ => 0

abbrev hbmTy0_0 (i : Nat) : BufTy := match i % 128 with
  | 0 => ⟨S50000x128, .f32⟩
  | 1 => ⟨S50000x128, .f32⟩
  | 2 => ⟨S2x200000, .i32⟩
  | 3 => ⟨S2x200000, .i32⟩
  | 4 => ⟨S2x200000, .i32⟩
  | 5 => ⟨S128x128, .f32⟩
  | 6 => ⟨S128x128, .f32⟩
  | 7 => ⟨S128x128, .f32⟩
  | 8 => ⟨S128, .f32⟩
  | 9 => ⟨S128, .f32⟩
  | 10 => ⟨S128x128, .f32⟩
  | 11 => ⟨S_, .f32⟩
  | 12 => ⟨S128x128, .f32⟩
  | 13 => ⟨S128x128, .f32⟩
  | 14 => ⟨S128x128, .f32⟩
  | 15 => ⟨S128x128, .f32⟩
  | 16 => ⟨S50000x128, .f32⟩
  | 17 => ⟨S50000x128, .f32⟩
  | 18 => ⟨S1x200000, .i32⟩
  | 19 => ⟨S200000, .i32⟩
  | 20 => ⟨S1x200000, .i32⟩
  | 21 => ⟨S200000, .i32⟩
  | 22 => ⟨S_, .i32⟩
  | 23 => ⟨S200000, .i32⟩
  | 24 => ⟨S200000, .i1⟩
  | 25 => ⟨S_, .i32⟩
  | 26 => ⟨S200000, .i32⟩
  | 27 => ⟨S200000, .i32⟩
  | 28 => ⟨S200000, .i32⟩
  | 29 => ⟨S200000x1, .i32⟩
  | 30 => ⟨S1, .i32⟩
  | 31 => ⟨S_, .i32⟩
  | 32 => ⟨S200000x1, .i32⟩
  | 33 => ⟨S200000x1, .i1⟩
  | 34 => ⟨S1x1, .i32⟩
  | 35 => ⟨S200000x1, .i32⟩
  | 36 => ⟨S200000x1, .i1⟩
  | 37 => ⟨S200000x1, .i1⟩
  | 38 => ⟨S_, .i1⟩
  | 39 => ⟨S200000, .i1⟩
  | 40 => ⟨S200000x128, .f32⟩
  | 41 => ⟨S200000x128, .i1⟩
  | 42 => ⟨S_, .f32⟩
  | 43 => ⟨S200000x128, .f32⟩
  | 44 => ⟨S200000x128, .f32⟩
  | 45 => ⟨S_, .f32⟩
  | 46 => ⟨S50000x128, .f32⟩
  | 47 => ⟨S200000x1, .i32⟩
  | 48 => ⟨S50000x128, .f32⟩
  | 49 => ⟨S_, .f32⟩
  | 50 => ⟨S200000x1, .f32⟩
  | 51 => ⟨S_, .f32⟩
  | 52 => ⟨S50000x1, .f32⟩
  | 53 => ⟨S200000x1, .i32⟩
  | 54 => ⟨S50000x1, .f32⟩
  | 55 => ⟨S1x200000, .i32⟩
  | 56 => ⟨S200000, .i32⟩
  | 57 => ⟨S1x200000, .i32⟩
  | 58 => ⟨S200000, .i32⟩
  | 59 => ⟨S_, .i32⟩
  | 60 => ⟨S200000, .i32⟩
  | 61 => ⟨S200000, .i1⟩
  | 62 => ⟨S_, .i32⟩
  | 63 => ⟨S200000, .i32⟩
  | 64 => ⟨S200000, .i32⟩
  | 65 => ⟨S200000, .i32⟩
  | 66 => ⟨S200000x1, .i32⟩
  | 67 => ⟨S1, .i32⟩
  | 68 => ⟨S_, .i32⟩
  | 69 => ⟨S200000x1, .i32⟩
  | 70 => ⟨S200000x1, .i1⟩
  | 71 => ⟨S1x1, .i32⟩
  | 72 => ⟨S200000x1, .i32⟩
  | 73 => ⟨S200000x1, .i1⟩
  | 74 => ⟨S200000x1, .i1⟩
  | 75 => ⟨S_, .i1⟩
  | 76 => ⟨S200000, .i1⟩
  | 77 => ⟨S200000x128, .f32⟩
  | 78 => ⟨S200000x128, .i1⟩
  | 79 => ⟨S_, .f32⟩
  | 80 => ⟨S200000x128, .f32⟩
  | 81 => ⟨S200000x128, .f32⟩
  | 82 => ⟨S_, .f32⟩
  | 83 => ⟨S50000x128, .f32⟩
  | 84 => ⟨S200000x1, .i32⟩
  | 85 => ⟨S50000x128, .f32⟩
  | 86 => ⟨S_, .f32⟩
  | 87 => ⟨S200000x1, .f32⟩
  | 88 => ⟨S_, .f32⟩
  | 89 => ⟨S50000x1, .f32⟩
  | 90 => ⟨S200000x1, .i32⟩
  | 91 => ⟨S50000x1, .f32⟩
  | 92 => ⟨S1x200000, .i32⟩
  | 93 => ⟨S200000, .i32⟩
  | 94 => ⟨S1x200000, .i32⟩
  | 95 => ⟨S200000, .i32⟩
  | 96 => ⟨S_, .i32⟩
  | 97 => ⟨S200000, .i32⟩
  | 98 => ⟨S200000, .i1⟩
  | 99 => ⟨S_, .i32⟩
  | 100 => ⟨S200000, .i32⟩
  | 101 => ⟨S200000, .i32⟩
  | 102 => ⟨S200000, .i32⟩
  | 103 => ⟨S200000x1, .i32⟩
  | 104 => ⟨S1, .i32⟩
  | 105 => ⟨S_, .i32⟩
  | 106 => ⟨S200000x1, .i32⟩
  | 107 => ⟨S200000x1, .i1⟩
  | 108 => ⟨S1x1, .i32⟩
  | 109 => ⟨S200000x1, .i32⟩
  | 110 => ⟨S200000x1, .i1⟩
  | 111 => ⟨S200000x1, .i1⟩
  | 112 => ⟨S_, .i1⟩
  | 113 => ⟨S200000, .i1⟩
  | 114 => ⟨S200000x128, .f32⟩
  | 115 => ⟨S200000x128, .i1⟩
  | 116 => ⟨S_, .f32⟩
  | 117 => ⟨S200000x128, .f32⟩
  | 118 => ⟨S200000x128, .f32⟩
  | 119 => ⟨S_, .f32⟩
  | 120 => ⟨S50000x128, .f32⟩
  | 121 => ⟨S200000x1, .i32⟩
  | 122 => ⟨S50000x128, .f32⟩
  | 123 => ⟨S_, .f32⟩
  | 124 => ⟨S200000x1, .f32⟩
  | 125 => ⟨S_, .f32⟩
  | 126 => ⟨S50000x1, .f32⟩
  | 127 => ⟨S200000x1, .i32⟩
  | _ => ⟨S50000x128, .f32⟩

abbrev hbmTy0_1 (i : Nat) : BufTy := match i % 128 with
  | 0 => ⟨S50000x1, .f32⟩
  | 1 => ⟨S1x128, .f32⟩
  | 2 => ⟨S1x128, .f32⟩
  | 3 => ⟨S50000x128, .f32⟩
  | 4 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S1000x128, .f32⟩
  | .local _ .vmem, ⟨1, _⟩ => ⟨S1000x128, .f32⟩
  | .local _ .vmem, ⟨2, _⟩ => ⟨S1000x128, .f32⟩
  | .local _ .vmem, ⟨3, _⟩ => ⟨S1000x128, .f32⟩
  | .local _ .vmem, ⟨4, _⟩ => ⟨S128x128, .f32⟩
  | .local _ .vmem, ⟨5, _⟩ => ⟨S128x128, .f32⟩
  | .local _ .vmem, ⟨6, _⟩ => ⟨S1000x128, .f32⟩
  | .local _ .vmem, ⟨7, _⟩ => ⟨S1000x128, .f32⟩
  | .local _ .vmem, ⟨8, _⟩ => ⟨S1000x128, .f32⟩
  | .local _ .vmem, ⟨9, _⟩ => ⟨S1000x128, .f32⟩
  | .local _ .vmem, ⟨10, _⟩ => ⟨S1000x128, .f32⟩
  | .local _ .vmem, ⟨11, _⟩ => ⟨S1000x128, .f32⟩
  | .local _ .vmem, ⟨12, _⟩ => ⟨S1000x1, .f32⟩
  | .local _ .vmem, ⟨13, _⟩ => ⟨S1000x1, .f32⟩
  | .local _ .vmem, ⟨14, _⟩ => ⟨S1000x128, .f32⟩
  | .local _ .vmem, ⟨15, _⟩ => ⟨S1000x128, .f32⟩
  | .local _ .vmem, ⟨16, _⟩ => ⟨S1000x1, .f32⟩
  | .local _ .vmem, ⟨17, _⟩ => ⟨S1000x1, .f32⟩
  | .local _ .vmem, ⟨18, _⟩ => ⟨S1000x128, .f32⟩
  | .local _ .vmem, ⟨19, _⟩ => ⟨S1000x128, .f32⟩
  | .local _ .vmem, ⟨20, _⟩ => ⟨S1000x1, .f32⟩
  | .local _ .vmem, ⟨21, _⟩ => ⟨S1000x1, .f32⟩
  | .local _ .vmem, ⟨22, _⟩ => ⟨S1x128, .f32⟩
  | .local _ .vmem, ⟨23, _⟩ => ⟨S1x128, .f32⟩
  | .local _ .vmem, ⟨24, _⟩ => ⟨S1000x128, .f32⟩
  | .local _ .vmem, ⟨25, _⟩ => ⟨S1000x128, .f32⟩
  | .local _ .vmem, ⟨26, _⟩ => ⟨S1000x128, .f32⟩
  | .local _ .vmem, ⟨27, _⟩ => ⟨S1000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5_0 : Ref sig .tc := ⟨.hbm, 16, rfl⟩
abbrev main_v5_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_call0_c : Ref sig .tc := ⟨.hbm, 22, rfl⟩
abbrev main_call0_v0 : Ref sig .tc := ⟨.hbm, 23, rfl⟩
abbrev main_call0_v1 : Ref sig .tc := ⟨.hbm, 24, rfl⟩
abbrev main_call0_c_0 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_c_1 : Ref sig .tc := ⟨.hbm, 30, rfl⟩
abbrev main_call0_c_2 : Ref sig .tc := ⟨.hbm, 31, rfl⟩
abbrev main_call0_v6 : Ref sig .tc := ⟨.hbm, 32, rfl⟩
abbrev main_call0_v7 : Ref sig .tc := ⟨.hbm, 33, rfl⟩
abbrev main_call0_v8 : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_call0_c_3 : Ref sig .tc := ⟨.hbm, 38, rfl⟩
abbrev main_call0_v12 : Ref sig .tc := ⟨.hbm, 39, rfl⟩
abbrev main_call0_v13 : Ref sig .tc := ⟨.hbm, 40, rfl⟩
abbrev main_call0_v14 : Ref sig .tc := ⟨.hbm, 41, rfl⟩
abbrev main_call0_cst : Ref sig .tc := ⟨.hbm, 42, rfl⟩
abbrev main_call0_v15 : Ref sig .tc := ⟨.hbm, 43, rfl⟩
abbrev main_v10 : Ref sig .tc := ⟨.hbm, 44, rfl⟩
abbrev main_cst_0 : Ref sig .tc := ⟨.hbm, 45, rfl⟩
abbrev main_v11 : Ref sig .tc := ⟨.hbm, 46, rfl⟩
abbrev main_v12 : Ref sig .tc := ⟨.hbm, 47, rfl⟩
abbrev main_v13 : Ref sig .tc := ⟨.hbm, 48, rfl⟩
abbrev main_cst_1 : Ref sig .tc := ⟨.hbm, 49, rfl⟩
abbrev main_v14 : Ref sig .tc := ⟨.hbm, 50, rfl⟩
abbrev main_cst_2 : Ref sig .tc := ⟨.hbm, 51, rfl⟩
abbrev main_v15 : Ref sig .tc := ⟨.hbm, 52, rfl⟩
abbrev main_v16 : Ref sig .tc := ⟨.hbm, 53, rfl⟩
abbrev main_v17 : Ref sig .tc := ⟨.hbm, 54, rfl⟩
abbrev main_v18 : Ref sig .tc := ⟨.hbm, 55, rfl⟩
abbrev main_v19 : Ref sig .tc := ⟨.hbm, 56, rfl⟩
abbrev main_v20 : Ref sig .tc := ⟨.hbm, 57, rfl⟩
abbrev main_v21 : Ref sig .tc := ⟨.hbm, 58, rfl⟩
abbrev main_call1_c : Ref sig .tc := ⟨.hbm, 59, rfl⟩
abbrev main_call1_v0 : Ref sig .tc := ⟨.hbm, 60, rfl⟩
abbrev main_call1_v1 : Ref sig .tc := ⟨.hbm, 61, rfl⟩
abbrev main_call1_c_0 : Ref sig .tc := ⟨.hbm, 62, rfl⟩
abbrev main_call1_v2 : Ref sig .tc := ⟨.hbm, 63, rfl⟩
abbrev main_call1_v3 : Ref sig .tc := ⟨.hbm, 64, rfl⟩
abbrev main_call1_v4 : Ref sig .tc := ⟨.hbm, 65, rfl⟩
abbrev main_call1_v5 : Ref sig .tc := ⟨.hbm, 66, rfl⟩
abbrev main_call1_c_1 : Ref sig .tc := ⟨.hbm, 67, rfl⟩
abbrev main_call1_c_2 : Ref sig .tc := ⟨.hbm, 68, rfl⟩
abbrev main_call1_v6 : Ref sig .tc := ⟨.hbm, 69, rfl⟩
abbrev main_call1_v7 : Ref sig .tc := ⟨.hbm, 70, rfl⟩
abbrev main_call1_v8 : Ref sig .tc := ⟨.hbm, 71, rfl⟩
abbrev main_call1_v9 : Ref sig .tc := ⟨.hbm, 72, rfl⟩
abbrev main_call1_v10 : Ref sig .tc := ⟨.hbm, 73, rfl⟩
abbrev main_call1_v11 : Ref sig .tc := ⟨.hbm, 74, rfl⟩
abbrev main_call1_c_3 : Ref sig .tc := ⟨.hbm, 75, rfl⟩
abbrev main_call1_v12 : Ref sig .tc := ⟨.hbm, 76, rfl⟩
abbrev main_call1_v13 : Ref sig .tc := ⟨.hbm, 77, rfl⟩
abbrev main_call1_v14 : Ref sig .tc := ⟨.hbm, 78, rfl⟩
abbrev main_call1_cst : Ref sig .tc := ⟨.hbm, 79, rfl⟩
abbrev main_call1_v15 : Ref sig .tc := ⟨.hbm, 80, rfl⟩
abbrev main_v22 : Ref sig .tc := ⟨.hbm, 81, rfl⟩
abbrev main_cst_3 : Ref sig .tc := ⟨.hbm, 82, rfl⟩
abbrev main_v23 : Ref sig .tc := ⟨.hbm, 83, rfl⟩
abbrev main_v24 : Ref sig .tc := ⟨.hbm, 84, rfl⟩
abbrev main_v25 : Ref sig .tc := ⟨.hbm, 85, rfl⟩
abbrev main_cst_4 : Ref sig .tc := ⟨.hbm, 86, rfl⟩
abbrev main_v26 : Ref sig .tc := ⟨.hbm, 87, rfl⟩
abbrev main_cst_5 : Ref sig .tc := ⟨.hbm, 88, rfl⟩
abbrev main_v27 : Ref sig .tc := ⟨.hbm, 89, rfl⟩
abbrev main_v28 : Ref sig .tc := ⟨.hbm, 90, rfl⟩
abbrev main_v29 : Ref sig .tc := ⟨.hbm, 91, rfl⟩
abbrev main_v30 : Ref sig .tc := ⟨.hbm, 92, rfl⟩
abbrev main_v31 : Ref sig .tc := ⟨.hbm, 93, rfl⟩
abbrev main_v32 : Ref sig .tc := ⟨.hbm, 94, rfl⟩
abbrev main_v33 : Ref sig .tc := ⟨.hbm, 95, rfl⟩
abbrev main_call2_c : Ref sig .tc := ⟨.hbm, 96, rfl⟩
abbrev main_call2_v0 : Ref sig .tc := ⟨.hbm, 97, rfl⟩
abbrev main_call2_v1 : Ref sig .tc := ⟨.hbm, 98, rfl⟩
abbrev main_call2_c_0 : Ref sig .tc := ⟨.hbm, 99, rfl⟩
abbrev main_call2_v2 : Ref sig .tc := ⟨.hbm, 100, rfl⟩
abbrev main_call2_v3 : Ref sig .tc := ⟨.hbm, 101, rfl⟩
abbrev main_call2_v4 : Ref sig .tc := ⟨.hbm, 102, rfl⟩
abbrev main_call2_v5 : Ref sig .tc := ⟨.hbm, 103, rfl⟩
abbrev main_call2_c_1 : Ref sig .tc := ⟨.hbm, 104, rfl⟩
abbrev main_call2_c_2 : Ref sig .tc := ⟨.hbm, 105, rfl⟩
abbrev main_call2_v6 : Ref sig .tc := ⟨.hbm, 106, rfl⟩
abbrev main_call2_v7 : Ref sig .tc := ⟨.hbm, 107, rfl⟩
abbrev main_call2_v8 : Ref sig .tc := ⟨.hbm, 108, rfl⟩
abbrev main_call2_v9 : Ref sig .tc := ⟨.hbm, 109, rfl⟩
abbrev main_call2_v10 : Ref sig .tc := ⟨.hbm, 110, rfl⟩
abbrev main_call2_v11 : Ref sig .tc := ⟨.hbm, 111, rfl⟩
abbrev main_call2_c_3 : Ref sig .tc := ⟨.hbm, 112, rfl⟩
abbrev main_call2_v12 : Ref sig .tc := ⟨.hbm, 113, rfl⟩
abbrev main_call2_v13 : Ref sig .tc := ⟨.hbm, 114, rfl⟩
abbrev main_call2_v14 : Ref sig .tc := ⟨.hbm, 115, rfl⟩
abbrev main_call2_cst : Ref sig .tc := ⟨.hbm, 116, rfl⟩
abbrev main_call2_v15 : Ref sig .tc := ⟨.hbm, 117, rfl⟩
abbrev main_v34 : Ref sig .tc := ⟨.hbm, 118, rfl⟩
abbrev main_cst_6 : Ref sig .tc := ⟨.hbm, 119, rfl⟩
abbrev main_v35 : Ref sig .tc := ⟨.hbm, 120, rfl⟩
abbrev main_v36 : Ref sig .tc := ⟨.hbm, 121, rfl⟩
abbrev main_v37 : Ref sig .tc := ⟨.hbm, 122, rfl⟩
abbrev main_cst_7 : Ref sig .tc := ⟨.hbm, 123, rfl⟩
abbrev main_v38 : Ref sig .tc := ⟨.hbm, 124, rfl⟩
abbrev main_cst_8 : Ref sig .tc := ⟨.hbm, 125, rfl⟩
abbrev main_v39 : Ref sig .tc := ⟨.hbm, 126, rfl⟩
abbrev main_v40 : Ref sig .tc := ⟨.hbm, 127, rfl⟩
abbrev main_v41 : Ref sig .tc := ⟨.hbm, 128, rfl⟩
abbrev main_v42 : Ref sig .tc := ⟨.hbm, 129, rfl⟩
abbrev main_v43 : Ref sig .tc := ⟨.hbm, 130, rfl⟩
abbrev main_v44_0 : Ref sig .tc := ⟨.hbm, 131, rfl⟩
abbrev main_v44_1 : Ref sig .tc := ⟨.hbm, 132, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg8_0 : Ref sig .tc := ⟨.vmem, 24, rfl⟩
abbrev cc1_stg8_1 : Ref sig .tc := ⟨.vmem, 25, rfl⟩
abbrev cc1_stg9_0 : Ref sig .tc := ⟨.vmem, 26, rfl⟩
abbrev cc1_stg9_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem7_0 : DmaSem sig := 23
abbrev cc1_sem8_0 : DmaSem sig := 24
abbrev cc1_sem8_1 : DmaSem sig := 25
abbrev cc1_sem9_0 : DmaSem sig := 26
abbrev cc1_sem9_1 : DmaSem sig := 27

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1000x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S1000x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S1000x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  bcast_S_S128x128 : S_.BroadcastsInDim S128x128 (![] : Fin 0 → Fin S128x128.rank)
  transposes_S128x128_S128x128_1_0 : S128x128.Transposes [1, 0] S128x128
  inb_S1000x128_S1000x128_0_0 : ∀ a, (![0, 0] : Fin 2 → Nat) a + S1000x128.size a ≤ S1000x128.size a
  h_S1000x128 : 0 < S1000x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  slices_S2x200000_S1x200000_0_0 : S2x200000.Slices ![0, 0] S1x200000
  shapeCasts_S1x200000_S200000 : S1x200000.ShapeCasts S200000
  slices_S2x200000_S1x200000_1_0 : S2x200000.Slices ![1, 0] S1x200000
  bcast_S_S200000 : S_.BroadcastsInDim S200000 (![] : Fin 0 → Fin S200000.rank)
  bcast_S200000_S200000x1_0 : S200000.BroadcastsInDim S200000x1 (![0] : Fin 1 → Fin S200000x1.rank)
  bcast_S_S200000x1 : S_.BroadcastsInDim S200000x1 (![] : Fin 0 → Fin S200000x1.rank)
  bcast_S1_S1x1_1 : S1.BroadcastsInDim S1x1 (![1] : Fin 1 → Fin S1x1.rank)
  bcast_S1x1_S200000x1_0_1 : S1x1.BroadcastsInDim S200000x1 (![0, 1] : Fin 2 → Fin S200000x1.rank)
  reducesTo_S200000x1_S200000_d1 : S200000x1.ReducesTo [1] S200000
  h_S_ : 0 < S_.numel
  bcast_S200000_S200000x128_0 : S200000.BroadcastsInDim S200000x128 (![0] : Fin 1 → Fin S200000x128.rank)
  bcast_S_S200000x128 : S_.BroadcastsInDim S200000x128 (![] : Fin 0 → Fin S200000x128.rank)
  bcast_S_S50000x128 : S_.BroadcastsInDim S50000x128 (![] : Fin 0 → Fin S50000x128.rank)
  bcast_S_S50000x1 : S_.BroadcastsInDim S50000x1 (![] : Fin 0 → Fin S50000x1.rank)
  shapeCasts_S128_S1x128 : S128.ShapeCasts S1x128
  shapeCasts_S1000x128_S1000x128 : S1000x128.ShapeCasts S1000x128
  inb_S1000x1_S1000x1_0_0 : ∀ a, (![0, 0] : Fin 2 → Nat) a + S1000x1.size a ≤ S1000x1.size a
  h_S1000x1 : 0 < S1000x1.numel
  shapeCasts_S1000x1_S1000x1 : S1000x1.ShapeCasts S1000x1
  broadcasts_S1000x1_S1000x128 : S1000x1.Broadcasts S1000x128
  reduces_S1000x128_S1000 : S1000x128.Reduces [1] S1000
  shapeCasts_S1000_S1000x1 : S1000.ShapeCasts S1000x1
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1000x128 : S1x128.Broadcasts S1000x128
  dot_S1000x128_S128x128_S1000x128_1_0_0_1_n_n_wf : DotDims.WF S1000x128 S128x128 S1000x128 [1] [0] [0] [1] [] []
  gather_S50000x128_S200000x1_S200000x128_1_0_n_n_0_1_1128_wf : GatherDims.WF S50000x128 S200000x1 S200000x128 [1] [0] [] [0] [] 1 ![1, 128]
  scatter_S50000x128_S200000x1_S200000x128_1_0_0_1_wf : ScatterDims.WF S50000x128 S200000x1 S200000x128 [1] [0] [0] 1
  scatter_S50000x1_S200000x1_S200000x1_1_0_0_1_wf : ScatterDims.WF S50000x1 S200000x1 S200000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x128.size a ≤ S50000x128.size a
  hwx0_0 : ∀ i : grid0.Coords, EltTy.bits .f32 = 32 ∨ (Rect.block (s := S50000x128) S1000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x128.size a ≤ S50000x128.size a
  hwx0_1 : ∀ i : grid0.Coords, EltTy.bits .f32 = 32 ∨ (Rect.block (s := S50000x128) S1000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1000x128.size a ≤ S50000x128.size a
  hwx0_4 : ∀ i : grid0.Coords, EltTy.bits .f32 = 32 ∨ (Rect.block (s := S50000x128) S1000x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1000x128.size a ≤ S50000x128.size a
  hwx0_5 : ∀ i : grid0.Coords, EltTy.bits .f32 = 32 ∨ (Rect.block (s := S50000x128) S1000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x128.size a ≤ S50000x128.size a
  hwx1_0 : ∀ i : grid1.Coords, EltTy.bits .f32 = 32 ∨ (Rect.block (s := S50000x128) S1000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x1.size a ≤ S50000x1.size a
  hwx1_1 : ∀ i : grid1.Coords, EltTy.bits .f32 = 32 ∨ (Rect.block (s := S50000x1) S1000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1000x128.size a ≤ S50000x128.size a
  hwx1_2 : ∀ i : grid1.Coords, EltTy.bits .f32 = 32 ∨ (Rect.block (s := S50000x128) S1000x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1000x1.size a ≤ S50000x1.size a
  hwx1_3 : ∀ i : grid1.Coords, EltTy.bits .f32 = 32 ∨ (Rect.block (s := S50000x1) S1000x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1000x128.size a ≤ S50000x128.size a
  hwx1_4 : ∀ i : grid1.Coords, EltTy.bits .f32 = 32 ∨ (Rect.block (s := S50000x128) S1000x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1000x1.size a ≤ S50000x1.size a
  hwx1_5 : ∀ i : grid1.Coords, EltTy.bits .f32 = 32 ∨ (Rect.block (s := S50000x1) S1000x1.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S1000x128.size a ≤ S50000x128.size a
  hwx1_8 : ∀ i : grid1.Coords, EltTy.bits .f32 = 32 ∨ (Rect.block (s := S50000x128) S1000x128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S1000x128.size a ≤ S50000x128.size a
  hwx1_9 : ∀ i : grid1.Coords, EltTy.bits .f32 = 32 ∨ (Rect.block (s := S50000x128) S1000x128.size (cc1_transform_9 i) (hinb1_9 i)).WholeWords (EltTy.packing .f32)

variable [Facts₀]

def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf
def gather_S50000x128_S200000x1_S200000x128_1_0_n_n_0_1_1128 : GatherDims S50000x128 S200000x1 S200000x128 where
  offsetDims := [1]
  collapsedSliceDims := [0]
  operandBatchingDims := []
  startIndicesBatchingDims := []
  startIndexMap := [0]
  indexVectorDim := 1
  sliceSizes := ![1, 128]
  wf := gather_S50000x128_S200000x1_S200000x128_1_0_n_n_0_1_1128_wf
def scatter_S50000x128_S200000x1_S200000x128_1_0_0_1 : ScatterDims S50000x128 S200000x1 S200000x128 where
  updateWindowDims := [1]
  insertedWindowDims := [0]
  scatterDimsToOperandDims := [0]
  indexVectorDim := 1
  wf := scatter_S50000x128_S200000x1_S200000x128_1_0_0_1_wf
def scatter_S50000x1_S200000x1_S200000x1_1_0_0_1 : ScatterDims S50000x1 S200000x1 S200000x1 where
  updateWindowDims := [1]
  insertedWindowDims := [0]
  scatterDimsToOperandDims := [0]
  indexVectorDim := 1
  wf := scatter_S50000x1_S200000x1_S200000x1_1_0_0_1_wf

abbrev win0_0 : Pipeline.Window sig grid0 :=
  Pipeline.Window.ofSpec (Memref.whole main_arg0) S1000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5_0) S1000x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5_1) S1000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v13) S1000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S1000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v25) S1000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v29) S1000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v37) S1000x128.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v41) S1000x1.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v42) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v43) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v44_0) S1000x128.size cc1_transform_8 reads1_8 true false 2 stage1_8 sem1_8
    hrank1 hreads1_8 hinb1_8 nbuf1_8 (Memref.isWhole_whole _) hwx1_8 hstage1_8

abbrev win1_9 : Pipeline.Window sig grid1 :=
  Pipeline.Window.ofSpec (Memref.whole main_v44_1) S1000x128.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x200000 : Shape := ⟨2, ![2, 200000]⟩
abbrev S128x128 : Shape := ⟨2, ![128, 128]⟩
abbrev S128 : Shape := ⟨1, ![128]⟩
abbrev S_ : Shape := ⟨0, ![]⟩
abbrev S1x200000 : Shape := ⟨2, ![1, 200000]⟩
abbrev S200000 : Shape := ⟨1, ![200000]⟩
abbrev S200000x1 : Shape := ⟨2, ![200000, 1]⟩
abbrev S1 : Shape := ⟨1, ![1]⟩
abbrev S1x1 : Shape := ⟨2, ![1, 1]⟩
abbrev S200000x128 : Shape := ⟨2, ![200000, 128]⟩
abbrev S50000x1 : Shape := ⟨2, ![50000, 1]⟩
abbrev S50000 : Shape := ⟨1, ![50000]⟩
abbrev S1x128 : Shape := ⟨2, ![1, 128]⟩

abbrev nBuf : Space → Nat
  | .hbm => 214
  | .vmem => 0
  | .smem => 0
  | _ => 0

abbrev hbmTy0_0 (i : Nat) : BufTy := match i % 128 with
  | 0 => ⟨S50000x128, .f32⟩
  | 1 => ⟨S50000x128, .f32⟩
  | 2 => ⟨S2x200000, .i32⟩
  | 3 => ⟨S2x200000, .i32⟩
  | 4 => ⟨S2x200000, .i32⟩
  | 5 => ⟨S128x128, .f32⟩
  | 6 => ⟨S128x128, .f32⟩
  | 7 => ⟨S128x128, .f32⟩
  | 8 => ⟨S128, .f32⟩
  | 9 => ⟨S128, .f32⟩
  | 10 => ⟨S128x128, .f32⟩
  | 11 => ⟨S50000x128, .f32⟩
  | 12 => ⟨S128x128, .f32⟩
  | 13 => ⟨S50000x128, .f32⟩
  | 14 => ⟨S50000x128, .f32⟩
  | 15 => ⟨S_, .f32⟩
  | 16 => ⟨S50000x128, .f32⟩
  | 17 => ⟨S50000x128, .f32⟩
  | 18 => ⟨S128x128, .f32⟩
  | 19 => ⟨S50000x128, .f32⟩
  | 20 => ⟨S1x200000, .i32⟩
  | 21 => ⟨S200000, .i32⟩
  | 22 => ⟨S1x200000, .i32⟩
  | 23 => ⟨S200000, .i32⟩
  | 24 => ⟨S_, .i32⟩
  | 25 => ⟨S200000, .i32⟩
  | 26 => ⟨S200000, .i1⟩
  | 27 => ⟨S_, .i32⟩
  | 28 => ⟨S200000, .i32⟩
  | 29 => ⟨S200000, .i32⟩
  | 30 => ⟨S200000, .i32⟩
  | 31 => ⟨S200000x1, .i32⟩
  | 32 => ⟨S1, .i32⟩
  | 33 => ⟨S_, .i32⟩
  | 34 => ⟨S200000x1, .i32⟩
  | 35 => ⟨S200000x1, .i1⟩
  | 36 => ⟨S1x1, .i32⟩
  | 37 => ⟨S200000x1, .i32⟩
  | 38 => ⟨S200000x1, .i1⟩
  | 39 => ⟨S200000x1, .i1⟩
  | 40 => ⟨S_, .i1⟩
  | 41 => ⟨S200000, .i1⟩
  | 42 => ⟨S200000x128, .f32⟩
  | 43 => ⟨S200000x128, .i1⟩
  | 44 => ⟨S_, .f32⟩
  | 45 => ⟨S200000x128, .f32⟩
  | 46 => ⟨S200000x128, .f32⟩
  | 47 => ⟨S_, .f32⟩
  | 48 => ⟨S50000x128, .f32⟩
  | 49 => ⟨S200000x1, .i32⟩
  | 50 => ⟨S50000x128, .f32⟩
  | 51 => ⟨S_, .f32⟩
  | 52 => ⟨S200000x1, .f32⟩
  | 53 => ⟨S_, .f32⟩
  | 54 => ⟨S50000x1, .f32⟩
  | 55 => ⟨S200000x1, .i32⟩
  | 56 => ⟨S50000x1, .f32⟩
  | 57 => ⟨S_, .f32⟩
  | 58 => ⟨S50000x1, .f32⟩
  | 59 => ⟨S50000x1, .f32⟩
  | 60 => ⟨S50000x128, .f32⟩
  | 61 => ⟨S50000x128, .f32⟩
  | 62 => ⟨S1x200000, .i32⟩
  | 63 => ⟨S200000, .i32⟩
  | 64 => ⟨S1x200000, .i32⟩
  | 65 => ⟨S200000, .i32⟩
  | 66 => ⟨S_, .i32⟩
  | 67 => ⟨S200000, .i32⟩
  | 68 => ⟨S200000, .i1⟩
  | 69 => ⟨S_, .i32⟩
  | 70 => ⟨S200000, .i32⟩
  | 71 => ⟨S200000, .i32⟩
  | 72 => ⟨S200000, .i32⟩
  | 73 => ⟨S200000x1, .i32⟩
  | 74 => ⟨S1, .i32⟩
  | 75 => ⟨S_, .i32⟩
  | 76 => ⟨S200000x1, .i32⟩
  | 77 => ⟨S200000x1, .i1⟩
  | 78 => ⟨S1x1, .i32⟩
  | 79 => ⟨S200000x1, .i32⟩
  | 80 => ⟨S200000x1, .i1⟩
  | 81 => ⟨S200000x1, .i1⟩
  | 82 => ⟨S_, .i1⟩
  | 83 => ⟨S200000, .i1⟩
  | 84 => ⟨S200000x128, .f32⟩
  | 85 => ⟨S200000x128, .i1⟩
  | 86 => ⟨S_, .f32⟩
  | 87 => ⟨S200000x128, .f32⟩
  | 88 => ⟨S200000x128, .f32⟩
  | 89 => ⟨S_, .f32⟩
  | 90 => ⟨S50000x128, .f32⟩
  | 91 => ⟨S200000x1, .i32⟩
  | 92 => ⟨S50000x128, .f32⟩
  | 93 => ⟨S_, .f32⟩
  | 94 => ⟨S200000x1, .f32⟩
  | 95 => ⟨S_, .f32⟩
  | 96 => ⟨S50000x1, .f32⟩
  | 97 => ⟨S200000x1, .i32⟩
  | 98 => ⟨S50000x1, .f32⟩
  | 99 => ⟨S_, .f32⟩
  | 100 => ⟨S50000x1, .f32⟩
  | 101 => ⟨S50000x1, .f32⟩
  | 102 => ⟨S50000x128, .f32⟩
  | 103 => ⟨S50000x128, .f32⟩
  | 104 => ⟨S50000x128, .f32⟩
  | 105 => ⟨S_, .f32⟩
  | 106 => ⟨S50000x128, .f32⟩
  | 107 => ⟨S50000x128, .f32⟩
  | 108 => ⟨S1x200000, .i32⟩
  | 109 => ⟨S200000, .i32⟩
  | 110 => ⟨S1x200000, .i32⟩
  | 111 => ⟨S200000, .i32⟩
  | 112 => ⟨S_, .i32⟩
  | 113 => ⟨S200000, .i32⟩
  | 114 => ⟨S200000, .i1⟩
  | 115 => ⟨S_, .i32⟩
  | 116 => ⟨S200000, .i32⟩
  | 117 => ⟨S200000, .i32⟩
  | 118 => ⟨S200000, .i32⟩
  | 119 => ⟨S200000x1, .i32⟩
  | 120 => ⟨S1, .i32⟩
  | 121 => ⟨S_, .i32⟩
  | 122 => ⟨S200000x1, .i32⟩
  | 123 => ⟨S200000x1, .i1⟩
  | 124 => ⟨S1x1, .i32⟩
  | 125 => ⟨S200000x1, .i32⟩
  | 126 => ⟨S200000x1, .i1⟩
  | 127 => ⟨S200000x1, .i1⟩
  | _ => ⟨S50000x128, .f32⟩

abbrev hbmTy0_1 (i : Nat) : BufTy := match i % 128 with
  | 0 => ⟨S_, .i1⟩
  | 1 => ⟨S200000, .i1⟩
  | 2 => ⟨S200000x128, .f32⟩
  | 3 => ⟨S200000x128, .i1⟩
  | 4 => ⟨S_, .f32⟩
  | 5 => ⟨S200000x128, .f32⟩
  | 6 => ⟨S200000x128, .f32⟩
  | 7 => ⟨S_, .f32⟩
  | 8 => ⟨S50000x128, .f32⟩
  | 9 => ⟨S200000x1, .i32⟩
  | 10 => ⟨S50000x128, .f32⟩
  | 11 => ⟨S_, .f32⟩
  | 12 => ⟨S200000x1, .f32⟩
  | 13 => ⟨S_, .f32⟩
  | 14 => ⟨S50000x1, .f32⟩
  | 15 => ⟨S200000x1, .i32⟩
  | 16 => ⟨S50000x1, .f32⟩
  | 17 => ⟨S_, .f32⟩
  | 18 => ⟨S50000x1, .f32⟩
  | 19 => ⟨S50000x1, .f32⟩
  | 20 => ⟨S50000x128, .f32⟩
  | 21 => ⟨S50000x128, .f32⟩
  | 22 => ⟨S_, .f32⟩
  | 23 => ⟨S50000x128, .f32⟩
  | 24 => ⟨S50000x128, .f32⟩
  | 25 => ⟨S_, .f32⟩
  | 26 => ⟨S50000, .f32⟩
  | 27 => ⟨S50000x1, .f32⟩
  | 28 => ⟨S_, .f32⟩
  | 29 => ⟨S50000x1, .f32⟩
  | 30 => ⟨S50000x1, .f32⟩
  | 31 => ⟨S50000x128, .f32⟩
  | 32 => ⟨S50000x128, .f32⟩
  | 33 => ⟨S50000x128, .f32⟩
  | 34 => ⟨S_, .f32⟩
  | 35 => ⟨S50000, .f32⟩
  | 36 => ⟨S50000x1, .f32⟩
  | 37 => ⟨S_, .f32⟩
  | 38 => ⟨S50000x1, .f32⟩
  | 39 => ⟨S50000x1, .f32⟩
  | 40 => ⟨S50000x128, .f32⟩
  | 41 => ⟨S50000x128, .f32⟩
  | 42 => ⟨S_, .f32⟩
  | 43 => ⟨S50000x1, .f32⟩
  | 44 => ⟨S50000x1, .f32⟩
  | 45 => ⟨S50000x1, .f32⟩
  | 46 => ⟨S50000x128, .f32⟩
  | 47 => ⟨S50000x128, .f32⟩
  | 48 => ⟨S1x128, .f32⟩
  | 49 => ⟨S50000x128, .f32⟩
  | 50 => ⟨S50000x128, .f32⟩
  | 51 => ⟨S1x128, .f32⟩
  | 52 => ⟨S50000x128, .f32⟩
  | 53 => ⟨S50000x128, .f32⟩
  | 54 => ⟨S_, .f32⟩
  | 55 => ⟨S50000x128, .f32⟩
  | 56 => ⟨S50000x128, .f32⟩
  | 57 => ⟨S_, .f32⟩
  | 58 => ⟨S50000, .f32⟩
  | 59 => ⟨S50000x1, .f32⟩
  | 60 => ⟨S_, .f32⟩
  | 61 => ⟨S50000x1, .f32⟩
  | 62 => ⟨S50000x1, .f32⟩
  | 63 => ⟨S50000x128, .f32⟩
  | 64 => ⟨S50000x128, .f32⟩
  | 65 => ⟨S50000x128, .f32⟩
  | 66 => ⟨S_, .f32⟩
  | 67 => ⟨S50000, .f32⟩
  | 68 => ⟨S50000x1, .f32⟩
  | 69 => ⟨S_, .f32⟩
  | 70 => ⟨S50000x1, .f32⟩
  | 71 => ⟨S50000x1, .f32⟩
  | 72 => ⟨S50000x128, .f32⟩
  | 73 => ⟨S50000x128, .f32⟩
  | 74 => ⟨S_, .f32⟩
  | 75 => ⟨S50000x1, .f32⟩
  | 76 => ⟨S50000x1, .f32⟩
  | 77 => ⟨S50000x1, .f32⟩
  | 78 => ⟨S50000x128, .f32⟩
  | 79 => ⟨S50000x128, .f32⟩
  | 80 => ⟨S1x128, .f32⟩
  | 81 => ⟨S50000x128, .f32⟩
  | 82 => ⟨S50000x128, .f32⟩
  | 83 => ⟨S1x128, .f32⟩
  | 84 => ⟨S50000x128, .f32⟩
  | 85 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_call0_c : Ref sig .tc := ⟨.hbm, 24, rfl⟩
abbrev main_call0_v0 : Ref sig .tc := ⟨.hbm, 25, rfl⟩
abbrev main_call0_v1 : Ref sig .tc := ⟨.hbm, 26, rfl⟩
abbrev main_call0_c_0 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_c_1 : Ref sig .tc := ⟨.hbm, 32, rfl⟩
abbrev main_call0_c_2 : Ref sig .tc := ⟨.hbm, 33, rfl⟩
abbrev main_call0_v6 : Ref sig .tc := ⟨.hbm, 34, rfl⟩
abbrev main_call0_v7 : Ref sig .tc := ⟨.hbm, 35, rfl⟩
abbrev main_call0_v8 : Ref sig .tc := ⟨.hbm, 36, rfl⟩
abbrev main_call0_v9 : Ref sig .tc := ⟨.hbm, 37, rfl⟩
abbrev main_call0_v10 : Ref sig .tc := ⟨.hbm, 38, rfl⟩
abbrev main_call0_v11 : Ref sig .tc := ⟨.hbm, 39, rfl⟩
abbrev main_call0_c_3 : Ref sig .tc := ⟨.hbm, 40, rfl⟩
abbrev main_call0_v12 : Ref sig .tc := ⟨.hbm, 41, rfl⟩
abbrev main_call0_v13 : Ref sig .tc := ⟨.hbm, 42, rfl⟩
abbrev main_call0_v14 : Ref sig .tc := ⟨.hbm, 43, rfl⟩
abbrev main_call0_cst : Ref sig .tc := ⟨.hbm, 44, rfl⟩
abbrev main_call0_v15 : Ref sig .tc := ⟨.hbm, 45, rfl⟩
abbrev main_v13 : Ref sig .tc := ⟨.hbm, 46, rfl⟩
abbrev main_cst_0 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_cst_1 : Ref sig .tc := ⟨.hbm, 51, rfl⟩
abbrev main_v17 : Ref sig .tc := ⟨.hbm, 52, rfl⟩
abbrev main_cst_2 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_cst_3 : Ref sig .tc := ⟨.hbm, 57, rfl⟩
abbrev main_v21 : Ref sig .tc := ⟨.hbm, 58, rfl⟩
abbrev main_v22 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_call1_c : Ref sig .tc := ⟨.hbm, 66, rfl⟩
abbrev main_call1_v0 : Ref sig .tc := ⟨.hbm, 67, rfl⟩
abbrev main_call1_v1 : Ref sig .tc := ⟨.hbm, 68, rfl⟩
abbrev main_call1_c_0 : Ref sig .tc := ⟨.hbm, 69, rfl⟩
abbrev main_call1_v2 : Ref sig .tc := ⟨.hbm, 70, rfl⟩
abbrev main_call1_v3 : Ref sig .tc := ⟨.hbm, 71, rfl⟩
abbrev main_call1_v4 : Ref sig .tc := ⟨.hbm, 72, rfl⟩
abbrev main_call1_v5 : Ref sig .tc := ⟨.hbm, 73, rfl⟩
abbrev main_call1_c_1 : Ref sig .tc := ⟨.hbm, 74, rfl⟩
abbrev main_call1_c_2 : Ref sig .tc := ⟨.hbm, 75, rfl⟩
abbrev main_call1_v6 : Ref sig .tc := ⟨.hbm, 76, rfl⟩
abbrev main_call1_v7 : Ref sig .tc := ⟨.hbm, 77, rfl⟩
abbrev main_call1_v8 : Ref sig .tc := ⟨.hbm, 78, rfl⟩
abbrev main_call1_v9 : Ref sig .tc := ⟨.hbm, 79, rfl⟩
abbrev main_call1_v10 : Ref sig .tc := ⟨.hbm, 80, rfl⟩
abbrev main_call1_v11 : Ref sig .tc := ⟨.hbm, 81, rfl⟩
abbrev main_call1_c_3 : Ref sig .tc := ⟨.hbm, 82, rfl⟩
abbrev main_call1_v12 : Ref sig .tc := ⟨.hbm, 83, rfl⟩
abbrev main_call1_v13 : Ref sig .tc := ⟨.hbm, 84, rfl⟩
abbrev main_call1_v14 : Ref sig .tc := ⟨.hbm, 85, rfl⟩
abbrev main_call1_cst : Ref sig .tc := ⟨.hbm, 86, rfl⟩
abbrev main_call1_v15 : Ref sig .tc := ⟨.hbm, 87, rfl⟩
abbrev main_v29 : Ref sig .tc := ⟨.hbm, 88, rfl⟩
abbrev main_cst_4 : Ref sig .tc := ⟨.hbm, 89, rfl⟩
abbrev main_v30 : Ref sig .tc := ⟨.hbm, 90, rfl⟩
abbrev main_v31 : Ref sig .tc := ⟨.hbm, 91, rfl⟩
abbrev main_v32 : Ref sig .tc := ⟨.hbm, 92, rfl⟩
abbrev main_cst_5 : Ref sig .tc := ⟨.hbm, 93, rfl⟩
abbrev main_v33 : Ref sig .tc := ⟨.hbm, 94, rfl⟩
abbrev main_cst_6 : Ref sig .tc := ⟨.hbm, 95, rfl⟩
abbrev main_v34 : Ref sig .tc := ⟨.hbm, 96, rfl⟩
abbrev main_v35 : Ref sig .tc := ⟨.hbm, 97, rfl⟩
abbrev main_v36 : Ref sig .tc := ⟨.hbm, 98, rfl⟩
abbrev main_cst_7 : Ref sig .tc := ⟨.hbm, 99, rfl⟩
abbrev main_v37 : Ref sig .tc := ⟨.hbm, 100, rfl⟩
abbrev main_v38 : Ref sig .tc := ⟨.hbm, 101, rfl⟩
abbrev main_v39 : Ref sig .tc := ⟨.hbm, 102, rfl⟩
abbrev main_v40 : Ref sig .tc := ⟨.hbm, 103, rfl⟩
abbrev main_v41 : Ref sig .tc := ⟨.hbm, 104, rfl⟩
abbrev main_cst_8 : Ref sig .tc := ⟨.hbm, 105, rfl⟩
abbrev main_v42 : Ref sig .tc := ⟨.hbm, 106, rfl⟩
abbrev main_v43 : Ref sig .tc := ⟨.hbm, 107, rfl⟩
abbrev main_v44 : Ref sig .tc := ⟨.hbm, 108, rfl⟩
abbrev main_v45 : Ref sig .tc := ⟨.hbm, 109, rfl⟩
abbrev main_v46 : Ref sig .tc := ⟨.hbm, 110, rfl⟩
abbrev main_v47 : Ref sig .tc := ⟨.hbm, 111, rfl⟩
abbrev main_call2_c : Ref sig .tc := ⟨.hbm, 112, rfl⟩
abbrev main_call2_v0 : Ref sig .tc := ⟨.hbm, 113, rfl⟩
abbrev main_call2_v1 : Ref sig .tc := ⟨.hbm, 114, rfl⟩
abbrev main_call2_c_0 : Ref sig .tc := ⟨.hbm, 115, rfl⟩
abbrev main_call2_v2 : Ref sig .tc := ⟨.hbm, 116, rfl⟩
abbrev main_call2_v3 : Ref sig .tc := ⟨.hbm, 117, rfl⟩
abbrev main_call2_v4 : Ref sig .tc := ⟨.hbm, 118, rfl⟩
abbrev main_call2_v5 : Ref sig .tc := ⟨.hbm, 119, rfl⟩
abbrev main_call2_c_1 : Ref sig .tc := ⟨.hbm, 120, rfl⟩
abbrev main_call2_c_2 : Ref sig .tc := ⟨.hbm, 121, rfl⟩
abbrev main_call2_v6 : Ref sig .tc := ⟨.hbm, 122, rfl⟩
abbrev main_call2_v7 : Ref sig .tc := ⟨.hbm, 123, rfl⟩
abbrev main_call2_v8 : Ref sig .tc := ⟨.hbm, 124, rfl⟩
abbrev main_call2_v9 : Ref sig .tc := ⟨.hbm, 125, rfl⟩
abbrev main_call2_v10 : Ref sig .tc := ⟨.hbm, 126, rfl⟩
abbrev main_call2_v11 : Ref sig .tc := ⟨.hbm, 127, rfl⟩
abbrev main_call2_c_3 : Ref sig .tc := ⟨.hbm, 128, rfl⟩
abbrev main_call2_v12 : Ref sig .tc := ⟨.hbm, 129, rfl⟩
abbrev main_call2_v13 : Ref sig .tc := ⟨.hbm, 130, rfl⟩
abbrev main_call2_v14 : Ref sig .tc := ⟨.hbm, 131, rfl⟩
abbrev main_call2_cst : Ref sig .tc := ⟨.hbm, 132, rfl⟩
abbrev main_call2_v15 : Ref sig .tc := ⟨.hbm, 133, rfl⟩
abbrev main_v48 : Ref sig .tc := ⟨.hbm, 134, rfl⟩
abbrev main_cst_9 : Ref sig .tc := ⟨.hbm, 135, rfl⟩
abbrev main_v49 : Ref sig .tc := ⟨.hbm, 136, rfl⟩
abbrev main_v50 : Ref sig .tc := ⟨.hbm, 137, rfl⟩
abbrev main_v51 : Ref sig .tc := ⟨.hbm, 138, rfl⟩
abbrev main_cst_10 : Ref sig .tc := ⟨.hbm, 139, rfl⟩
abbrev main_v52 : Ref sig .tc := ⟨.hbm, 140, rfl⟩
abbrev main_cst_11 : Ref sig .tc := ⟨.hbm, 141, rfl⟩
abbrev main_v53 : Ref sig .tc := ⟨.hbm, 142, rfl⟩
abbrev main_v54 : Ref sig .tc := ⟨.hbm, 143, rfl⟩
abbrev main_v55 : Ref sig .tc := ⟨.hbm, 144, rfl⟩
abbrev main_cst_12 : Ref sig .tc := ⟨.hbm, 145, rfl⟩
abbrev main_v56 : Ref sig .tc := ⟨.hbm, 146, rfl⟩
abbrev main_v57 : Ref sig .tc := ⟨.hbm, 147, rfl⟩
abbrev main_v58 : Ref sig .tc := ⟨.hbm, 148, rfl⟩
abbrev main_v59 : Ref sig .tc := ⟨.hbm, 149, rfl⟩
abbrev main_call3_cst : Ref sig .tc := ⟨.hbm, 150, rfl⟩
abbrev main_call3_v0 : Ref sig .tc := ⟨.hbm, 151, rfl⟩
abbrev main_v60 : Ref sig .tc := ⟨.hbm, 152, rfl⟩
abbrev main_cst_13 : Ref sig .tc := ⟨.hbm, 153, rfl⟩
abbrev main_v61 : Ref sig .tc := ⟨.hbm, 154, rfl⟩
abbrev main_v62 : Ref sig .tc := ⟨.hbm, 155, rfl⟩
abbrev main_cst_14 : Ref sig .tc := ⟨.hbm, 156, rfl⟩
abbrev main_v63 : Ref sig .tc := ⟨.hbm, 157, rfl⟩
abbrev main_v64 : Ref sig .tc := ⟨.hbm, 158, rfl⟩
abbrev main_v65 : Ref sig .tc := ⟨.hbm, 159, rfl⟩
abbrev main_v66 : Ref sig .tc := ⟨.hbm, 160, rfl⟩
abbrev main_v67 : Ref sig .tc := ⟨.hbm, 161, rfl⟩
abbrev main_cst_15 : Ref sig .tc := ⟨.hbm, 162, rfl⟩
abbrev main_v68 : Ref sig .tc := ⟨.hbm, 163, rfl⟩
abbrev main_v69 : Ref sig .tc := ⟨.hbm, 164, rfl⟩
abbrev main_cst_16 : Ref sig .tc := ⟨.hbm, 165, rfl⟩
abbrev main_v70 : Ref sig .tc := ⟨.hbm, 166, rfl⟩
abbrev main_v71 : Ref sig .tc := ⟨.hbm, 167, rfl⟩
abbrev main_v72 : Ref sig .tc := ⟨.hbm, 168, rfl⟩
abbrev main_v73 : Ref sig .tc := ⟨.hbm, 169, rfl⟩
abbrev main_cst_17 : Ref sig .tc := ⟨.hbm, 170, rfl⟩
abbrev main_v74 : Ref sig .tc := ⟨.hbm, 171, rfl⟩
abbrev main_v75 : Ref sig .tc := ⟨.hbm, 172, rfl⟩
abbrev main_v76 : Ref sig .tc := ⟨.hbm, 173, rfl⟩
abbrev main_v77 : Ref sig .tc := ⟨.hbm, 174, rfl⟩
abbrev main_v78 : Ref sig .tc := ⟨.hbm, 175, rfl⟩
abbrev main_v79 : Ref sig .tc := ⟨.hbm, 176, rfl⟩
abbrev main_v80 : Ref sig .tc := ⟨.hbm, 177, rfl⟩
abbrev main_v81 : Ref sig .tc := ⟨.hbm, 178, rfl⟩
abbrev main_v82 : Ref sig .tc := ⟨.hbm, 179, rfl⟩
abbrev main_v83 : Ref sig .tc := ⟨.hbm, 180, rfl⟩
abbrev main_v84 : Ref sig .tc := ⟨.hbm, 181, rfl⟩
abbrev main_call4_cst : Ref sig .tc := ⟨.hbm, 182, rfl⟩
abbrev main_call4_v0 : Ref sig .tc := ⟨.hbm, 183, rfl⟩
abbrev main_v85 : Ref sig .tc := ⟨.hbm, 184, rfl⟩
abbrev main_cst_18 : Ref sig .tc := ⟨.hbm, 185, rfl⟩
abbrev main_v86 : Ref sig .tc := ⟨.hbm, 186, rfl⟩
abbrev main_v87 : Ref sig .tc := ⟨.hbm, 187, rfl⟩
abbrev main_cst_19 : Ref sig .tc := ⟨.hbm, 188, rfl⟩
abbrev main_v88 : Ref sig .tc := ⟨.hbm, 189, rfl⟩
abbrev main_v89 : Ref sig .tc := ⟨.hbm, 190, rfl⟩
abbrev main_v90 : Ref sig .tc := ⟨.hbm, 191, rfl⟩
abbrev main_v91 : Ref sig .tc := ⟨.hbm, 192, rfl⟩
abbrev main_v92 : Ref sig .tc := ⟨.hbm, 193, rfl⟩
abbrev main_cst_20 : Ref sig .tc := ⟨.hbm, 194, rfl⟩
abbrev main_v93 : Ref sig .tc := ⟨.hbm, 195, rfl⟩
abbrev main_v94 : Ref sig .tc := ⟨.hbm, 196, rfl⟩
abbrev main_cst_21 : Ref sig .tc := ⟨.hbm, 197, rfl⟩
abbrev main_v95 : Ref sig .tc := ⟨.hbm, 198, rfl⟩
abbrev main_v96 : Ref sig .tc := ⟨.hbm, 199, rfl⟩
abbrev main_v97 : Ref sig .tc := ⟨.hbm, 200, rfl⟩
abbrev main_v98 : Ref sig .tc := ⟨.hbm, 201, rfl⟩
abbrev main_cst_22 : Ref sig .tc := ⟨.hbm, 202, rfl⟩
abbrev main_v99 : Ref sig .tc := ⟨.hbm, 203, rfl⟩
abbrev main_v100 : Ref sig .tc := ⟨.hbm, 204, rfl⟩
abbrev main_v101 : Ref sig .tc := ⟨.hbm, 205, rfl⟩
abbrev main_v102 : Ref sig .tc := ⟨.hbm, 206, rfl⟩
abbrev main_v103 : Ref sig .tc := ⟨.hbm, 207, rfl⟩
abbrev main_v104 : Ref sig .tc := ⟨.hbm, 208, rfl⟩
abbrev main_v105 : Ref sig .tc := ⟨.hbm, 209, rfl⟩
abbrev main_v106 : Ref sig .tc := ⟨.hbm, 210, rfl⟩
abbrev main_v107 : Ref sig .tc := ⟨.hbm, 211, rfl⟩
abbrev main_v108 : Ref sig .tc := ⟨.hbm, 212, rfl⟩
abbrev main_v109 : Ref sig .tc := ⟨.hbm, 213, rfl⟩

abbrev nD : Nat := 1
abbrev τ : Topo := Topo.v7x

variable {F : FTy → Type} [FloatOps F]

class Facts₀ : Prop where
  transposes_S128x128_S128x128_1_0 : S128x128.Transposes [1, 0] S128x128
  bcast_S_S50000x128 : S_.BroadcastsInDim S50000x128 (![] : Fin 0 → Fin S50000x128.rank)
  slices_S2x200000_S1x200000_0_0 : S2x200000.Slices ![0, 0] S1x200000
  shapeCasts_S1x200000_S200000 : S1x200000.ShapeCasts S200000
  slices_S2x200000_S1x200000_1_0 : S2x200000.Slices ![1, 0] S1x200000
  bcast_S_S200000 : S_.BroadcastsInDim S200000 (![] : Fin 0 → Fin S200000.rank)
  bcast_S200000_S200000x1_0 : S200000.BroadcastsInDim S200000x1 (![0] : Fin 1 → Fin S200000x1.rank)
  bcast_S_S200000x1 : S_.BroadcastsInDim S200000x1 (![] : Fin 0 → Fin S200000x1.rank)
  bcast_S1_S1x1_1 : S1.BroadcastsInDim S1x1 (![1] : Fin 1 → Fin S1x1.rank)
  bcast_S1x1_S200000x1_0_1 : S1x1.BroadcastsInDim S200000x1 (![0, 1] : Fin 2 → Fin S200000x1.rank)
  reducesTo_S200000x1_S200000_d1 : S200000x1.ReducesTo [1] S200000
  h_S_ : 0 < S_.numel
  bcast_S200000_S200000x128_0 : S200000.BroadcastsInDim S200000x128 (![0] : Fin 1 → Fin S200000x128.rank)
  bcast_S_S200000x128 : S_.BroadcastsInDim S200000x128 (![] : Fin 0 → Fin S200000x128.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  reducesTo_S50000x128_S50000_d1 : S50000x128.ReducesTo [1] S50000
  bcast_S50000_S50000x1_0 : S50000.BroadcastsInDim S50000x1 (![0] : Fin 1 → Fin S50000x1.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  dot_S50000x128_S128x128_S50000x128_1_0_0_1_n_n_wf : DotDims.WF S50000x128 S128x128 S50000x128 [1] [0] [0] [1] [] []
  gather_S50000x128_S200000x1_S200000x128_1_0_n_n_0_1_1128_wf : GatherDims.WF S50000x128 S200000x1 S200000x128 [1] [0] [] [0] [] 1 ![1, 128]
  scatter_S50000x128_S200000x1_S200000x128_1_0_0_1_wf : ScatterDims.WF S50000x128 S200000x1 S200000x128 [1] [0] [0] 1
  scatter_S50000x1_S200000x1_S200000x1_1_0_0_1_wf : ScatterDims.WF S50000x1 S200000x1 S200000x1 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S200000x1_S200000x128_1_0_n_n_0_1_1128 : GatherDims S50000x128 S200000x1 S200000x128 where
  offsetDims := [1]
  collapsedSliceDims := [0]
  operandBatchingDims := []
  startIndicesBatchingDims := []
  startIndexMap := [0]
  indexVectorDim := 1
  sliceSizes := ![1, 128]
  wf := gather_S50000x128_S200000x1_S200000x128_1_0_n_n_0_1_1128_wf
def scatter_S50000x128_S200000x1_S200000x128_1_0_0_1 : ScatterDims S50000x128 S200000x1 S200000x128 where
  updateWindowDims := [1]
  insertedWindowDims := [0]
  scatterDimsToOperandDims := [0]
  indexVectorDim := 1
  wf := scatter_S50000x128_S200000x1_S200000x128_1_0_0_1_wf
def scatter_S50000x1_S200000x1_S200000x1_1_0_0_1 : ScatterDims S50000x1 S200000x1 S200000x1 where
  updateWindowDims := [1]
  insertedWindowDims := [0]
  scatterDimsToOperandDims := [0]
  indexVectorDim := 1
  wf := scatter_S50000x1_S200000x1_S200000x1_1_0_0_1_wf

class Facts : Prop extends Facts₀ where

variable [Facts]
-- ==== Proof.KRun.lean ====
/-
  The idealized kernel's run with its two result arrays named.  The program is two pipelined regions among
  stretches of host operations; the segment-by-segment run leaves every unscoped buffer of a core at the last
  boundary's contents, so each result array is read there: the second region's output windows 8 and 9 after
  all fifty grid points have written their blocks back.
-/
import proofs.«173363_g86715389706548_cont_9to1_m_205_2_alg».proof.Proof.Gen.KernelIdeal.Frame

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first result array is output window 8's array of the second region. -/
theorem W10_out0 (c : Dev nD) :
    W10 m ρ c (Proc.devRef .tc main_v44_0) = (dat1 (V9 m ρ) c).arrAt 8 cfg1.N := W10_arr m ρ c 8

/-- The second result array is output window 9's array of the second region. -/
theorem W10_out1 (c : Dev nD) :
    W10 m ρ c (Proc.devRef .tc main_v44_1) = (dat1 (V9 m ρ) c).arrAt 9 cfg1.N := W10_arr m ρ c 9

set_option backward.isDefEq.respectTransparency.types false in
/-- Every weakly fair execution of the program terminates without a fault; the two result arrays end at what the
    second region's write-backs leave, and the ten argument arrays end as launched. -/
theorem run : θ_run defs (onTc (τ := τ) (main (F := F))) ⟨m, fun _ => 0, ρ⟩ (fun r => ∀ c : Dev nD,
      r.2.mem ((c.tc : Thread nD τ).loc main_v44_0) = (dat1 (V9 m ρ) c).arrAt 8 cfg1.N
      ∧ r.2.mem ((c.tc : Thread nD τ).loc main_v44_1) = (dat1 (V9 m ρ) c).arrAt 9 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨(h c _ (mem_uc main_v44_0 (by decide))).trans (W10_out0 m ρ c),
       (h c _ (mem_uc main_v44_1 (by decide))).trans (W10_out1 m ρ c),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c)⟩)

end Cert.KernelIdeal.KRun

end
-- ==== Proof.KHost.lean ====
/-
  The host operations between the two regions, read as functions.  For each of the three edge lists the program
  takes the source rows of a transformed feature array (an out-of-range id reads a row of the not-a-number word),
  adds them into the destination rows of a zero array, and counts the destinations the same way by adding ones; the
  scale and the shift vectors are recast as rows.  Each buffer the second region reads is that function of what the
  first region left and of the arguments.
-/
import proofs.«173363_g86715389706548_cont_9to1_m_205_2_alg».proof.Proof.Gen.KernelIdeal.Frame
import Idealize.ShloMosaic.Lib.StableHlo.Run

set_option maxRecDepth 16384

noncomputable section

namespace Cert.KernelIdeal.KHost

open Idealize.ShloMosaic Idealize.ShloMosaic.TcCoe Idealize.SL.Sem
open Cert.KernelIdeal Cert.KernelIdeal.Gen Idealize.ShloMosaic.StableHlo

variable {F : FTy → Type} [FloatOps F]

/-- The source node ids of an edge list: its row 0. -/
def srcIds (e : (⟨S2x200000, .i32⟩ : BufTy).Contents (Elt F)) : (⟨S200000, .i32⟩ : BufTy).Contents (Elt F) :=
  shapeCast S200000 (extractStridedSlice S1x200000 ![0, 0] e slices_S2x200000_S1x200000_0_0) shapeCasts_S1x200000_S200000

/-- The destination node ids of an edge list: its row 1. -/
def dstIds (e : (⟨S2x200000, .i32⟩ : BufTy).Contents (Elt F)) : (⟨S200000, .i32⟩ : BufTy).Contents (Elt F) :=
  shapeCast S200000 (extractStridedSlice S1x200000 ![1, 0] e slices_S2x200000_S1x200000_1_0) shapeCasts_S1x200000_S200000

/-- The ids as gather starts: a negative id wrapped by the number of rows, as a column. -/
def wrapIds (ids : (⟨S200000, .i32⟩ : BufTy).Contents (Elt F)) : (⟨S200000x1, .i32⟩ : BufTy).Contents (Elt F) :=
  broadcastInDim S200000x1 ![0] bcast_S200000_S200000x1_0
    (select (cmpi .slt ids (broadcastInDim S200000 ![] bcast_S_S200000 (constantI S_ 32 0#32)))
      (addi ids (broadcastInDim S200000 ![] bcast_S_S200000 (constantI S_ 32 50000#32))) ids)

/-- Rows of `t` taken at the ids; a row whose wrapped id is outside 0 … 49999 is filled with the not-a-number word. -/
def takeRows (t : (⟨S50000x128, .f32⟩ : BufTy).Contents (Elt F)) (ids : (⟨S200000, .i32⟩ : BufTy).Contents (Elt F)) :
    (⟨S200000x128, .f32⟩ : BufTy).Contents (Elt F) :=
  select
    (broadcastInDim S200000x128 ![0] bcast_S200000_S200000x128_0
      (Host.reduce IntOp.andi
        (andi (cmpi .sge (wrapIds (F := F) ids) (broadcastInDim S200000x1 ![] bcast_S_S200000x1 (constantI S_ 32 0#32)))
          (cmpi .sle (wrapIds (F := F) ids)
            (broadcastInDim S200000x1 ![0, 1] bcast_S1x1_S200000x1_0_1 (broadcastInDim S1x1 ![1] bcast_S1_S1x1_1 (constantI S1 32 49999#32)))))
        (constantI S_ 1 1#1) reducesTo_S200000x1_S200000_d1 h_S_))
    (Host.gather gather_S50000x128_S200000x1_S200000x128_1_0_n_n_0_1_1128 t (wrapIds (F := F) ids))
    (broadcastInDim S200000x128 ![] bcast_S_S200000x128 (constant S_ .f32 0x7FC00000#32))

/-- The messages summed at their destinations. -/
def segSum (t : (⟨S50000x128, .f32⟩ : BufTy).Contents (Elt F)) (e : (⟨S2x200000, .i32⟩ : BufTy).Contents (Elt F)) :
    (⟨S50000x128, .f32⟩ : BufTy).Contents (Elt F) :=
  Host.scatterAdd scatter_S50000x128_S200000x1_S200000x128_1_0_0_1
    (broadcastInDim S50000x128 ![] bcast_S_S50000x128 (constant S_ .f32 0x00000000#32))
    (broadcastInDim S200000x1 ![0] bcast_S200000_S200000x1_0 (dstIds (F := F) e))
    (takeRows t (srcIds (F := F) e))

/-- The number of messages at each destination, as a column. -/
def segCnt (e : (⟨S2x200000, .i32⟩ : BufTy).Contents (Elt F)) : (⟨S50000x1, .f32⟩ : BufTy).Contents (Elt F) :=
  Host.scatterAdd scatter_S50000x1_S200000x1_S200000x1_1_0_0_1
    (broadcastInDim S50000x1 ![] bcast_S_S50000x1 (constant S_ .f32 0x00000000#32))
    (broadcastInDim S200000x1 ![0] bcast_S200000_S200000x1_0 (dstIds (F := F) e))
    (broadcastInDim S200000x1 ![] bcast_S_S200000x1 (constant S_ .f32 0x3F800000#32))

/-- The combined weight the first region multiplies the user features by: the halved sum of two weights, transposed. -/
def combinedWeight (w5 w6 : (⟨S128x128, .f32⟩ : BufTy).Contents (Elt F)) : (⟨S128x128, .f32⟩ : BufTy).Contents (Elt F) :=
  transpose S128x128 [1, 0] (mulf (addf w5 w6) (broadcastInDim S128x128 ![] bcast_S_S128x128 (constant S_ .f32 0x3F000000#32)))
    transposes_S128x128_S128x128_1_0

attribute [local irreducible] Host.gather Host.scatterAdd Host.reduce

section Chain
variable (U : Valuation τ sig (Elt F))

/-- The contents when the second region is entered, from the contents `U` the first region leaves. -/
abbrev entry2 : Valuation τ sig (Elt F) :=
  after hostOps1_6 (after hostOps1_5 (after hostOps1_4 (after hostOps1_3 (after hostOps1_2 (after hostOps1_1 (after hostOps1 U))))))

theorem v13_eq : entry2 U (Proc.devRef .tc main_v13) = segSum (U (Proc.devRef .tc main_v5_0)) (U (Proc.devRef .tc main_arg2)) := by
  simp only [entry2, hostOps1, hostOps1_1, hostOps1_2, hostOps1_3, hostOps1_4, hostOps1_5, hostOps1_6]
  after_results_simp
  rfl

theorem v17_eq : entry2 U (Proc.devRef .tc main_v17) = segCnt (F := F) (U (Proc.devRef .tc main_arg2)) := by
  simp only [entry2, hostOps1, hostOps1_1, hostOps1_2, hostOps1_3, hostOps1_4, hostOps1_5, hostOps1_6]
  after_results_simp
  rfl

theorem v25_eq : entry2 U (Proc.devRef .tc main_v25) = segSum (U (Proc.devRef .tc main_v5_1)) (U (Proc.devRef .tc main_arg4)) := by
  simp only [entry2, hostOps1, hostOps1_1, hostOps1_2, hostOps1_3, hostOps1_4, hostOps1_5, hostOps1_6]
  after_results_simp
  rfl

theorem v29_eq : entry2 U (Proc.devRef .tc main_v29) = segCnt (F := F) (U (Proc.devRef .tc main_arg4)) := by
  simp only [entry2, hostOps1, hostOps1_1, hostOps1_2, hostOps1_3, hostOps1_4, hostOps1_5, hostOps1_6]
  after_results_simp
  rfl

theorem v37_eq : entry2 U (Proc.devRef .tc main_v37) = segSum (U (Proc.devRef .tc main_v5_0)) (U (Proc.devRef .tc main_arg3)) := by
  simp only [entry2, hostOps1, hostOps1_1, hostOps1_2, hostOps1_3, hostOps1_4, hostOps1_5, hostOps1_6]
  after_results_simp
  rfl

theorem v41_eq : entry2 U (Proc.devRef .tc main_v41) = segCnt (F := F) (U (Proc.devRef .tc main_arg3)) := by
  simp only [entry2, hostOps1, hostOps1_1, hostOps1_2, hostOps1_3, hostOps1_4, hostOps1_5, hostOps1_6]
  after_results_simp
  rfl

theorem v42_eq : entry2 U (Proc.devRef .tc main_v42) = (shapeCast S1x128 (U (Proc.devRef .tc main_arg8)) shapeCasts_S128_S1x128 : (⟨S1x128, .f32⟩ : BufTy).Contents (Elt F)) := by
  simp only [entry2, hostOps1, hostOps1_1, hostOps1_2, hostOps1_3, hostOps1_4, hostOps1_5, hostOps1_6]
  after_results_simp
  rfl

theorem v43_eq : entry2 U (Proc.devRef .tc main_v43) = (shapeCast S1x128 (U (Proc.devRef .tc main_arg9)) shapeCasts_S128_S1x128 : (⟨S1x128, .f32⟩ : BufTy).Contents (Elt F)) := by
  simp only [entry2, hostOps1, hostOps1_1, hostOps1_2, hostOps1_3, hostOps1_4, hostOps1_5, hostOps1_6]
  after_results_simp
  rfl

/-! ## Before the first region -/

theorem v3_eq : after hostOps0 U (Proc.devRef .tc main_v3) = combinedWeight (U (Proc.devRef .tc main_arg5)) (U (Proc.devRef .tc main_arg6)) := by
  simp only [hostOps0]
  after_results_simp
  rfl

theorem v4_eq : after hostOps0 U (Proc.devRef .tc main_v4)
    = (transpose S128x128 [1, 0] (U (Proc.devRef .tc main_arg7)) transposes_S128x128_S128x128_1_0 : (⟨S128x128, .f32⟩ : BufTy).Contents (Elt F)) := by
  simp only [hostOps0]
  after_results_simp

theorem pre_arg0 : after hostOps0 U (Proc.devRef .tc main_arg0) = U (Proc.devRef .tc main_arg0) := by
  simp only [hostOps0]
  after_results_simp

theorem pre_arg1 : after hostOps0 U (Proc.devRef .tc main_arg1) = U (Proc.devRef .tc main_arg1) := by
  simp only [hostOps0]
  after_results_simp

theorem pre_arg2 : after hostOps0 U (Proc.devRef .tc main_arg2) = U (Proc.devRef .tc main_arg2) := by
  simp only [hostOps0]
  after_results_simp

theorem pre_arg3 : after hostOps0 U (Proc.devRef .tc main_arg3) = U (Proc.devRef .tc main_arg3) := by
  simp only [hostOps0]
  after_results_simp

theorem pre_arg4 : after hostOps0 U (Proc.devRef .tc main_arg4) = U (Proc.devRef .tc main_arg4) := by
  simp only [hostOps0]
  after_results_simp

theorem pre_arg8 : after hostOps0 U (Proc.devRef .tc main_arg8) = U (Proc.devRef .tc main_arg8) := by
  simp only [hostOps0]
  after_results_simp

theorem pre_arg9 : after hostOps0 U (Proc.devRef .tc main_arg9) = U (Proc.devRef .tc main_arg9) := by
  simp only [hostOps0]
  after_results_simp

end Chain

end Cert.KernelIdeal.KHost

end
-- ==== Proof.TransformValue.lean ====
/-
  The first region: a matrix product, fifty blocks of a thousand rows.  Grid point t multiplies rows
  1000 t … 1000 t + 999 of a feature array by a whole 128 × 128 weight and writes the same rows of the output, so the
  output array is the product of the whole arrays: entry (r, j) is the sum over k of feature (r, k) times weight (k, j).
-/
import proofs.«173363_g86715389706548_cont_9to1_m_205_2_alg».proof.Proof.Gen.KernelIdeal.Frame
import Idealize.ShloMosaic.Lib.ValueIdx
import Idealize.ShloMosaic.Lib.Pipeline.Value
import Idealize.ShloMosaic.Lib.Tactic
import Idealize.ShloMosaic.PureOps.Ideal.Laws

set_option maxRecDepth 16384

noncomputable section

namespace Cert.KernelIdeal.TransformValue

open Idealize.ShloMosaic Idealize.ShloMosaic.TcCoe Idealize.SL.Sem Idealize.ShloMosaic.ValueIdx
open Idealize.ShloMosaic.Pipeline (Dat)
open Cert.KernelIdeal Cert.KernelIdeal.Gen

/-! ## The block product at an entry -/

theorem lhs_0 (i : S1000x128.Idx) (q : dot_S1000x128_S128x128_S1000x128_1_0_0_1_n_n.contr.Idx) : (dot_S1000x128_S128x128_S1000x128_1_0_0_1_n_n.lhsIdx i q 0).val = (i 0).val := by
  unfold DotDims.lhsIdx
  rw [dif_neg (show ¬(0 : Fin S1000x128.rank) ∈ dot_S1000x128_S128x128_S1000x128_1_0_0_1_n_n.lhsBatch by decide), dif_pos (show (0 : Fin S1000x128.rank) ∈ dot_S1000x128_S128x128_S1000x128_1_0_0_1_n_n.lhsNonContracting by decide)]
  rfl
theorem lhs_1 (i : S1000x128.Idx) (q : dot_S1000x128_S128x128_S1000x128_1_0_0_1_n_n.contr.Idx) : (dot_S1000x128_S128x128_S1000x128_1_0_0_1_n_n.lhsIdx i q 1).val = (q ⟨0, by decide⟩).val :=
  dot_S1000x128_S128x128_S1000x128_1_0_0_1_n_n.lhsIdx_val_of_single rfl i q
theorem rhs_0 (i : S1000x128.Idx) (q : dot_S1000x128_S128x128_S1000x128_1_0_0_1_n_n.contr.Idx) : (dot_S1000x128_S128x128_S1000x128_1_0_0_1_n_n.rhsIdx i q 0).val = (q ⟨0, by decide⟩).val :=
  dot_S1000x128_S128x128_S1000x128_1_0_0_1_n_n.rhsIdx_val_of_single rfl i q
theorem rhs_1 (i : S1000x128.Idx) (q : dot_S1000x128_S128x128_S1000x128_1_0_0_1_n_n.contr.Idx) : (dot_S1000x128_S128x128_S1000x128_1_0_0_1_n_n.rhsIdx i q 1).val = (i 1).val := by
  unfold DotDims.rhsIdx
  rw [dif_neg (show ¬(1 : Fin S128x128.rank) ∈ dot_S1000x128_S128x128_S1000x128_1_0_0_1_n_n.rhsBatch by decide), dif_pos (show (1 : Fin S128x128.rank) ∈ dot_S1000x128_S128x128_S1000x128_1_0_0_1_n_n.rhsNonContracting by decide)]
  rfl

/-- A block of a thousand rows times the weight, into a zero accumulator: entry (p, q) is the sum over the
    contracted axis of row p of the block against column q of the weight. -/
theorem blockProd_apply (x : Vec Ideal S1000x128 .f32) (w : Vec Ideal S128x128 .f32) (p : Fin 1000) (q : Fin 128) :
    matmul (F := Ideal) (φ₁ := .f32) (φ₂ := .f32) dot_S1000x128_S128x128_S1000x128_1_0_0_1_n_n none x w (constant (F := Ideal) S1000x128 .f32 0x00000000#32) (ix2 p q)
      = ∑ k : Fin 128, x (ix2 p k) * w (ix2 k q) := by
  simp only [matmul]
  rw [Ideal.matmul_constant_zero_apply, ← Equiv.sum_comp (contrEquiv1 dot_S1000x128_S128x128_S1000x128_1_0_0_1_n_n 128 rfl rfl).symm]
  refine Finset.sum_congr rfl fun k _ => ?_
  have hk := contrEquiv1_symm_val dot_S1000x128_S128x128_S1000x128_1_0_0_1_n_n 128 rfl rfl k
  have el : dot_S1000x128_S128x128_S1000x128_1_0_0_1_n_n.lhsIdx (ix2 p q) ((contrEquiv1 dot_S1000x128_S128x128_S1000x128_1_0_0_1_n_n 128 rfl rfl).symm k) = ix2 p k := funext fun a => Fin.ext (by
    match a with
    | ⟨0, _⟩ => exact lhs_0 _ _
    | ⟨1, _⟩ => exact (lhs_1 _ _).trans hk)
  have er : dot_S1000x128_S128x128_S1000x128_1_0_0_1_n_n.rhsIdx (ix2 p q) ((contrEquiv1 dot_S1000x128_S128x128_S1000x128_1_0_0_1_n_n 128 rfl rfl).symm k) = ix2 k q := funext fun a => Fin.ext (by
    match a with
    | ⟨0, _⟩ => exact (rhs_0 _ _).trans hk
    | ⟨1, _⟩ => exact rhs_1 _ _)
  rw [el, er]

theorem pay1_apply (x : Vec Ideal S1000x128 .f32) (w : Vec Ideal S128x128 .f32) (p : Fin 1000) (q : Fin 128) :
    k0_pay1 (F := Ideal) x w (ix2 p q) = ∑ k : Fin 128, x (ix2 p k) * w (ix2 k q) := by
  unfold k0_pay1
  simp only [shapeCast_self]
  exact blockProd_apply x w p q

theorem pay2_apply (x : Vec Ideal S1000x128 .f32) (w : Vec Ideal S128x128 .f32) (p : Fin 1000) (q : Fin 128) :
    k0_pay2 (F := Ideal) x w (ix2 p q) = ∑ k : Fin 128, x (ix2 p k) * w (ix2 k q) := by
  unfold k0_pay2
  simp only [shapeCast_self]
  exact blockProd_apply x w p q

/-! ## From blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The whole product: entry (r, j) is the sum over k of `A (r, k) * W (k, j)`. -/
def prodArr (A : S50000x128.Idx → Elt Ideal .f32) (W : S128x128.Idx → Elt Ideal .f32) : S50000x128.Idx → Elt Ideal .f32 :=
  fun i => ∑ k : Fin 128, A (ix2 (i 0) k) * W (ix2 k (i 1))

/-- The printed index maps over the grid: the row-blocked windows sit at block (t, 0), the two weights at (0, 0). -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0) :=
  (by decide +kernel : ∀ t : Fin grid0.N, _)

/-- What point t writes back through output window 4 is block t of the product array. -/
theorem flushed4_eq (c : Dev nD) (t : Fin cfg0.N) :
    (dat0 V c).flushed 4 t = ((cfg0.win 4).blk t).view.read (Elt Ideal) (prodArr (V c main_arg0) (V c main_v3)) := by
  show (cfg0.win 4).cut (grid0.coords t) ((dat0 V c).after 4 t) = _
  rw [after0_4]
  unfold out0_4
  rw [View.canon_unit_zero hz]
  simp only [View.ld_unit_zero (S := S1000x128) hz, View.ld_unit_zero (S := S128x128) hz]
  funext j
  obtain ⟨p, q, rfl⟩ : ∃ (p : Fin 1000) (q : Fin 128), j = ix2 p q := ⟨j 0, j 1, eq_ix2 (n0 := 1000) (n1 := 128) j⟩
  have hp := p.isLt
  have hN : t.val < 50 := Nat.lt_of_lt_of_eq t.isLt N_0
  obtain ⟨⟨a0, a1⟩, ⟨b0, b1⟩, ⟨c0, c1⟩, ⟨d0, d1⟩, ⟨e0, e1⟩, ⟨f0, f1⟩⟩ := idx_facts t
  have hemb : ((cfg0.win 4).blk t).view.emb (ix2 p q) = (ix2 (⟨t.val * 1000 + p.val, by omega⟩ : Fin 50000) q : S50000x128.Idx) :=
    funext fun a => Fin.ext (by
      match a with
      | ⟨0, _⟩ => show win0_4.index t (0 : Fin 2) * 1000 + 1 * p.val = t.val * 1000 + p.val; rw [e0]; omega
      | ⟨1, _⟩ => show win0_4.index t (1 : Fin 2) * 128 + 1 * q.val = q.val; rw [e1]; omega)
  rw [View.read_apply, hemb]
  refine (pay1_apply (iblk0 V c 0 t) (iblk0 V c 2 t) p q).trans ?_
  unfold prodArr
  have hA : ∀ k : Fin 128, (iblk0 V c 0 t : Vec Ideal S1000x128 .f32) (ix2 p k)
      = (V c main_arg0 : S50000x128.Idx → Elt Ideal .f32) (ix2 (⟨t.val * 1000 + p.val, by omega⟩ : Fin 50000) k) := by
    intro k
    unfold iblk0
    rw [View.read_apply]
    show V c main_arg0 _ = V c main_arg0 _
    refine congrArg (V c main_arg0) (funext fun a => Fin.ext ?_)
    match a with
    | ⟨0, _⟩ => show win0_0.index t (0 : Fin 2) * 1000 + 1 * p.val = t.val * 1000 + p.val; rw [a0]; omega
    | ⟨1, _⟩ => show win0_0.index t (1 : Fin 2) * 128 + 1 * k.val = k.val; rw [a1]; omega
  have hW : ∀ k : Fin 128, (iblk0 V c 2 t : Vec Ideal S128x128 .f32) (ix2 k q)
      = (V c main_v3 : S128x128.Idx → Elt Ideal .f32) (ix2 k q) := by
    intro k
    unfold iblk0
    rw [View.read_apply]
    show V c main_v3 _ = V c main_v3 _
    refine congrArg (V c main_v3) (funext fun a => Fin.ext ?_)
    match a with
    | ⟨0, _⟩ => show win0_2.index t (0 : Fin 2) * 128 + 1 * k.val = k.val; rw [c0]; omega
    | ⟨1, _⟩ => show win0_2.index t (1 : Fin 2) * 128 + 1 * q.val = q.val; rw [c1]; omega
  simp only [hA, hW]
  rfl

/-- An index of the output array lies in point t's block iff its row is among the block's thousand rows. -/
theorem mem_blk4 (t : Fin cfg0.N) (i : S50000x128.Idx) :
    i ∈ ((cfg0.win 4).blk t).view.set ↔ ∀ a : Fin 2, win0_4.index t a * S1000x128.size a ≤ (i a).val ∧ (i a).val < win0_4.index t a * S1000x128.size a + S1000x128.size a := by
  show i ∈ ((View.whole main_v5_0).slice (win0_4.rect t)).set ↔ _
  rw [View.set_slice_whole, Rect.mem_set_unit]
  exact Iff.rfl

/-- The fifty blocks of a thousand rows cover the array: row r lies in the block of point r / 1000. -/
theorem cover4 (i : S50000x128.Idx) : ∃ t : Fin cfg0.N, (cfg0.win 4).flush t = true ∧ i ∈ ((cfg0.win 4).blk t).view.set := by
  have hi0 : (i 0).val < 50000 := (i 0).isLt
  have hi1 : (i 1).val < 128 := (i 1).isLt
  have hN : cfg0.N = 50 := N_0
  let t : Fin cfg0.N := ⟨(i 0).val / 1000, by rw [hN]; omega⟩
  obtain ⟨-, -, -, -, ⟨e0, e1⟩, ⟨f0, f1⟩⟩ := idx_facts t
  refine ⟨t, flush0_4 t, ?_⟩
  rw [mem_blk4]
  intro a
  have ht : t.val = (i 0).val / 1000 := rfl
  match a with
  | ⟨0, _⟩ => show win0_4.index t (0 : Fin 2) * 1000 ≤ (i 0).val ∧ (i 0).val < win0_4.index t (0 : Fin 2) * 1000 + 1000; rw [e0, ht]; omega
  | ⟨1, _⟩ => show win0_4.index t (1 : Fin 2) * 128 ≤ (i 1).val ∧ (i 1).val < win0_4.index t (1 : Fin 2) * 128 + 128; rw [e1]; omega

/-- So output window 4's array ends holding the whole product. -/
theorem final4 (c : Dev nD) : (dat0 V c).arrAt 4 cfg0.N = prodArr (V c main_arg0) (V c main_v3) :=
  (dat0 V c).arrAt_eq_of_cover 4 _ (fun t _ => flushed4_eq V c t) cover4

/-- What point t writes back through output window 5 is block t of the product array. -/
theorem flushed5_eq (c : Dev nD) (t : Fin cfg0.N) :
    (dat0 V c).flushed 5 t = ((cfg0.win 5).blk t).view.read (Elt Ideal) (prodArr (V c main_arg1) (V c main_v4)) := by
  show (cfg0.win 5).cut (grid0.coords t) ((dat0 V c).after 5 t) = _
  rw [after0_5]
  unfold out0_5
  rw [View.canon_unit_zero hz]
  simp only [View.ld_unit_zero (S := S1000x128) hz, View.ld_unit_zero (S := S128x128) hz]
  funext j
  obtain ⟨p, q, rfl⟩ : ∃ (p : Fin 1000) (q : Fin 128), j = ix2 p q := ⟨j 0, j 1, eq_ix2 (n0 := 1000) (n1 := 128) j⟩
  have hp := p.isLt
  have hN : t.val < 50 := Nat.lt_of_lt_of_eq t.isLt N_0
  obtain ⟨⟨a0, a1⟩, ⟨b0, b1⟩, ⟨c0, c1⟩, ⟨d0, d1⟩, ⟨e0, e1⟩, ⟨f0, f1⟩⟩ := idx_facts t
  have hemb : ((cfg0.win 5).blk t).view.emb (ix2 p q) = (ix2 (⟨t.val * 1000 + p.val, by omega⟩ : Fin 50000) q : S50000x128.Idx) :=
    funext fun a => Fin.ext (by
      match a with
      | ⟨0, _⟩ => show win0_5.index t (0 : Fin 2) * 1000 + 1 * p.val = t.val * 1000 + p.val; rw [f0]; omega
      | ⟨1, _⟩ => show win0_5.index t (1 : Fin 2) * 128 + 1 * q.val = q.val; rw [f1]; omega)
  rw [View.read_apply, hemb]
  refine (pay2_apply (iblk0 V c 1 t) (iblk0 V c 3 t) p q).trans ?_
  unfold prodArr
  have hA : ∀ k : Fin 128, (iblk0 V c 1 t : Vec Ideal S1000x128 .f32) (ix2 p k)
      = (V c main_arg1 : S50000x128.Idx → Elt Ideal .f32) (ix2 (⟨t.val * 1000 + p.val, by omega⟩ : Fin 50000) k) := by
    intro k
    unfold iblk0
    rw [View.read_apply]
    show V c main_arg1 _ = V c main_arg1 _
    refine congrArg (V c main_arg1) (funext fun a => Fin.ext ?_)
    match a with
    | ⟨0, _⟩ => show win0_1.index t (0 : Fin 2) * 1000 + 1 * p.val = t.val * 1000 + p.val; rw [b0]; omega
    | ⟨1, _⟩ => show win0_1.index t (1 : Fin 2) * 128 + 1 * k.val = k.val; rw [b1]; omega
  have hW : ∀ k : Fin 128, (iblk0 V c 3 t : Vec Ideal S128x128 .f32) (ix2 k q)
      = (V c main_v4 : S128x128.Idx → Elt Ideal .f32) (ix2 k q) := by
    intro k
    unfold iblk0
    rw [View.read_apply]
    show V c main_v4 _ = V c main_v4 _
    refine congrArg (V c main_v4) (funext fun a => Fin.ext ?_)
    match a with
    | ⟨0, _⟩ => show win0_3.index t (0 : Fin 2) * 128 + 1 * k.val = k.val; rw [d0]; omega
    | ⟨1, _⟩ => show win0_3.index t (1 : Fin 2) * 128 + 1 * q.val = q.val; rw [d1]; omega
  simp only [hA, hW]
  rfl

/-- An index of the output array lies in point t's block iff its row is among the block's thousand rows. -/
theorem mem_blk5 (t : Fin cfg0.N) (i : S50000x128.Idx) :
    i ∈ ((cfg0.win 5).blk t).view.set ↔ ∀ a : Fin 2, win0_5.index t a * S1000x128.size a ≤ (i a).val ∧ (i a).val < win0_5.index t a * S1000x128.size a + S1000x128.size a := by
  show i ∈ ((View.whole main_v5_1).slice (win0_5.rect t)).set ↔ _
  rw [View.set_slice_whole, Rect.mem_set_unit]
  exact Iff.rfl

/-- The fifty blocks of a thousand rows cover the array: row r lies in the block of point r / 1000. -/
theorem cover5 (i : S50000x128.Idx) : ∃ t : Fin cfg0.N, (cfg0.win 5).flush t = true ∧ i ∈ ((cfg0.win 5).blk t).view.set := by
  have hi0 : (i 0).val < 50000 := (i 0).isLt
  have hi1 : (i 1).val < 128 := (i 1).isLt
  have hN : cfg0.N = 50 := N_0
  let t : Fin cfg0.N := ⟨(i 0).val / 1000, by rw [hN]; omega⟩
  obtain ⟨-, -, -, -, ⟨e0, e1⟩, ⟨f0, f1⟩⟩ := idx_facts t
  refine ⟨t, flush0_5 t, ?_⟩
  rw [mem_blk5]
  intro a
  have ht : t.val = (i 0).val / 1000 := rfl
  match a with
  | ⟨0, _⟩ => show win0_5.index t (0 : Fin 2) * 1000 ≤ (i 0).val ∧ (i 0).val < win0_5.index t (0 : Fin 2) * 1000 + 1000; rw [f0, ht]; omega
  | ⟨1, _⟩ => show win0_5.index t (1 : Fin 2) * 128 ≤ (i 1).val ∧ (i 1).val < win0_5.index t (1 : Fin 2) * 128 + 128; rw [f1]; omega

/-- So output window 5's array ends holding the whole product. -/
theorem final5 (c : Dev nD) : (dat0 V c).arrAt 5 cfg0.N = prodArr (V c main_arg1) (V c main_v4) :=
  (dat0 V c).arrAt_eq_of_cover 5 _ (fun t _ => flushed5_eq V c t) cover5

end Cert.KernelIdeal.TransformValue

end
-- ==== Proof.LibKeepdims.lean ====
/-
  Keepdims forms read at an index, for any element type and any extents: a vector cast to a column, a column
  broadcast along rows, the host's dimension-numbered broadcasts between a scalar, a vector, a row, a column and
  a matrix, and a sum along the rows of a matrix (the kernel's lane reduction and the host's reduce) as a finite
  sum over the row's entries.
-/
import Idealize.ShloMosaic.Lib.ValueIdx
import Idealize.ShloMosaic.Lib.Pipeline.Value
import Idealize.ShloMosaic.Lib.ValueLayout
import Idealize.ShloMosaic.PureOps.Ideal.Laws

noncomputable section

namespace Cert.Keepdims

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- A column `[a, 1]` broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A scalar broadcast by dimension numbers to any shape reads the scalar everywhere. -/
theorem bcastInDim_scalar_apply {t : Shape} (dims : Fin 0 → Fin t.rank) (h : (⟨0, ![]⟩ : Shape).BroadcastsInDim t dims)
    (x : (⟨0, ![]⟩ : Shape).Idx → α) (j : t.Idx) : broadcastInDim t dims h x j = x ix0 :=
  broadcastInDim_apply dims h x j ix0 fun a => a.elim0

/-- A vector `[a]` placed on axis 0 of the column `[a, 1]`. -/
theorem bcastInDim_a_a1_apply {a : ℕ} (dims : Fin 1 → Fin 2) (hd : dims 0 = 0)
    (h : (⟨1, ![a]⟩ : Shape).BroadcastsInDim ⟨2, ![a, 1]⟩ dims) (x : (⟨1, ![a]⟩ : Shape).Idx → α) (p : Fin a) (u : Fin 1) :
    broadcastInDim ⟨2, ![a, 1]⟩ dims h x (ix2 p u) = x (ix1 p) := by
  refine broadcastInDim_apply dims h x (ix2 p u) (ix1 p) fun ax => ?_
  match ax with
  | ⟨0, _⟩ =>
    show p.val = if a = 1 then 0 else ((ix2 p u : (⟨2, ![a, 1]⟩ : Shape).Idx) (dims 0)).val
    rw [hd]
    split
    · have := p.isLt; omega
    · rfl

/-- A column `[a, 1]` broadcast by dimension numbers `[0, 1]` to `[a, b]`. -/
theorem bcastInDim_a1_ab_apply {a b : ℕ} (dims : Fin 2 → Fin 2) (hd0 : dims 0 = 0) (hd1 : dims 1 = 1)
    (h : (⟨2, ![a, 1]⟩ : Shape).BroadcastsInDim ⟨2, ![a, b]⟩ dims) (x : (⟨2, ![a, 1]⟩ : Shape).Idx → α) (p : Fin a) (c : Fin b) :
    broadcastInDim ⟨2, ![a, b]⟩ dims h x (ix2 p c) = x (ix2 p (0 : Fin 1)) := by
  refine broadcastInDim_apply dims h x (ix2 p c) (ix2 p (0 : Fin 1)) fun ax => ?_
  match ax with
  | ⟨0, _⟩ =>
    show p.val = if a = 1 then 0 else ((ix2 p c : (⟨2, ![a, b]⟩ : Shape).Idx) (dims 0)).val
    rw [hd0]
    split
    · have := p.isLt; omega
    · rfl
  | ⟨1, _⟩ => rfl

/-- A vector `[b]` placed on axis 1 of the row `[1, b]`. -/
theorem bcastInDim_b_1b_apply {b : ℕ} (dims : Fin 1 → Fin 2) (hd : dims 0 = 1)
    (h : (⟨1, ![b]⟩ : Shape).BroadcastsInDim ⟨2, ![1, b]⟩ dims) (x : (⟨1, ![b]⟩ : Shape).Idx → α) (u : Fin 1) (c : Fin b) :
    broadcastInDim ⟨2, ![1, b]⟩ dims h x (ix2 u c) = x (ix1 c) := by
  refine broadcastInDim_apply dims h x (ix2 u c) (ix1 c) fun ax => ?_
  match ax with
  | ⟨0, _⟩ =>
    show c.val = if b = 1 then 0 else ((ix2 u c : (⟨2, ![1, b]⟩ : Shape).Idx) (dims 0)).val
    rw [hd]
    split
    · have := c.isLt; omega
    · rfl

/-- A row `[1, b]` broadcast by dimension numbers `[0, 1]` to `[a, b]`. -/
theorem bcastInDim_1b_ab_apply {a b : ℕ} (dims : Fin 2 → Fin 2) (hd0 : dims 0 = 0) (hd1 : dims 1 = 1)
    (h : (⟨2, ![1, b]⟩ : Shape).BroadcastsInDim ⟨2, ![a, b]⟩ dims) (x : (⟨2, ![1, b]⟩ : Shape).Idx → α) (p : Fin a) (c : Fin b) :
    broadcastInDim ⟨2, ![a, b]⟩ dims h x (ix2 p c) = x (ix2 (0 : Fin 1) c) := by
  refine broadcastInDim_apply dims h x (ix2 p c) (ix2 (0 : Fin 1) c) fun ax => ?_
  match ax with
  | ⟨0, _⟩ => rfl
  | ⟨1, _⟩ =>
    show c.val = if b = 1 then 0 else ((ix2 p c : (⟨2, ![a, b]⟩ : Shape).Idx) (dims 1)).val
    rw [hd1]
    split
    · have := c.isLt; omega
    · rfl

/-- The lane reduction along the rows of a matrix, at the ideal values, is the sum of the row's entries. -/
theorem rowSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  exact Finset.sum_congr rfl fun k _ => congrArg src (funext fun c => Fin.ext (by
    match c with
    | ⟨0, _⟩ => rfl
    | ⟨1, _⟩ => rfl))

/-- The host's sum along the rows of a matrix, at the ideal values, is the initial value plus the row's entries. -/
theorem hostRowSum_apply {a b : ℕ} (x : FVec Ideal ⟨2, ![a, b]⟩ .f32) (init : (⟨0, ![]⟩ : Shape).Idx → Ideal .f32)
    (h' : (⟨2, ![a, b]⟩ : Shape).ReducesTo [1] ⟨1, ![a]⟩) (hu : 0 < (⟨0, ![]⟩ : Shape).numel)
    (h : (⟨2, ![a, b]⟩ : Shape).Reduces [1] ⟨1, ![a]⟩) (p : Fin a) :
    Host.reduceAdd x init h' hu (ix1 p) = init ix0 + ∑ k : Fin b, x (ix2 p k) := by
  unfold Host.reduceAdd
  rw [Ideal.hostReduceAdd_def]
  refine (Ideal.hostReduceAdd_single h' h x _ (ix1 p)).trans ?_
  have e : init (Shape.Idx.first hu) = init ix0 := congrArg init (funext fun c => c.elim0)
  rw [e]
  refine congrArg (init ix0 + ·) ?_
  exact Finset.sum_congr rfl fun k _ => congrArg x (funext fun c => Fin.ext (by
    match c with
    | ⟨0, _⟩ => rfl
    | ⟨1, _⟩ => rfl))

end Cert.Keepdims

end
-- ==== Proof.Laws.lean ====
/-
  The laws on the extended reals that join the two programs: a layer normalization written with the reciprocal
  square root against the same written with a quotient by the square root; a product with one half against a
  quotient by two; and a row of a matrix product against the combined weight (Wf + Wr)/2, which over finite
  entries is the mean of the two separate products.
-/
import Idealize.ShloMosaic.PureOps.Ideal
import Idealize.ShloMosaic.PureOps.Ideal.Laws

noncomputable section

namespace Cert.Laws

open Idealize.ShloMosaic

/-! ## The float words the programs spell -/

theorem ofBits_zero : Ideal.ofBits .f32 0x00000000#32 = 0 := by
  simp [Ideal.ofBits, Ideal.ieee]

theorem ofBits_one : Ideal.ofBits .f32 0x3F800000#32 = ((1 : ℝ) : EReal) := by
  simp [Ideal.ofBits, Ideal.ieee, -EReal.coe_mul]; norm_num

theorem ofBits_half : Ideal.ofBits .f32 0x3F000000#32 = ((1 / 2 : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

theorem ofBits_128 : Ideal.ofBits .f32 0x43000000#32 = ((128 : ℝ) : EReal) := by
  simp [Ideal.ofBits, Ideal.ieee, -EReal.coe_mul]; norm_num

/-- The variance's offset 1e-5 (as an f32 word) denotes a positive real. -/
theorem ofBits_eps_pos : (0 : EReal) < Ideal.ofBits .f32 0x3727C5AC#32 := by
  simp [Ideal.ofBits, Ideal.ieee, -EReal.coe_mul]

/-! ## Order facts on the extended reals -/

theorem mul_self_nonneg (z : EReal) : 0 ≤ z * z := by
  induction z using EReal.rec with
  | bot => simp
  | top => simp
  | coe r => rw [← EReal.coe_mul]; exact_mod_cast _root_.mul_self_nonneg r

theorem sum_nonneg {ι : Type*} (s : Finset ι) (f : ι → EReal) (h : ∀ i, 0 ≤ f i) : 0 ≤ ∑ i ∈ s, f i :=
  Finset.sum_nonneg fun i _ => h i

theorem div_128_nonneg {S : EReal} (h : 0 ≤ S) : 0 ≤ Ideal.div S ((128 : ℝ) : EReal) := by
  rw [Ideal.div_coe (by norm_num : (128 : ℝ) ≠ 0)]
  induction S using EReal.rec with
  | bot => exact absurd h (by simp)
  | top => rw [EReal.top_mul_coe_of_pos (by norm_num)]; exact le_top
  | coe r =>
    rw [← EReal.coe_mul]
    have hr : 0 ≤ r := by exact_mod_cast h
    exact_mod_cast mul_nonneg hr (by norm_num)

/-- For a positive extended real, multiplying by the reciprocal square root is dividing by the square root. -/
theorem mul_rsqrt_eq_div_sqrt (a y : EReal) (hy : 0 < y) : a * Ideal.rsqrt y = Ideal.div a (Ideal.sqrt y) := by
  induction y using EReal.rec with
  | bot => exact absurd hy (by simp)
  | top =>
    rw [Ideal.rsqrt_top, Ideal.sqrt_top, Ideal.div, if_neg (by simp), EReal.inv_top]
  | coe r =>
    have hr : 0 < r := by exact_mod_cast hy
    have hs : 0 < Real.sqrt r := Real.sqrt_pos.mpr hr
    rw [Ideal.rsqrt_coe, Ideal.sqrt_coe, if_neg (not_lt.mpr hr.le), if_neg hr.ne', if_neg (not_lt.mpr hr.le),
      Ideal.div, if_neg (by exact_mod_cast hs.ne'), EReal.coe_inv]

/-! ## Layer normalization of one row of 128 entries -/

/-- The kernel's form: centred entry times the reciprocal square root of variance plus offset, scaled and shifted. -/
def lnK (c eps : EReal) (x g b : Fin 128 → EReal) (q : Fin 128) : EReal :=
  (x q - Ideal.div (∑ k, x k) c)
      * Ideal.rsqrt (Ideal.div (∑ k, (x k - Ideal.div (∑ k, x k) c) * (x k - Ideal.div (∑ k, x k) c)) c + eps)
    * g q + b q

/-- The reference's form: centred entry divided by the square root of variance plus offset, scaled and shifted. -/
def lnR (c eps : EReal) (x g b : Fin 128 → EReal) (q : Fin 128) : EReal :=
  Ideal.div (x q - Ideal.div (∑ k, x k) c)
      (Ideal.sqrt (Ideal.div (∑ k, (x k - Ideal.div (∑ k, x k) c) * (x k - Ideal.div (∑ k, x k) c)) c + eps))
    * g q + b q

theorem lnK_eq_lnR (x g b : Fin 128 → EReal) (q : Fin 128) :
    lnK (Ideal.ofBits .f32 0x43000000#32) (Ideal.ofBits .f32 0x3727C5AC#32) x g b q
      = lnR (Ideal.ofBits .f32 0x43000000#32) (Ideal.ofBits .f32 0x3727C5AC#32) x g b q := by
  unfold lnK lnR
  rw [mul_rsqrt_eq_div_sqrt]
  rw [ofBits_128]
  exact lt_of_lt_of_le ofBits_eps_pos
    (le_add_of_nonneg_left (div_128_nonneg (sum_nonneg _ _ fun k => mul_self_nonneg _)))

/-! ## One half against two -/

theorem mul_half_eq_div_two (x : EReal) :
    x * Ideal.ofBits .f32 0x3F000000#32 = Ideal.div x (Ideal.ofBits .f32 0x40000000#32) := by
  rw [ofBits_half, ofBits_two, Ideal.div_coe (by norm_num : (2 : ℝ) ≠ 0)]

/-! ## A row of the combined weight -/

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Over real entries: the product of a row with the halved sum of two weights is half the sum of the two products. -/
theorem row_combined {n : Nat} (a f r : Fin n → ℝ) :
    ∑ k, (a k : EReal) * (((f k : EReal) + (r k : EReal)) * Ideal.ofBits .f32 0x3F000000#32)
      = Ideal.div (∑ k, (a k : EReal) * (f k : EReal) + ∑ k, (a k : EReal) * (r k : EReal)) (Ideal.ofBits .f32 0x40000000#32) := by
  rw [ofBits_half, ofBits_two, Ideal.div_coe (by norm_num : (2 : ℝ) ≠ 0)]
  simp only [← EReal.coe_add, ← EReal.coe_mul, ← coe_sum]
  congr 1
  rw [← Finset.sum_add_distrib, Finset.sum_mul]
  exact Finset.sum_congr rfl fun k _ => by ring

end Cert.Laws

end
-- ==== Proof.Spec.lean ====
/-
  The row-level arithmetic both programs perform after the segment sums: a destination row's mean (summed messages
  over the count clipped below at one), the user rows' average of two means (by one half in the kernel, by a
  quotient by two in the reference), the clip below at zero, and the layer normalization of the row.
-/
import proofs.«173363_g86715389706548_cont_9to1_m_205_2_alg».proof.Proof.Laws

noncomputable section

namespace Cert.Spec

open Idealize.ShloMosaic

/-- A destination row's mean: the summed messages over the count clipped below at one. -/
def meanRow (s : Fin 128 → EReal) (c : EReal) (k : Fin 128) : EReal :=
  Ideal.div (s k) (max c (Ideal.ofBits .f32 0x3F800000#32))

/-- A user row in the kernel: the two means added, times one half, clipped below at zero. -/
def userRowK (s1 : Fin 128 → EReal) (c1 : EReal) (s2 : Fin 128 → EReal) (c2 : EReal) (k : Fin 128) : EReal :=
  max ((meanRow s1 c1 k + meanRow s2 c2 k) * Ideal.ofBits .f32 0x3F000000#32) (Ideal.ofBits .f32 0x00000000#32)

/-- A user row in the reference: the two means added, over two, clipped below at zero. -/
def userRowR (s1 : Fin 128 → EReal) (c1 : EReal) (s2 : Fin 128 → EReal) (c2 : EReal) (k : Fin 128) : EReal :=
  max (Ideal.div (meanRow s1 c1 k + meanRow s2 c2 k) (Ideal.ofBits .f32 0x40000000#32)) (Ideal.ofBits .f32 0x00000000#32)

theorem userRowK_eq_userRowR (s1 : Fin 128 → EReal) (c1 : EReal) (s2 : Fin 128 → EReal) (c2 : EReal) :
    userRowK s1 c1 s2 c2 = userRowR s1 c1 s2 c2 := by
  funext k
  unfold userRowK userRowR
  rw [Cert.Laws.mul_half_eq_div_two]

/-- An item row: the mean clipped below at zero. -/
def itemRow (s : Fin 128 → EReal) (c : EReal) (k : Fin 128) : EReal :=
  max (meanRow s c k) (Ideal.ofBits .f32 0x00000000#32)

/-- The kernel's normalized row: `Laws.lnK` at the divisor 128 and the offset 1e-5 the programs spell. -/
abbrev normK (x g b : Fin 128 → EReal) (q : Fin 128) : EReal :=
  Cert.Laws.lnK (Ideal.ofBits .f32 0x43000000#32) (Ideal.ofBits .f32 0x3727C5AC#32) x g b q

/-- The reference's normalized row. -/
abbrev normR (x g b : Fin 128 → EReal) (q : Fin 128) : EReal :=
  Cert.Laws.lnR (Ideal.ofBits .f32 0x43000000#32) (Ideal.ofBits .f32 0x3727C5AC#32) x g b q

theorem normK_eq_normR (x g b : Fin 128 → EReal) : normK x g b = normR x g b :=
  funext fun q => Cert.Laws.lnK_eq_lnR x g b q

end Cert.Spec

end
-- ==== Proof.FinishPayload.lean ====
/-
  The second kernel's stored values read at an index of the block, at the ideal values.  Entry (p, q) of the
  user output is the normalized user row p at q, entry (p, q) of the item output the normalized item row p at q:
  each depends on row p of the summed-message blocks, on the counts at row p, and on the scale and shift rows.
-/
import proofs.«173363_g86715389706548_cont_9to1_m_205_2_alg».proof.Proof.Gen.KernelIdeal.Skeleton
import proofs.«173363_g86715389706548_cont_9to1_m_205_2_alg».proof.Proof.LibKeepdims
import proofs.«173363_g86715389706548_cont_9to1_m_205_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.FinishPayload

open Idealize.ShloMosaic Idealize.ShloMosaic.ValueIdx Cert.KernelIdeal Cert.KernelIdeal.Gen Cert.Keepdims Cert.Spec

/-- The clipped average of the two means, at (p, q). -/
theorem user_apply (x0 : Vec Ideal S1000x128 .f32) (x1 : Vec Ideal S1000x1 .f32) (x2 : Vec Ideal S1000x128 .f32)
    (x3 : Vec Ideal S1000x1 .f32) (p : Fin 1000) (q : Fin 128) :
    k1_pay3 (F := Ideal) x0 x1 x2 x3 (ix2 p q)
      = userRowK (fun k => x0 (ix2 p k)) (x1 (ix2 p (0 : Fin 1))) (fun k => x2 (ix2 p k)) (x3 (ix2 p (0 : Fin 1))) q := by
  unfold k1_pay3 userRowK meanRow
  simp only [shapeCast_self]
  simp only [maximumf_apply, mulf_apply, addf_apply, divf_apply, broadcast_apply, broadcastTo_a1_ab_apply]
  rfl

/-- A lane sum kept as a column: at (p, u) the sum of row p. -/
theorem laneSum_col_apply (v : FVec Ideal S1000x128 .f32) (p : Fin 1000) (u : Fin 1) :
    shapeCast S1000x1 (multiReduction .add [1] S1000 v 0x00000000#32 reduces_S1000x128_S1000 (.inl rfl) rfl) shapeCasts_S1000_S1000x1 (ix2 p u)
      = ∑ k : Fin 128, v (ix2 p k) :=
  (shapeCast_a_a1_apply _ _ p u).trans (rowSum_apply v _ _ _ p)

theorem rsqrt_apply {s : Shape} (a : FVec Ideal s .f32) (i : s.Idx) : rsqrt a i = Ideal.rsqrt (a i) := rfl

/-- The row mean of the clipped user rows, at (p, u). -/
theorem userMean_apply (x0 : Vec Ideal S1000x128 .f32) (x1 : Vec Ideal S1000x1 .f32) (x2 : Vec Ideal S1000x128 .f32)
    (x3 : Vec Ideal S1000x1 .f32) (p : Fin 1000) (u : Fin 1) :
    k1_pay4 (F := Ideal) x0 x1 x2 x3 (ix2 p u)
      = Ideal.div (∑ k : Fin 128, k1_pay3 (F := Ideal) x0 x1 x2 x3 (ix2 p k)) (Ideal.ofBits .f32 0x43000000#32) := by
  unfold k1_pay4
  simp only [divf_apply, broadcast_apply]
  rw [laneSum_col_apply]
  rfl

/-- The row's sum of squared deviations from the mean, at (p, u). -/
theorem userSq_apply (x0 : Vec Ideal S1000x128 .f32) (x1 : Vec Ideal S1000x1 .f32) (x2 : Vec Ideal S1000x128 .f32)
    (x3 : Vec Ideal S1000x1 .f32) (p : Fin 1000) (u : Fin 1) :
    k1_pay5 (F := Ideal) x0 x1 x2 x3 (ix2 p u)
      = ∑ k : Fin 128, (k1_pay3 (F := Ideal) x0 x1 x2 x3 (ix2 p k) - k1_pay4 (F := Ideal) x0 x1 x2 x3 (ix2 p (0 : Fin 1)))
          * (k1_pay3 (F := Ideal) x0 x1 x2 x3 (ix2 p k) - k1_pay4 (F := Ideal) x0 x1 x2 x3 (ix2 p (0 : Fin 1))) := by
  unfold k1_pay5
  rw [laneSum_col_apply]
  simp only [mulf_apply, subf_apply, broadcastTo_a1_ab_apply]

/-- The normalized, scaled and shifted entry from the clipped row, its mean and its sum of squares, at (p, q). -/
theorem userNorm_apply (v28 : FVec Ideal S1000x128 .f32) (v32 v37 : FVec Ideal S1000x1 .f32) (c : Ideal .f32)
    (x6 x7 : Vec Ideal S1x128 .f32) (p : Fin 1000) (q : Fin 128) :
    k1_pay6 (F := Ideal) v28 v32 v37 c x6 x7 (ix2 p q)
      = (v28 (ix2 p q) - v32 (ix2 p (0 : Fin 1)))
            * Ideal.rsqrt (Ideal.div (v37 (ix2 p (0 : Fin 1))) c + Ideal.ofBits .f32 0x3727C5AC#32)
          * x6 (ix2 (0 : Fin 1) q) + x7 (ix2 (0 : Fin 1) q) := by
  unfold k1_pay6
  simp only [shapeCast_self]
  simp only [addf_apply, mulf_apply, subf_apply, divf_apply, rsqrt_apply, broadcast_apply, broadcastTo_a1_ab_apply, broadcastTo_1b_ab_apply]
  rfl

/-- Entry (p, q) of the user output block: the normalized user row p at q. -/
theorem userOut_apply (x0 : Vec Ideal S1000x128 .f32) (x1 : Vec Ideal S1000x1 .f32) (x2 : Vec Ideal S1000x128 .f32)
    (x3 : Vec Ideal S1000x1 .f32) (x6 x7 : Vec Ideal S1x128 .f32) (p : Fin 1000) (q : Fin 128) :
    k1_pay6 (F := Ideal) (k1_pay3 x0 x1 x2 x3) (k1_pay4 x0 x1 x2 x3) (k1_pay5 x0 x1 x2 x3) (Scalar.ofBits .f32 0x43000000#32) x6 x7 (ix2 p q)
      = normK (userRowK (fun k => x0 (ix2 p k)) (x1 (ix2 p (0 : Fin 1))) (fun k => x2 (ix2 p k)) (x3 (ix2 p (0 : Fin 1))))
          (fun k => x6 (ix2 (0 : Fin 1) k)) (fun k => x7 (ix2 (0 : Fin 1) k)) q := by
  rw [userNorm_apply, userSq_apply, userMean_apply]
  simp only [user_apply]
  rfl

/-- The item rows normalized and scaled (not yet shifted), at (p, q): over the clipped row `w k = max (v (p, k)) 0`. -/
theorem itemNorm_apply (v26 : FVec Ideal S1000x128 .f32) (x6 : Vec Ideal S1x128 .f32) (p : Fin 1000) (q : Fin 128) :
    k1_pay7 (F := Ideal) v26 x6 (ix2 p q)
      = (max (v26 (ix2 p q)) (Ideal.ofBits .f32 0x00000000#32)
            - Ideal.div (∑ k : Fin 128, max (v26 (ix2 p k)) (Ideal.ofBits .f32 0x00000000#32)) (Ideal.ofBits .f32 0x43000000#32))
          * Ideal.rsqrt (Ideal.div (∑ k : Fin 128,
                (max (v26 (ix2 p k)) (Ideal.ofBits .f32 0x00000000#32)
                  - Ideal.div (∑ k : Fin 128, max (v26 (ix2 p k)) (Ideal.ofBits .f32 0x00000000#32)) (Ideal.ofBits .f32 0x43000000#32))
                * (max (v26 (ix2 p k)) (Ideal.ofBits .f32 0x00000000#32)
                  - Ideal.div (∑ k : Fin 128, max (v26 (ix2 p k)) (Ideal.ofBits .f32 0x00000000#32)) (Ideal.ofBits .f32 0x43000000#32)))
              (Ideal.ofBits .f32 0x43000000#32) + Ideal.ofBits .f32 0x3727C5AC#32)
          * x6 (ix2 (0 : Fin 1) q) := by
  unfold k1_pay7
  simp only [shapeCast_self]
  simp only [addf_apply, mulf_apply, subf_apply, divf_apply, rsqrt_apply, broadcast_apply, broadcastTo_a1_ab_apply, broadcastTo_1b_ab_apply]
  rw [laneSum_col_apply, laneSum_col_apply]
  simp only [addf_apply, mulf_apply, subf_apply, divf_apply, maximumf_apply, broadcast_apply, broadcastTo_a1_ab_apply]
  rw [laneSum_col_apply]
  simp only [maximumf_apply, broadcast_apply]
  rfl

/-- Entry (p, q) of the item output block: the normalized item row p at q. -/
theorem itemOut_apply (x4 : Vec Ideal S1000x128 .f32) (x5 : Vec Ideal S1000x1 .f32) (x6 x7 : Vec Ideal S1x128 .f32)
    (p : Fin 1000) (q : Fin 128) :
    k1_pay1 (F := Ideal) (k1_pay7 (k1_pay2 x4 x5) x6) x7 (ix2 p q)
      = normK (itemRow (fun k => x4 (ix2 p k)) (x5 (ix2 p (0 : Fin 1))))
          (fun k => x6 (ix2 (0 : Fin 1) k)) (fun k => x7 (ix2 (0 : Fin 1) k)) q := by
  have h2 : ∀ k : Fin 128, k1_pay2 (F := Ideal) x4 x5 (ix2 p k) = meanRow (fun k => x4 (ix2 p k)) (x5 (ix2 p (0 : Fin 1))) k := by
    intro k
    unfold k1_pay2 meanRow
    simp only [shapeCast_self]
    simp only [maximumf_apply, divf_apply, broadcast_apply, broadcastTo_a1_ab_apply]
    rfl
  unfold k1_pay1
  simp only [shapeCast_self]
  simp only [addf_apply, broadcastTo_1b_ab_apply]
  rw [itemNorm_apply]
  simp only [h2]
  rfl

end Cert.KernelIdeal.FinishPayload

end
-- ==== Proof.FinishValue.lean ====
/-
  From blocks to arrays in the second region.  Every grid point t of the fifty reads rows 1000 t … 1000 t + 999 of
  the three summed-message arrays and of the three count columns, the whole scale and shift rows, and writes the same
  rows of the two outputs; a row of an output depends only on the same row of its inputs, so each output array is
  one row-by-row function of the arrays the region finds.
-/
import proofs.«173363_g86715389706548_cont_9to1_m_205_2_alg».proof.Proof.Gen.KernelIdeal.Frame
import proofs.«173363_g86715389706548_cont_9to1_m_205_2_alg».proof.Proof.FinishPayload
import Idealize.ShloMosaic.Lib.Pipeline.Value
import Idealize.ShloMosaic.Lib.Tactic

set_option maxRecDepth 16384

noncomputable section

namespace Cert.KernelIdeal.FinishValue

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.FinishPayload Cert.Spec

variable (V : (c : Dev nD) → (b : Ref sig .tc) → Buf (Elt Ideal) ((c : Thread nD τ).loc b))

theorem hz : (![0, 0] : Fin 2 → Nat) = fun _ => 0 := funext fun a => by fin_cases a <;> rfl

/-- The user output as one function of the arrays the region finds: row r normalized. -/
def userArr (A0 : S50000x128.Idx → Elt Ideal .f32) (C0 : S50000x1.Idx → Elt Ideal .f32) (A2 : S50000x128.Idx → Elt Ideal .f32)
    (C2 : S50000x1.Idx → Elt Ideal .f32) (g b : S1x128.Idx → Elt Ideal .f32) : S50000x128.Idx → Elt Ideal .f32 := fun i =>
  normK (userRowK (fun k => A0 (ix2 (i 0) k)) (C0 (ix2 (i 0) (0 : Fin 1))) (fun k => A2 (ix2 (i 0) k)) (C2 (ix2 (i 0) (0 : Fin 1))))
    (fun k => g (ix2 (0 : Fin 1) k)) (fun k => b (ix2 (0 : Fin 1) k)) (i 1)

/-- The item output as one function of the arrays the region finds: row r normalized. -/
def itemArr (A4 : S50000x128.Idx → Elt Ideal .f32) (C4 : S50000x1.Idx → Elt Ideal .f32) (g b : S1x128.Idx → Elt Ideal .f32) :
    S50000x128.Idx → Elt Ideal .f32 := fun i =>
  normK (itemRow (fun k => A4 (ix2 (i 0) k)) (C4 (ix2 (i 0) (0 : Fin 1))))
    (fun k => g (ix2 (0 : Fin 1) k)) (fun k => b (ix2 (0 : Fin 1) k)) (i 1)

/-- The printed index maps over the grid: the row-blocked windows sit at block (t, 0), the two small rows at (0, 0). -/
theorem idx_facts : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_3.index t (0 : Fin 2) = t.val ∧ win1_3.index t (1 : Fin 2) = 0)
    ∧ (win1_4.index t (0 : Fin 2) = t.val ∧ win1_4.index t (1 : Fin 2) = 0)
    ∧ (win1_5.index t (0 : Fin 2) = t.val ∧ win1_5.index t (1 : Fin 2) = 0)
    ∧ (win1_6.index t (0 : Fin 2) = 0 ∧ win1_6.index t (1 : Fin 2) = 0)
    ∧ (win1_7.index t (0 : Fin 2) = 0 ∧ win1_7.index t (1 : Fin 2) = 0)
    ∧ (win1_8.index t (0 : Fin 2) = t.val ∧ win1_8.index t (1 : Fin 2) = 0)
    ∧ (win1_9.index t (0 : Fin 2) = t.val ∧ win1_9.index t (1 : Fin 2) = 0) :=
  (by decide +kernel : ∀ t : Fin grid1.N, _)

/-- Entry (p, k) of input window 0's block at point t is entry (1000 t + p, k) of its array. -/
theorem iblk0_apply (c : Dev nD) (t : Fin cfg1.N) (p : Fin 1000) (k : Fin 128) (r : Fin 50000) (hr : r.val = t.val * 1000 + p.val) :
    (iblk1 V c 0 t : Vec Ideal S1000x128 .f32) (ix2 p k) = (V c main_v13 : S50000x128.Idx → Elt Ideal .f32) (ix2 r k) := by
  have e0 : win1_0.index t (0 : Fin 2) = t.val := (idx_facts t).1.1
  have e1 : win1_0.index t (1 : Fin 2) = 0 := (idx_facts t).1.2
  unfold iblk1
  rw [View.read_apply]
  show V c main_v13 _ = V c main_v13 _
  refine congrArg (V c main_v13) (funext fun a => Fin.ext ?_)
  match a with
  | ⟨0, _⟩ => show win1_0.index t (0 : Fin 2) * 1000 + 1 * p.val = r.val; rw [e0, hr]; omega
  | ⟨1, _⟩ => show win1_0.index t (1 : Fin 2) * 128 + 1 * k.val = k.val; rw [e1]; omega

/-- Entry (p, k) of input window 2's block at point t is entry (1000 t + p, k) of its array. -/
theorem iblk2_apply (c : Dev nD) (t : Fin cfg1.N) (p : Fin 1000) (k : Fin 128) (r : Fin 50000) (hr : r.val = t.val * 1000 + p.val) :
    (iblk1 V c 2 t : Vec Ideal S1000x128 .f32) (ix2 p k) = (V c main_v25 : S50000x128.Idx → Elt Ideal .f32) (ix2 r k) := by
  have e0 : win1_2.index t (0 : Fin 2) = t.val := (idx_facts t).2.2.1.1
  have e1 : win1_2.index t (1 : Fin 2) = 0 := (idx_facts t).2.2.1.2
  unfold iblk1
  rw [View.read_apply]
  show V c main_v25 _ = V c main_v25 _
  refine congrArg (V c main_v25) (funext fun a => Fin.ext ?_)
  match a with
  | ⟨0, _⟩ => show win1_2.index t (0 : Fin 2) * 1000 + 1 * p.val = r.val; rw [e0, hr]; omega
  | ⟨1, _⟩ => show win1_2.index t (1 : Fin 2) * 128 + 1 * k.val = k.val; rw [e1]; omega

/-- Entry (p, k) of input window 4's block at point t is entry (1000 t + p, k) of its array. -/
theorem iblk4_apply (c : Dev nD) (t : Fin cfg1.N) (p : Fin 1000) (k : Fin 128) (r : Fin 50000) (hr : r.val = t.val * 1000 + p.val) :
    (iblk1 V c 4 t : Vec Ideal S1000x128 .f32) (ix2 p k) = (V c main_v37 : S50000x128.Idx → Elt Ideal .f32) (ix2 r k) := by
  have e0 : win1_4.index t (0 : Fin 2) = t.val := (idx_facts t).2.2.2.2.1.1
  have e1 : win1_4.index t (1 : Fin 2) = 0 := (idx_facts t).2.2.2.2.1.2
  unfold iblk1
  rw [View.read_apply]
  show V c main_v37 _ = V c main_v37 _
  refine congrArg (V c main_v37) (funext fun a => Fin.ext ?_)
  match a with
  | ⟨0, _⟩ => show win1_4.index t (0 : Fin 2) * 1000 + 1 * p.val = r.val; rw [e0, hr]; omega
  | ⟨1, _⟩ => show win1_4.index t (1 : Fin 2) * 128 + 1 * k.val = k.val; rw [e1]; omega

/-- Entry (p, 0) of count window 1's block at point t is entry (1000 t + p, 0) of its array. -/
theorem iblk1_apply (c : Dev nD) (t : Fin cfg1.N) (p : Fin 1000) (u : Fin 1) (r : Fin 50000) (hr : r.val = t.val * 1000 + p.val) :
    (iblk1 V c 1 t : Vec Ideal S1000x1 .f32) (ix2 p u) = (V c main_v17 : S50000x1.Idx → Elt Ideal .f32) (ix2 r u) := by
  have e0 : win1_1.index t (0 : Fin 2) = t.val := (idx_facts t).2.1.1
  have e1 : win1_1.index t (1 : Fin 2) = 0 := (idx_facts t).2.1.2
  unfold iblk1
  rw [View.read_apply]
  show V c main_v17 _ = V c main_v17 _
  refine congrArg (V c main_v17) (funext fun a => Fin.ext ?_)
  match a with
  | ⟨0, _⟩ => show win1_1.index t (0 : Fin 2) * 1000 + 1 * p.val = r.val; rw [e0, hr]; omega
  | ⟨1, _⟩ => show win1_1.index t (1 : Fin 2) * 1 + 1 * u.val = u.val; rw [e1]; omega

/-- Entry (p, 0) of count window 3's block at point t is entry (1000 t + p, 0) of its array. -/
theorem iblk3_apply (c : Dev nD) (t : Fin cfg1.N) (p : Fin 1000) (u : Fin 1) (r : Fin 50000) (hr : r.val = t.val * 1000 + p.val) :
    (iblk1 V c 3 t : Vec Ideal S1000x1 .f32) (ix2 p u) = (V c main_v29 : S50000x1.Idx → Elt Ideal .f32) (ix2 r u) := by
  have e0 : win1_3.index t (0 : Fin 2) = t.val := (idx_facts t).2.2.2.1.1
  have e1 : win1_3.index t (1 : Fin 2) = 0 := (idx_facts t).2.2.2.1.2
  unfold iblk1
  rw [View.read_apply]
  show V c main_v29 _ = V c main_v29 _
  refine congrArg (V c main_v29) (funext fun a => Fin.ext ?_)
  match a with
  | ⟨0, _⟩ => show win1_3.index t (0 : Fin 2) * 1000 + 1 * p.val = r.val; rw [e0, hr]; omega
  | ⟨1, _⟩ => show win1_3.index t (1 : Fin 2) * 1 + 1 * u.val = u.val; rw [e1]; omega

/-- Entry (p, 0) of count window 5's block at point t is entry (1000 t + p, 0) of its array. -/
theorem iblk5_apply (c : Dev nD) (t : Fin cfg1.N) (p : Fin 1000) (u : Fin 1) (r : Fin 50000) (hr : r.val = t.val * 1000 + p.val) :
    (iblk1 V c 5 t : Vec Ideal S1000x1 .f32) (ix2 p u) = (V c main_v41 : S50000x1.Idx → Elt Ideal .f32) (ix2 r u) := by
  have e0 : win1_5.index t (0 : Fin 2) = t.val := (idx_facts t).2.2.2.2.2.1.1
  have e1 : win1_5.index t (1 : Fin 2) = 0 := (idx_facts t).2.2.2.2.2.1.2
  unfold iblk1
  rw [View.read_apply]
  show V c main_v41 _ = V c main_v41 _
  refine congrArg (V c main_v41) (funext fun a => Fin.ext ?_)
  match a with
  | ⟨0, _⟩ => show win1_5.index t (0 : Fin 2) * 1000 + 1 * p.val = r.val; rw [e0, hr]; omega
  | ⟨1, _⟩ => show win1_5.index t (1 : Fin 2) * 1 + 1 * u.val = u.val; rw [e1]; omega

/-- The scale / shift window's one block is its whole array at every point. -/
theorem iblk6_apply (c : Dev nD) (t : Fin cfg1.N) (u : Fin 1) (k : Fin 128) :
    (iblk1 V c 6 t : Vec Ideal S1x128 .f32) (ix2 u k) = (V c main_v42 : S1x128.Idx → Elt Ideal .f32) (ix2 u k) := by
  have e0 : win1_6.index t (0 : Fin 2) = 0 := (idx_facts t).2.2.2.2.2.2.1.1
  have e1 : win1_6.index t (1 : Fin 2) = 0 := (idx_facts t).2.2.2.2.2.2.1.2
  unfold iblk1
  rw [View.read_apply]
  show V c main_v42 _ = V c main_v42 _
  refine congrArg (V c main_v42) (funext fun a => Fin.ext ?_)
  match a with
  | ⟨0, _⟩ => show win1_6.index t (0 : Fin 2) * 1 + 1 * u.val = u.val; rw [e0]; omega
  | ⟨1, _⟩ => show win1_6.index t (1 : Fin 2) * 128 + 1 * k.val = k.val; rw [e1]; omega

/-- The scale / shift window's one block is its whole array at every point. -/
theorem iblk7_apply (c : Dev nD) (t : Fin cfg1.N) (u : Fin 1) (k : Fin 128) :
    (iblk1 V c 7 t : Vec Ideal S1x128 .f32) (ix2 u k) = (V c main_v43 : S1x128.Idx → Elt Ideal .f32) (ix2 u k) := by
  have e0 : win1_7.index t (0 : Fin 2) = 0 := (idx_facts t).2.2.2.2.2.2.2.1.1
  have e1 : win1_7.index t (1 : Fin 2) = 0 := (idx_facts t).2.2.2.2.2.2.2.1.2
  unfold iblk1
  rw [View.read_apply]
  show V c main_v43 _ = V c main_v43 _
  refine congrArg (V c main_v43) (funext fun a => Fin.ext ?_)
  match a with
  | ⟨0, _⟩ => show win1_7.index t (0 : Fin 2) * 1 + 1 * u.val = u.val; rw [e0]; omega
  | ⟨1, _⟩ => show win1_7.index t (1 : Fin 2) * 128 + 1 * k.val = k.val; rw [e1]; omega

/-- What point t writes back through output window 8 is block t of the user array. -/
theorem flushed8_eq (c : Dev nD) (t : Fin cfg1.N) :
    (dat1 V c).flushed 8 t = ((cfg1.win 8).blk t).view.read (Elt Ideal) (userArr (V c main_v13) (V c main_v17) (V c main_v25) (V c main_v29) (V c main_v42) (V c main_v43)) := by
  show (cfg1.win 8).cut (grid1.coords t) ((dat1 V c).after 8 t) = _
  rw [after1_8]
  unfold out1_8
  rw [View.canon_unit_zero hz]
  simp only [View.ld_unit_zero (S := S1000x128) hz, View.ld_unit_zero (S := S1000x1) hz, View.ld_unit_zero (S := S1x128) hz]
  funext j
  obtain ⟨p, q, rfl⟩ : ∃ (p : Fin 1000) (q : Fin 128), j = ix2 p q := ⟨j 0, j 1, eq_ix2 (n0 := 1000) (n1 := 128) j⟩
  have hp := p.isLt
  have hN : t.val < 50 := Nat.lt_of_lt_of_eq t.isLt N_1
  have e0 : win1_8.index t (0 : Fin 2) = t.val := (idx_facts t).2.2.2.2.2.2.2.2.1.1
  have e1 : win1_8.index t (1 : Fin 2) = 0 := (idx_facts t).2.2.2.2.2.2.2.2.1.2
  have hemb : ((cfg1.win 8).blk t).view.emb (ix2 p q) = (ix2 (⟨t.val * 1000 + p.val, by omega⟩ : Fin 50000) q : S50000x128.Idx) :=
    funext fun a => Fin.ext (by
      match a with
      | ⟨0, _⟩ => show win1_8.index t (0 : Fin 2) * 1000 + 1 * p.val = t.val * 1000 + p.val; rw [e0]; omega
      | ⟨1, _⟩ => show win1_8.index t (1 : Fin 2) * 128 + 1 * q.val = q.val; rw [e1]; omega)
  rw [View.read_apply, hemb]
  refine (userOut_apply (iblk1 V c 0 t) (iblk1 V c 1 t) (iblk1 V c 2 t) (iblk1 V c 3 t) (iblk1 V c 6 t) (iblk1 V c 7 t) p q).trans ?_
  unfold userArr
  simp only [fun k => iblk0_apply V c t p k ⟨t.val * 1000 + p.val, by omega⟩ rfl, fun k => iblk1_apply V c t p k ⟨t.val * 1000 + p.val, by omega⟩ rfl, fun k => iblk2_apply V c t p k ⟨t.val * 1000 + p.val, by omega⟩ rfl, fun k => iblk3_apply V c t p k ⟨t.val * 1000 + p.val, by omega⟩ rfl, iblk6_apply V c t, iblk7_apply V c t]
  rfl

/-- What point t writes back through output window 9 is block t of the item array. -/
theorem flushed9_eq (c : Dev nD) (t : Fin cfg1.N) :
    (dat1 V c).flushed 9 t = ((cfg1.win 9).blk t).view.read (Elt Ideal) (itemArr (V c main_v37) (V c main_v41) (V c main_v42) (V c main_v43)) := by
  show (cfg1.win 9).cut (grid1.coords t) ((dat1 V c).after 9 t) = _
  rw [after1_9]
  unfold out1_9
  rw [View.canon_unit_zero hz]
  simp only [View.ld_unit_zero (S := S1000x128) hz, View.ld_unit_zero (S := S1000x1) hz, View.ld_unit_zero (S := S1x128) hz]
  funext j
  obtain ⟨p, q, rfl⟩ : ∃ (p : Fin 1000) (q : Fin 128), j = ix2 p q := ⟨j 0, j 1, eq_ix2 (n0 := 1000) (n1 := 128) j⟩
  have hp := p.isLt
  have hN : t.val < 50 := Nat.lt_of_lt_of_eq t.isLt N_1
  have e0 : win1_9.index t (0 : Fin 2) = t.val := (idx_facts t).2.2.2.2.2.2.2.2.2.1
  have e1 : win1_9.index t (1 : Fin 2) = 0 := (idx_facts t).2.2.2.2.2.2.2.2.2.2
  have hemb : ((cfg1.win 9).blk t).view.emb (ix2 p q) = (ix2 (⟨t.val * 1000 + p.val, by omega⟩ : Fin 50000) q : S50000x128.Idx) :=
    funext fun a => Fin.ext (by
      match a with
      | ⟨0, _⟩ => show win1_9.index t (0 : Fin 2) * 1000 + 1 * p.val = t.val * 1000 + p.val; rw [e0]; omega
      | ⟨1, _⟩ => show win1_9.index t (1 : Fin 2) * 128 + 1 * q.val = q.val; rw [e1]; omega)
  rw [View.read_apply, hemb]
  refine (itemOut_apply (iblk1 V c 4 t) (iblk1 V c 5 t) (iblk1 V c 6 t) (iblk1 V c 7 t) p q).trans ?_
  unfold itemArr
  simp only [fun k => iblk4_apply V c t p k ⟨t.val * 1000 + p.val, by omega⟩ rfl, fun k => iblk5_apply V c t p k ⟨t.val * 1000 + p.val, by omega⟩ rfl, iblk6_apply V c t, iblk7_apply V c t]
  rfl

/-- An index of the output array lies in point t's block iff its row is among the block's thousand rows. -/
theorem mem_blk8 (t : Fin cfg1.N) (i : S50000x128.Idx) :
    i ∈ ((cfg1.win 8).blk t).view.set ↔ ∀ a : Fin 2, win1_8.index t a * S1000x128.size a ≤ (i a).val ∧ (i a).val < win1_8.index t a * S1000x128.size a + S1000x128.size a := by
  show i ∈ ((View.whole main_v44_0).slice (win1_8.rect t)).set ↔ _
  rw [View.set_slice_whole, Rect.mem_set_unit]
  exact Iff.rfl

/-- The fifty blocks of a thousand rows cover the array: row r lies in the block of point r / 1000. -/
theorem cover8 (i : S50000x128.Idx) : ∃ t : Fin cfg1.N, (cfg1.win 8).flush t = true ∧ i ∈ ((cfg1.win 8).blk t).view.set := by
  have hi0 : (i 0).val < 50000 := (i 0).isLt
  have hi1 : (i 1).val < 128 := (i 1).isLt
  have hN : cfg1.N = 50 := N_1
  let t : Fin cfg1.N := ⟨(i 0).val / 1000, by rw [hN]; omega⟩
  have e0 : win1_8.index t (0 : Fin 2) = t.val := (idx_facts t).2.2.2.2.2.2.2.2.1.1
  have e1 : win1_8.index t (1 : Fin 2) = 0 := (idx_facts t).2.2.2.2.2.2.2.2.1.2
  refine ⟨t, flush1_8 t, ?_⟩
  rw [mem_blk8]
  intro a
  have ht : t.val = (i 0).val / 1000 := rfl
  match a with
  | ⟨0, _⟩ => show win1_8.index t (0 : Fin 2) * 1000 ≤ (i 0).val ∧ (i 0).val < win1_8.index t (0 : Fin 2) * 1000 + 1000; rw [e0, ht]; omega
  | ⟨1, _⟩ => show win1_8.index t (1 : Fin 2) * 128 ≤ (i 1).val ∧ (i 1).val < win1_8.index t (1 : Fin 2) * 128 + 128; rw [e1]; omega

/-- So output window 8's array ends holding the whole row-by-row function. -/
theorem final8 (c : Dev nD) : (dat1 V c).arrAt 8 cfg1.N = userArr (V c main_v13) (V c main_v17) (V c main_v25) (V c main_v29) (V c main_v42) (V c main_v43) :=
  (dat1 V c).arrAt_eq_of_cover 8 _ (fun t _ => flushed8_eq V c t) cover8

/-- An index of the output array lies in point t's block iff its row is among the block's thousand rows. -/
theorem mem_blk9 (t : Fin cfg1.N) (i : S50000x128.Idx) :
    i ∈ ((cfg1.win 9).blk t).view.set ↔ ∀ a : Fin 2, win1_9.index t a * S1000x128.size a ≤ (i a).val ∧ (i a).val < win1_9.index t a * S1000x128.size a + S1000x128.size a := by
  show i ∈ ((View.whole main_v44_1).slice (win1_9.rect t)).set ↔ _
  rw [View.set_slice_whole, Rect.mem_set_unit]
  exact Iff.rfl

/-- The fifty blocks of a thousand rows cover the array: row r lies in the block of point r / 1000. -/
theorem cover9 (i : S50000x128.Idx) : ∃ t : Fin cfg1.N, (cfg1.win 9).flush t = true ∧ i ∈ ((cfg1.win 9).blk t).view.set := by
  have hi0 : (i 0).val < 50000 := (i 0).isLt
  have hi1 : (i 1).val < 128 := (i 1).isLt
  have hN : cfg1.N = 50 := N_1
  let t : Fin cfg1.N := ⟨(i 0).val / 1000, by rw [hN]; omega⟩
  have e0 : win1_9.index t (0 : Fin 2) = t.val := (idx_facts t).2.2.2.2.2.2.2.2.2.1
  have e1 : win1_9.index t (1 : Fin 2) = 0 := (idx_facts t).2.2.2.2.2.2.2.2.2.2
  refine ⟨t, flush1_9 t, ?_⟩
  rw [mem_blk9]
  intro a
  have ht : t.val = (i 0).val / 1000 := rfl
  match a with
  | ⟨0, _⟩ => show win1_9.index t (0 : Fin 2) * 1000 ≤ (i 0).val ∧ (i 0).val < win1_9.index t (0 : Fin 2) * 1000 + 1000; rw [e0, ht]; omega
  | ⟨1, _⟩ => show win1_9.index t (1 : Fin 2) * 128 ≤ (i 1).val ∧ (i 1).val < win1_9.index t (1 : Fin 2) * 128 + 128; rw [e1]; omega

/-- So output window 9's array ends holding the whole row-by-row function. -/
theorem final9 (c : Dev nD) : (dat1 V c).arrAt 9 cfg1.N = itemArr (V c main_v37) (V c main_v41) (V c main_v42) (V c main_v43) :=
  (dat1 V c).arrAt_eq_of_cover 9 _ (fun t _ => flushed9_eq V c t) cover9

end Cert.KernelIdeal.FinishValue

end
-- ==== Proof.KValue.lean ====
/-
  The idealized kernel's two results as functions of its arguments.  The first region leaves the two transformed
  feature arrays (products with the combined and with the third weight); the host operations between the regions
  turn them into summed messages and counts per edge list; the second region normalizes row by row.
-/
import proofs.«173363_g86715389706548_cont_9to1_m_205_2_alg».proof.Proof.KRun
import proofs.«173363_g86715389706548_cont_9to1_m_205_2_alg».proof.Proof.KHost
import proofs.«173363_g86715389706548_cont_9to1_m_205_2_alg».proof.Proof.TransformValue
import proofs.«173363_g86715389706548_cont_9to1_m_205_2_alg».proof.Proof.FinishValue

set_option maxRecDepth 16384

noncomputable section

namespace Cert.KernelIdeal.KValue

open Idealize.ShloMosaic Idealize.ShloMosaic.TcCoe Idealize.SL.Sem
open Cert.KernelIdeal Cert.KernelIdeal.Gen Cert.KernelIdeal.KHost Cert.KernelIdeal.TransformValue Cert.KernelIdeal.FinishValue

variable (m : (ℓ : Loc nD τ sig) → Buf (Elt Ideal) ℓ) (ρ : Dev nD → PrngReg)

/-- The user features through the combined weight. -/
abbrev tUserK (c : Dev nD) : S50000x128.Idx → Elt Ideal .f32 :=
  prodArr (m ((c : Thread nD τ).loc main_arg0)) (combinedWeight (F := Ideal) (m ((c : Thread nD τ).loc main_arg5)) (m ((c : Thread nD τ).loc main_arg6)))

/-- The item features through the third weight, transposed. -/
abbrev tItemK (c : Dev nD) : S50000x128.Idx → Elt Ideal .f32 :=
  prodArr (m ((c : Thread nD τ).loc main_arg1))
    (transpose S128x128 [1, 0] (m ((c : Thread nD τ).loc main_arg7)) transposes_S128x128_S128x128_1_0)

/-! ## What the first region leaves -/

theorem left_v5_0 (c : Dev nD) : W2 m ρ c (Proc.devRef .tc main_v5_0) = tUserK m c := by
  refine (W2_arr m ρ c 4).trans ((final4 (V1 m ρ) c).trans ?_)
  show prodArr (StableHlo.after hostOps0 (W0 m ρ c) (Proc.devRef .tc main_arg0)) (StableHlo.after hostOps0 (W0 m ρ c) (Proc.devRef .tc main_v3)) = _
  rw [pre_arg0, v3_eq]

theorem left_v5_1 (c : Dev nD) : W2 m ρ c (Proc.devRef .tc main_v5_1) = tItemK m c := by
  refine (W2_arr m ρ c 5).trans ((final5 (V1 m ρ) c).trans ?_)
  show prodArr (StableHlo.after hostOps0 (W0 m ρ c) (Proc.devRef .tc main_arg1)) (StableHlo.after hostOps0 (W0 m ρ c) (Proc.devRef .tc main_v4)) = _
  rw [pre_arg1, v4_eq]

theorem left_arg2 (c : Dev nD) : W2 m ρ c (Proc.devRef .tc main_arg2) = m ((c : Thread nD τ).loc main_arg2) :=
  (W2_of_ne m ρ c main_arg2 (by decide)).trans (pre_arg2 (W0 m ρ c))

theorem left_arg3 (c : Dev nD) : W2 m ρ c (Proc.devRef .tc main_arg3) = m ((c : Thread nD τ).loc main_arg3) :=
  (W2_of_ne m ρ c main_arg3 (by decide)).trans (pre_arg3 (W0 m ρ c))

theorem left_arg4 (c : Dev nD) : W2 m ρ c (Proc.devRef .tc main_arg4) = m ((c : Thread nD τ).loc main_arg4) :=
  (W2_of_ne m ρ c main_arg4 (by decide)).trans (pre_arg4 (W0 m ρ c))

theorem left_arg8 (c : Dev nD) : W2 m ρ c (Proc.devRef .tc main_arg8) = m ((c : Thread nD τ).loc main_arg8) :=
  (W2_of_ne m ρ c main_arg8 (by decide)).trans (pre_arg8 (W0 m ρ c))

theorem left_arg9 (c : Dev nD) : W2 m ρ c (Proc.devRef .tc main_arg9) = m ((c : Thread nD τ).loc main_arg9) :=
  (W2_of_ne m ρ c main_arg9 (by decide)).trans (pre_arg9 (W0 m ρ c))

/-! ## What the second region finds -/

theorem found_v13 (c : Dev nD) : V9 m ρ c main_v13 = segSum (F := Ideal) (tUserK m c) (m ((c : Thread nD τ).loc main_arg2)) :=
  (v13_eq (W2 m ρ c)).trans (by rw [left_v5_0, left_arg2])
theorem found_v17 (c : Dev nD) : V9 m ρ c main_v17 = segCnt (F := Ideal) (m ((c : Thread nD τ).loc main_arg2)) :=
  (v17_eq (W2 m ρ c)).trans (by rw [left_arg2])
theorem found_v25 (c : Dev nD) : V9 m ρ c main_v25 = segSum (F := Ideal) (tItemK m c) (m ((c : Thread nD τ).loc main_arg4)) :=
  (v25_eq (W2 m ρ c)).trans (by rw [left_v5_1, left_arg4])
theorem found_v29 (c : Dev nD) : V9 m ρ c main_v29 = segCnt (F := Ideal) (m ((c : Thread nD τ).loc main_arg4)) :=
  (v29_eq (W2 m ρ c)).trans (by rw [left_arg4])
theorem found_v37 (c : Dev nD) : V9 m ρ c main_v37 = segSum (F := Ideal) (tUserK m c) (m ((c : Thread nD τ).loc main_arg3)) :=
  (v37_eq (W2 m ρ c)).trans (by rw [left_v5_0, left_arg3])
theorem found_v41 (c : Dev nD) : V9 m ρ c main_v41 = segCnt (F := Ideal) (m ((c : Thread nD τ).loc main_arg3)) :=
  (v41_eq (W2 m ρ c)).trans (by rw [left_arg3])
theorem found_v42 (c : Dev nD) : V9 m ρ c main_v42
    = (shapeCast S1x128 (m ((c : Thread nD τ).loc main_arg8)) shapeCasts_S128_S1x128 : S1x128.Idx → Elt Ideal .f32) :=
  (v42_eq (W2 m ρ c)).trans (by rw [left_arg8])
theorem found_v43 (c : Dev nD) : V9 m ρ c main_v43
    = (shapeCast S1x128 (m ((c : Thread nD τ).loc main_arg9)) shapeCasts_S128_S1x128 : S1x128.Idx → Elt Ideal .f32) :=
  (v43_eq (W2 m ρ c)).trans (by rw [left_arg9])

/-! ## The results -/

/-- The user result: every user row's two neighbourhood means averaged, clipped and normalized. -/
theorem out0_eq (c : Dev nD) : (dat1 (V9 m ρ) c).arrAt 8 cfg1.N
    = userArr (segSum (F := Ideal) (tUserK m c) (m ((c : Thread nD τ).loc main_arg2))) (segCnt (F := Ideal) (m ((c : Thread nD τ).loc main_arg2)))
        (segSum (F := Ideal) (tItemK m c) (m ((c : Thread nD τ).loc main_arg4))) (segCnt (F := Ideal) (m ((c : Thread nD τ).loc main_arg4)))
        (shapeCast S1x128 (m ((c : Thread nD τ).loc main_arg8)) shapeCasts_S128_S1x128)
        (shapeCast S1x128 (m ((c : Thread nD τ).loc main_arg9)) shapeCasts_S128_S1x128) := by
  rw [final8, found_v13, found_v17, found_v25, found_v29, found_v42, found_v43]

/-- The item result: every item row's neighbourhood mean clipped and normalized. -/
theorem out1_eq (c : Dev nD) : (dat1 (V9 m ρ) c).arrAt 9 cfg1.N
    = itemArr (segSum (F := Ideal) (tUserK m c) (m ((c : Thread nD τ).loc main_arg3))) (segCnt (F := Ideal) (m ((c : Thread nD τ).loc main_arg3)))
        (shapeCast S1x128 (m ((c : Thread nD τ).loc main_arg8)) shapeCasts_S128_S1x128)
        (shapeCast S1x128 (m ((c : Thread nD τ).loc main_arg9)) shapeCasts_S128_S1x128) := by
  rw [final9, found_v37, found_v41, found_v42, found_v43]

end Cert.KernelIdeal.KValue

end
-- ==== Proof.RefRun.lean ====
import proofs.«173363_g86715389706548_cont_9to1_m_205_2_alg».proof.ReferenceIdeal
import proofs.«173363_g86715389706548_cont_9to1_m_205_2_alg».proof.Proof.Gen.ReferenceIdeal
import Idealize.ShloMosaic.Lib.StableHlo.Run

/-!
# The reference program's run

The reference's @main is a straight line of 204 host operations once its five calls (three of `_take`, each with a
nested `_where`, and two of `relu`) are unfolded at their call sites over the calls' buffer records. This module
lists them, in order, in seven stages; shows @main is that line; reads off that every weakly fair execution ends
with each buffer at the fold of the operations over the launch contents; and evaluates the fold at the two results
and at the ten arguments, stage by stage, as a composition of named functions of the arguments' contents.
-/

noncomputable section

namespace Cert.ReferenceIdeal.RefRun

open Cert.ReferenceIdeal Cert.ReferenceIdeal.Gen Idealize.ShloMosaic Idealize.ShloMosaic.TcCoe Idealize.SL.Sem

variable {F : FTy → Type} [FloatOps F]

/-! ## The operations, by stage -/
/-- The two projections: `%0 … %8` — the user table through two weight matrices, summed and halved (`%6`), and the item table through one (`%8`). -/
abbrev opsA : List (HloOp τ sig (Elt F)) :=
  [ StableHlo.unary main_arg5 main_v0 ((transpose S128x128 [1, 0] · transposes_S128x128_S128x128_1_0) : (⟨S128x128, .f32⟩ : BufTy).Contents (Elt F) → (⟨S128x128, .f32⟩ : BufTy).Contents (Elt F)),
    StableHlo.binary main_arg0 main_v0 main_v1 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg6 main_v2 ((transpose S128x128 [1, 0] · transposes_S128x128_S128x128_1_0) : (⟨S128x128, .f32⟩ : BufTy).Contents (Elt F) → (⟨S128x128, .f32⟩ : BufTy).Contents (Elt F)),
    StableHlo.binary main_arg0 main_v2 main_v3 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.binary main_v1 main_v3 main_v4 (addf : (⟨S50000x128, .f32⟩ : BufTy).Contents (Elt F) → (⟨S50000x128, .f32⟩ : BufTy).Contents (Elt F) → (⟨S50000x128, .f32⟩ : BufTy).Contents (Elt F)),
    StableHlo.nullary main_cst (constant S_ .f32 0x40000000#32),
    StableHlo.unary main_cst main_v5 (broadcastInDim S50000x128 ![] bcast_S_S50000x128 : (⟨S_, .f32⟩ : BufTy).Contents (Elt F) → (⟨S50000x128, .f32⟩ : BufTy).Contents (Elt F)),
    StableHlo.binary main_v4 main_v5 main_v6 (Host.divf : (⟨S50000x128, .f32⟩ : BufTy).Contents (Elt F) → (⟨S50000x128, .f32⟩ : BufTy).Contents (Elt F) → (⟨S50000x128, .f32⟩ : BufTy).Contents (Elt F)),
    StableHlo.unary main_arg7 main_v7 ((transpose S128x128 [1, 0] · transposes_S128x128_S128x128_1_0) : (⟨S128x128, .f32⟩ : BufTy).Contents (Elt F) → (⟨S128x128, .f32⟩ : BufTy).Contents (Elt F)),
    StableHlo.binary main_arg1 main_v7 main_v8 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)) ]

/-- The first neighbourhood mean, `%9 … %24`: the two rows of the edge list `%arg2`, `_take` of `%6` at the first row (call 0, its `_where` inside), the sums and the counts scattered at the second row, the quotient. -/
abbrev opsB1 : List (HloOp τ sig (Elt F)) :=
  [ StableHlo.unary main_arg2 main_v9 ((extractStridedSlice S1x200000 ![0, 0] · slices_S2x200000_S1x200000_0_0) : (⟨S2x200000, .i32⟩ : BufTy).Contents (Elt F) → (⟨S1x200000, .i32⟩ : BufTy).Contents (Elt F)),
    StableHlo.reshape main_v9 main_v10 rfl shapeCasts_S1x200000_S200000,
    StableHlo.unary main_arg2 main_v11 ((extractStridedSlice S1x200000 ![1, 0] · slices_S2x200000_S1x200000_1_0) : (⟨S2x200000, .i32⟩ : BufTy).Contents (Elt F) → (⟨S1x200000, .i32⟩ : BufTy).Contents (Elt F)),
    StableHlo.reshape main_v11 main_v12 rfl shapeCasts_S1x200000_S200000,
    StableHlo.TRef.nullary main_call0.c (constantI S_ 32 0#32),
    StableHlo.TRef.unary main_call0.c main_call0.v0 (broadcastInDim S200000 ![] bcast_S_S200000),
    StableHlo.TRef.binary (.of main_v10) main_call0.v0 main_call0.v1 (cmpi .slt),
    StableHlo.TRef.nullary main_call0.c_0 (constantI S_ 32 50000#32),
    StableHlo.TRef.unary main_call0.c_0 main_call0.v2 (broadcastInDim S200000 ![] bcast_S_S200000),
    StableHlo.TRef.binary (.of main_v10) main_call0.v2 main_call0.v3 addi,
    StableHlo.TRef.ternary main_call0.v1 main_call0.v3 (.of main_v10) main_call0.call0.v0 select,
    StableHlo.TRef.unary main_call0.call0.v0 main_call0.v5 (broadcastInDim S200000x1 ![0] bcast_S200000_S200000x1_0),
    StableHlo.TRef.nullary main_call0.c_1 (constantI S1 32 49999#32),
    StableHlo.TRef.nullary main_call0.c_2 (constantI S_ 32 0#32),
    StableHlo.TRef.unary main_call0.c_2 main_call0.v6 (broadcastInDim S200000x1 ![] bcast_S_S200000x1),
    StableHlo.TRef.binary main_call0.v5 main_call0.v6 main_call0.v7 (cmpi .sge),
    StableHlo.TRef.unary main_call0.c_1 main_call0.v8 (broadcastInDim S1x1 ![1] bcast_S1_S1x1_1),
    StableHlo.TRef.unary main_call0.v8 main_call0.v9 (broadcastInDim S200000x1 ![0, 1] bcast_S1x1_S200000x1_0_1),
    StableHlo.TRef.binary main_call0.v5 main_call0.v9 main_call0.v10 (cmpi .sle),
    StableHlo.TRef.binary main_call0.v7 main_call0.v10 main_call0.v11 andi,
    StableHlo.TRef.nullary main_call0.c_3 (constantI S_ 1 1#1),
    StableHlo.TRef.binary main_call0.v11 main_call0.c_3 main_call0.v12 (fun x v => Host.reduce IntOp.andi x v reducesTo_S200000x1_S200000_d1 h_S_),
    StableHlo.TRef.binary (.of main_v6) main_call0.v5 main_call0.v13 (fun x i => Host.gather gather_S50000x128_S200000x1_S200000x128_1_0_n_n_0_1_1128 x i),
    StableHlo.TRef.unary main_call0.v12 main_call0.v14 (broadcastInDim S200000x128 ![0] bcast_S200000_S200000x128_0),
    StableHlo.TRef.nullary main_call0.cst (constant S_ .f32 0x7FC00000#32),
    StableHlo.TRef.unary main_call0.cst main_call0.v15 (broadcastInDim S200000x128 ![] bcast_S_S200000x128),
    StableHlo.TRef.ternary main_call0.v14 main_call0.v13 main_call0.v15 main_call0.v16 select,
    StableHlo.nullary main_cst_0 (constant S_ .f32 0x00000000#32),
    StableHlo.unary main_cst_0 main_v14 (broadcastInDim S50000x128 ![] bcast_S_S50000x128 : (⟨S_, .f32⟩ : BufTy).Contents (Elt F) → (⟨S50000x128, .f32⟩ : BufTy).Contents (Elt F)),
    StableHlo.unary main_v12 main_v15 (broadcastInDim S200000x1 ![0] bcast_S200000_S200000x1_0 : (⟨S200000, .i32⟩ : BufTy).Contents (Elt F) → (⟨S200000x1, .i32⟩ : BufTy).Contents (Elt F)),
    StableHlo.ternary main_v14 main_v15 main_v13 main_v16 ((fun x i u => Host.scatterAdd scatter_S50000x128_S200000x1_S200000x128_1_0_0_1 x i u) : (⟨S50000x128, .f32⟩ : BufTy).Contents (Elt F) → (⟨S200000x1, .i32⟩ : BufTy).Contents (Elt F) → (⟨S200000x128, .f32⟩ : BufTy).Contents (Elt F) → (⟨S50000x128, .f32⟩ : BufTy).Contents (Elt F)),
    StableHlo.nullary main_cst_1 (constant S_ .f32 0x3F800000#32),
    StableHlo.unary main_cst_1 main_v17 (broadcastInDim S200000x1 ![] bcast_S_S200000x1 : (⟨S_, .f32⟩ : BufTy).Contents (Elt F) → (⟨S200000x1, .f32⟩ : BufTy).Contents (Elt F)),
    StableHlo.nullary main_cst_2 (constant S_ .f32 0x00000000#32),
    StableHlo.unary main_cst_2 main_v18 (broadcastInDim S50000x1 ![] bcast_S_S50000x1 : (⟨S_, .f32⟩ : BufTy).Contents (Elt F) → (⟨S50000x1, .f32⟩ : BufTy).Contents (Elt F)),
    StableHlo.unary main_v12 main_v19 (broadcastInDim S200000x1 ![0] bcast_S200000_S200000x1_0 : (⟨S200000, .i32⟩ : BufTy).Contents (Elt F) → (⟨S200000x1, .i32⟩ : BufTy).Contents (Elt F)),
    StableHlo.ternary main_v18 main_v19 main_v17 main_v20 ((fun x i u => Host.scatterAdd scatter_S50000x1_S200000x1_S200000x1_1_0_0_1 x i u) : (⟨S50000x1, .f32⟩ : BufTy).Contents (Elt F) → (⟨S200000x1, .i32⟩ : BufTy).Contents (Elt F) → (⟨S200000x1, .f32⟩ : BufTy).Contents (Elt F) → (⟨S50000x1, .f32⟩ : BufTy).Contents (Elt F)),
    StableHlo.nullary main_cst_3 (constant S_ .f32 0x3F800000#32),
    StableHlo.unary main_cst_3 main_v21 (broadcastInDim S50000x1 ![] bcast_S_S50000x1 : (⟨S_, .f32⟩ : BufTy).Contents (Elt F) → (⟨S50000x1, .f32⟩ : BufTy).Contents (Elt F)),
    StableHlo.binary main_v20 main_v21 main_v22 (maximumf : (⟨S50000x1, .f32⟩ : BufTy).Contents (Elt F) → (⟨S50000x1, .f32⟩ : BufTy).Contents (Elt F) → (⟨S50000x1, .f32⟩ : BufTy).Contents (Elt F)),
    StableHlo.unary main_v22 main_v23 (broadcastInDim S50000x128 ![0, 1] bcast_S50000x1_S50000x128_0_1 : (⟨S50000x1, .f32⟩ : BufTy).Contents (Elt F) → (⟨S50000x128, .f32⟩ : BufTy).Contents (Elt F)),
    StableHlo.binary main_v16 main_v23 main_v24 (Host.divf : (⟨S50000x128, .f32⟩ : BufTy).Contents (Elt F) → (⟨S50000x128, .f32⟩ : BufTy).Contents (Elt F) → (⟨S50000x128, .f32⟩ : BufTy).Contents (Elt F)) ]

/-- The second neighbourhood mean, `%25 … %40`: the same over `%8` and the edge list `%arg4` (call 1). -/
abbrev opsB2 : List (HloOp τ sig (Elt F)) :=
  [ StableHlo.unary main_arg4 main_v25 ((extractStridedSlice S1x200000 ![0, 0] · slices_S2x200000_S1x200000_0_0) : (⟨S2x200000, .i32⟩ : BufTy).Contents (Elt F) → (⟨S1x200000, .i32⟩ : BufTy).Contents (Elt F)),
    StableHlo.reshape main_v25 main_v26 rfl shapeCasts_S1x200000_S200000,
    StableHlo.unary main_arg4 main_v27 ((extractStridedSlice S1x200000 ![1, 0] · slices_S2x200000_S1x200000_1_0) : (⟨S2x200000, .i32⟩ : BufTy).Contents (Elt F) → (⟨S1x200000, .i32⟩ : BufTy).Contents (Elt F)),
    StableHlo.reshape main_v27 main_v28 rfl shapeCasts_S1x200000_S200000,
    StableHlo.TRef.nullary main_call1.c (constantI S_ 32 0#32),
    StableHlo.TRef.unary main_call1.c main_call1.v0 (broadcastInDim S200000 ![] bcast_S_S200000),
    StableHlo.TRef.binary (.of main_v26) main_call1.v0 main_call1.v1 (cmpi .slt),
    StableHlo.TRef.nullary main_call1.c_0 (constantI S_ 32 50000#32),
    StableHlo.TRef.unary main_call1.c_0 main_call1.v2 (broadcastInDim S200000 ![] bcast_S_S200000),
    StableHlo.TRef.binary (.of main_v26) main_call1.v2 main_call1.v3 addi,
    StableHlo.TRef.ternary main_call1.v1 main_call1.v3 (.of main_v26) main_call1.call0.v0 select,
    StableHlo.TRef.unary main_call1.call0.v0 main_call1.v5 (broadcastInDim S200000x1 ![0] bcast_S200000_S200000x1_0),
    StableHlo.TRef.nullary main_call1.c_1 (constantI S1 32 49999#32),
    StableHlo.TRef.nullary main_call1.c_2 (constantI S_ 32 0#32),
    StableHlo.TRef.unary main_call1.c_2 main_call1.v6 (broadcastInDim S200000x1 ![] bcast_S_S200000x1),
    StableHlo.TRef.binary main_call1.v5 main_call1.v6 main_call1.v7 (cmpi .sge),
    StableHlo.TRef.unary main_call1.c_1 main_call1.v8 (broadcastInDim S1x1 ![1] bcast_S1_S1x1_1),
    StableHlo.TRef.unary main_call1.v8 main_call1.v9 (broadcastInDim S200000x1 ![0, 1] bcast_S1x1_S200000x1_0_1),
    StableHlo.TRef.binary main_call1.v5 main_call1.v9 main_call1.v10 (cmpi .sle),
    StableHlo.TRef.binary main_call1.v7 main_call1.v10 main_call1.v11 andi,
    StableHlo.TRef.nullary main_call1.c_3 (constantI S_ 1 1#1),
    StableHlo.TRef.binary main_call1.v11 main_call1.c_3 main_call1.v12 (fun x v => Host.reduce IntOp.andi x v reducesTo_S200000x1_S200000_d1 h_S_),
    StableHlo.TRef.binary (.of main_v8) main_call1.v5 main_call1.v13 (fun x i => Host.gather gather_S50000x128_S200000x1_S200000x128_1_0_n_n_0_1_1128 x i),
    StableHlo.TRef.unary main_call1.v12 main_call1.v14 (broadcastInDim S200000x128 ![0] bcast_S200000_S200000x128_0),
    StableHlo.TRef.nullary main_call1.cst (constant S_ .f32 0x7FC00000#32),
    StableHlo.TRef.unary main_call1.cst main_call1.v15 (broadcastInDim S200000x128 ![] bcast_S_S200000x128),
    StableHlo.TRef.ternary main_call1.v14 main_call1.v13 main_call1.v15 main_call1.v16 select,
    StableHlo.nullary main_cst_4 (constant S_ .f32 0x00000000#32),
    StableHlo.unary main_cst_4 main_v30 (broadcastInDim S50000x128 ![] bcast_S_S50000x128 : (⟨S_, .f32⟩ : BufTy).Contents (Elt F) → (⟨S50000x128, .f32⟩ : BufTy).Contents (Elt F)),
    StableHlo.unary main_v28 main_v31 (broadcastInDim S200000x1 ![0] bcast_S200000_S200000x1_0 : (⟨S200000, .i32⟩ : BufTy).Contents (Elt F) → (⟨S200000x1, .i32⟩ : BufTy).Contents (Elt F)),
    StableHlo.ternary main_v30 main_v31 main_v29 main_v32 ((fun x i u => Host.scatterAdd scatter_S50000x128_S200000x1_S200000x128_1_0_0_1 x i u) : (⟨S50000x128, .f32⟩ : BufTy).Contents (Elt F) → (⟨S200000x1, .i32⟩ : BufTy).Contents (Elt F) → (⟨S200000x128, .f32⟩ : BufTy).Contents (Elt F) → (⟨S50000x128, .f32⟩ : BufTy).Contents (Elt F)),
    StableHlo.nullary main_cst_5 (constant S_ .f32 0x3F800000#32),
    StableHlo.unary main_cst_5 main_v33 (broadcastInDim S200000x1 ![] bcast_S_S200000x1 : (⟨S_, .f32⟩ : BufTy).Contents (Elt F) → (⟨S200000x1, .f32⟩ : BufTy).Contents (Elt F)),
    StableHlo.nullary main_cst_6 (constant S_ .f32 0x00000000#32),
    StableHlo.unary main_cst_6 main_v34 (broadcastInDim S50000x1 ![] bcast_S_S50000x1 : (⟨S_, .f32⟩ : BufTy).Contents (Elt F) → (⟨S50000x1, .f32⟩ : BufTy).Contents (Elt F)),
    StableHlo.unary main_v28 main_v35 (broadcastInDim S200000x1 ![0] bcast_S200000_S200000x1_0 : (⟨S200000, .i32⟩ : BufTy).Contents (Elt F) → (⟨S200000x1, .i32⟩ : BufTy).Contents (Elt F)),
    StableHlo.ternary main_v34 main_v35 main_v33 main_v36 ((fun x i u => Host.scatterAdd scatter_S50000x1_S200000x1_S200000x1_1_0_0_1 x i u) : (⟨S50000x1, .f32⟩ : BufTy).Contents (Elt F) → (⟨S200000x1, .i32⟩ : BufTy).Contents (Elt F) → (⟨S200000x1, .f32⟩ : BufTy).Contents (Elt F) → (⟨S50000x1, .f32⟩ : BufTy).Contents (Elt F)),
    StableHlo.nullary main_cst_7 (constant S_ .f32 0x3F800000#32),
    StableHlo.unary main_cst_7 main_v37 (broadcastInDim S50000x1 ![] bcast_S_S50000x1 : (⟨S_, .f32⟩ : BufTy).Contents (Elt F) → (⟨S50000x1, .f32⟩ : BufTy).Contents (Elt F)),
    StableHlo.binary main_v36 main_v37 main_v38 (maximumf : (⟨S50000x1, .f32⟩ : BufTy).Contents (Elt F) → (⟨S50000x1, .f32⟩ : BufTy).Contents (Elt F) → (⟨S50000x1, .f32⟩ : BufTy).Contents (Elt F)),
    StableHlo.unary main_v38 main_v39 (broadcastInDim S50000x128 ![0, 1] bcast_S50000x1_S50000x128_0_1 : (⟨S50000x1, .f32⟩ : BufTy).Contents (Elt F) → (⟨S50000x128, .f32⟩ : BufTy).Contents (Elt F)),
    StableHlo.binary main_v32 main_v39 main_v40 (Host.divf : (⟨S50000x128, .f32⟩ : BufTy).Contents (Elt F) → (⟨S50000x128, .f32⟩ : BufTy).Contents (Elt F) → (⟨S50000x128, .f32⟩ : BufTy).Contents (Elt F)) ]

/-- The half sum of the two means, `%41 … %43`. -/
abbrev opsC : List (HloOp τ sig (Elt F)) :=
  [ StableHlo.binary main_v24 main_v40 main_v41 (addf : (⟨S50000x128, .f32⟩ : BufTy).Contents (Elt F) → (⟨S50000x128, .f32⟩ : BufTy).Contents (Elt F) → (⟨S50000x128, .f32⟩ : BufTy).Contents (Elt F)),
    StableHlo.nullary main_cst_8 (constant S_ .f32 0x40000000#32),
    StableHlo.unary main_cst_8 main_v42 (broadcastInDim S50000x128 ![] bcast_S_S50000x128 : (⟨S_, .f32⟩ : BufTy).Contents (Elt F) → (⟨S50000x128, .f32⟩ : BufTy).Contents (Elt F)),
    StableHlo.binary main_v41 main_v42 main_v43 (Host.divf : (⟨S50000x128, .f32⟩ : BufTy).Contents (Elt F) → (⟨S50000x128, .f32⟩ : BufTy).Contents (Elt F) → (⟨S50000x128, .f32⟩ : BufTy).Contents (Elt F)) ]

/-- The third neighbourhood mean, `%44 … %59`, over `%6` and the edge list `%arg3` (call 2): its first 28 operations. -/
abbrev opsB3a : List (HloOp τ sig (Elt F)) :=
  [ StableHlo.unary main_arg3 main_v44 ((extractStridedSlice S1x200000 ![0, 0] · slices_S2x200000_S1x200000_0_0) : (⟨S2x200000, .i32⟩ : BufTy).Contents (Elt F) → (⟨S1x200000, .i32⟩ : BufTy).Contents (Elt F)),
    StableHlo.reshape main_v44 main_v45 rfl shapeCasts_S1x200000_S200000,
    StableHlo.unary main_arg3 main_v46 ((extractStridedSlice S1x200000 ![1, 0] · slices_S2x200000_S1x200000_1_0) : (⟨S2x200000, .i32⟩ : BufTy).Contents (Elt F) → (⟨S1x200000, .i32⟩ : BufTy).Contents (Elt F)),
    StableHlo.reshape main_v46 main_v47 rfl shapeCasts_S1x200000_S200000,
    StableHlo.TRef.nullary main_call2.c (constantI S_ 32 0#32),
    StableHlo.TRef.unary main_call2.c main_call2.v0 (broadcastInDim S200000 ![] bcast_S_S200000),
    StableHlo.TRef.binary (.of main_v45) main_call2.v0 main_call2.v1 (cmpi .slt),
    StableHlo.TRef.nullary main_call2.c_0 (constantI S_ 32 50000#32),
    StableHlo.TRef.unary main_call2.c_0 main_call2.v2 (broadcastInDim S200000 ![] bcast_S_S200000),
    StableHlo.TRef.binary (.of main_v45) main_call2.v2 main_call2.v3 addi,
    StableHlo.TRef.ternary main_call2.v1 main_call2.v3 (.of main_v45) main_call2.call0.v0 select,
    StableHlo.TRef.unary main_call2.call0.v0 main_call2.v5 (broadcastInDim S200000x1 ![0] bcast_S200000_S200000x1_0),
    StableHlo.TRef.nullary main_call2.c_1 (constantI S1 32 49999#32),
    StableHlo.TRef.nullary main_call2.c_2 (constantI S_ 32 0#32),
    StableHlo.TRef.unary main_call2.c_2 main_call2.v6 (broadcastInDim S200000x1 ![] bcast_S_S200000x1),
    StableHlo.TRef.binary main_call2.v5 main_call2.v6 main_call2.v7 (cmpi .sge),
    StableHlo.TRef.unary main_call2.c_1 main_call2.v8 (broadcastInDim S1x1 ![1] bcast_S1_S1x1_1),
    StableHlo.TRef.unary main_call2.v8 main_call2.v9 (broadcastInDim S200000x1 ![0, 1] bcast_S1x1_S200000x1_0_1),
    StableHlo.TRef.binary main_call2.v5 main_call2.v9 main_call2.v10 (cmpi .sle),
    StableHlo.TRef.binary main_call2.v7 main_call2.v10 main_call2.v11 andi,
    StableHlo.TRef.nullary main_call2.c_3 (constantI S_ 1 1#1),
    StableHlo.TRef.binary main_call2.v11 main_call2.c_3 main_call2.v12 (fun x v => Host.reduce IntOp.andi x v reducesTo_S200000x1_S200000_d1 h_S_),
    StableHlo.TRef.binary (.of main_v6) main_call2.v5 main_call2.v13 (fun x i => Host.gather gather_S50000x128_S200000x1_S200000x128_1_0_n_n_0_1_1128 x i),
    StableHlo.TRef.unary main_call2.v12 main_call2.v14 (broadcastInDim S200000x128 ![0] bcast_S200000_S200000x128_0),
    StableHlo.TRef.nullary main_call2.cst (constant S_ .f32 0x7FC00000#32),
    StableHlo.TRef.unary main_call2.cst main_call2.v15 (broadcastInDim S200000x128 ![] bcast_S_S200000x128),
    StableHlo.TRef.ternary main_call2.v14 main_call2.v13 main_call2.v15 main_call2.v16 select,
    StableHlo.nullary main_cst_9 (constant S_ .f32 0x00000000#32) ]

/-- The third neighbourhood mean: its last 14 operations. -/
abbrev opsB3b : List (HloOp τ sig (Elt F)) :=
  [ StableHlo.unary main_cst_9 main_v49 (broadcastInDim S50000x128 ![] bcast_S_S50000x128 : (⟨S_, .f32⟩ : BufTy).Contents (Elt F) → (⟨S50000x128, .f32⟩ : BufTy).Contents (Elt F)),
    StableHlo.unary main_v47 main_v50 (broadcastInDim S200000x1 ![0] bcast_S200000_S200000x1_0 : (⟨S200000, .i32⟩ : BufTy).Contents (Elt F) → (⟨S200000x1, .i32⟩ : BufTy).Contents (Elt F)),
    StableHlo.ternary main_v49 main_v50 main_v48 main_v51 ((fun x i u => Host.scatterAdd scatter_S50000x128_S200000x1_S200000x128_1_0_0_1 x i u) : (⟨S50000x128, .f32⟩ : BufTy).Contents (Elt F) → (⟨S200000x1, .i32⟩ : BufTy).Contents (Elt F) → (⟨S200000x128, .f32⟩ : BufTy).Contents (Elt F) → (⟨S50000x128, .f32⟩ : BufTy).Contents (Elt F)),
    StableHlo.nullary main_cst_10 (constant S_ .f32 0x3F800000#32),
    StableHlo.unary main_cst_10 main_v52 (broadcastInDim S200000x1 ![] bcast_S_S200000x1 : (⟨S_, .f32⟩ : BufTy).Contents (Elt F) → (⟨S200000x1, .f32⟩ : BufTy).Contents (Elt F)),
    StableHlo.nullary main_cst_11 (constant S_ .f32 0x00000000#32),
    StableHlo.unary main_cst_11 main_v53 (broadcastInDim S50000x1 ![] bcast_S_S50000x1 : (⟨S_, .f32⟩ : BufTy).Contents (Elt F) → (⟨S50000x1, .f32⟩ : BufTy).Contents (Elt F)),
    StableHlo.unary main_v47 main_v54 (broadcastInDim S200000x1 ![0] bcast_S200000_S200000x1_0 : (⟨S200000, .i32⟩ : BufTy).Contents (Elt F) → (⟨S200000x1, .i32⟩ : BufTy).Contents (Elt F)),
    StableHlo.ternary main_v53 main_v54 main_v52 main_v55 ((fun x i u => Host.scatterAdd scatter_S50000x1_S200000x1_S200000x1_1_0_0_1 x i u) : (⟨S50000x1, .f32⟩ : BufTy).Contents (Elt F) → (⟨S200000x1, .i32⟩ : BufTy).Contents (Elt F) → (⟨S200000x1, .f32⟩ : BufTy).Contents (Elt F) → (⟨S50000x1, .f32⟩ : BufTy).Contents (Elt F)),
    StableHlo.nullary main_cst_12 (constant S_ .f32 0x3F800000#32),
    StableHlo.unary main_cst_12 main_v56 (broadcastInDim S50000x1 ![] bcast_S_S50000x1 : (⟨S_, .f32⟩ : BufTy).Contents (Elt F) → (⟨S50000x1, .f32⟩ : BufTy).Contents (Elt F)),
    StableHlo.binary main_v55 main_v56 main_v57 (maximumf : (⟨S50000x1, .f32⟩ : BufTy).Contents (Elt F) → (⟨S50000x1, .f32⟩ : BufTy).Contents (Elt F) → (⟨S50000x1, .f32⟩ : BufTy).Contents (Elt F)),
    StableHlo.unary main_v57 main_v58 (broadcastInDim S50000x128 ![0, 1] bcast_S50000x1_S50000x128_0_1 : (⟨S50000x1, .f32⟩ : BufTy).Contents (Elt F) → (⟨S50000x128, .f32⟩ : BufTy).Contents (Elt F)),
    StableHlo.binary main_v51 main_v58 main_v59 (Host.divf : (⟨S50000x128, .f32⟩ : BufTy).Contents (Elt F) → (⟨S50000x128, .f32⟩ : BufTy).Contents (Elt F) → (⟨S50000x128, .f32⟩ : BufTy).Contents (Elt F)) ]

/-- The first normalization, `%60 … %84`: `relu` of `%43` (call 3), the row mean, the centred rows, the row variance, the quotient by its root, scale and shift. -/
abbrev opsD1 : List (HloOp τ sig (Elt F)) :=
  [ StableHlo.TRef.nullary main_call3.cst (constant S_ .f32 0x00000000#32),
    StableHlo.TRef.unary main_call3.cst main_call3.v0 (broadcastInDim S50000x128 ![] bcast_S_S50000x128),
    StableHlo.TRef.binary (.of main_v43) main_call3.v0 main_call3.v1 maximumf,
    StableHlo.nullary main_cst_13 (constant S_ .f32 0x00000000#32),
    StableHlo.binary main_v60 main_cst_13 main_v61 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    StableHlo.unary main_v61 main_v62 (broadcastInDim S50000x1 ![0] bcast_S50000_S50000x1_0 : (⟨S50000, .f32⟩ : BufTy).Contents (Elt F) → (⟨S50000x1, .f32⟩ : BufTy).Contents (Elt F)),
    StableHlo.nullary main_cst_14 (constant S_ .f32 0x43000000#32),
    StableHlo.unary main_cst_14 main_v63 (broadcastInDim S50000x1 ![] bcast_S_S50000x1 : (⟨S_, .f32⟩ : BufTy).Contents (Elt F) → (⟨S50000x1, .f32⟩ : BufTy).Contents (Elt F)),
    StableHlo.binary main_v62 main_v63 main_v64 (Host.divf : (⟨S50000x1, .f32⟩ : BufTy).Contents (Elt F) → (⟨S50000x1, .f32⟩ : BufTy).Contents (Elt F) → (⟨S50000x1, .f32⟩ : BufTy).Contents (Elt F)),
    StableHlo.unary main_v64 main_v65 (broadcastInDim S50000x128 ![0, 1] bcast_S50000x1_S50000x128_0_1 : (⟨S50000x1, .f32⟩ : BufTy).Contents (Elt F) → (⟨S50000x128, .f32⟩ : BufTy).Contents (Elt F)),
    StableHlo.binary main_v60 main_v65 main_v66 (subf : (⟨S50000x128, .f32⟩ : BufTy).Contents (Elt F) → (⟨S50000x128, .f32⟩ : BufTy).Contents (Elt F) → (⟨S50000x128, .f32⟩ : BufTy).Contents (Elt F)),
    StableHlo.binary main_v66 main_v66 main_v67 (mulf : (⟨S50000x128, .f32⟩ : BufTy).Contents (Elt F) → (⟨S50000x128, .f32⟩ : BufTy).Contents (Elt F) → (⟨S50000x128, .f32⟩ : BufTy).Contents (Elt F)),
    StableHlo.nullary main_cst_15 (constant S_ .f32 0x00000000#32),
    StableHlo.binary main_v67 main_cst_15 main_v68 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    StableHlo.unary main_v68 main_v69 (broadcastInDim S50000x1 ![0] bcast_S50000_S50000x1_0 : (⟨S50000, .f32⟩ : BufTy).Contents (Elt F) → (⟨S50000x1, .f32⟩ : BufTy).Contents (Elt F)),
    StableHlo.nullary main_cst_16 (constant S_ .f32 0x43000000#32),
    StableHlo.unary main_cst_16 main_v70 (broadcastInDim S50000x1 ![] bcast_S_S50000x1 : (⟨S_, .f32⟩ : BufTy).Contents (Elt F) → (⟨S50000x1, .f32⟩ : BufTy).Contents (Elt F)),
    StableHlo.binary main_v69 main_v70 main_v71 (Host.divf : (⟨S50000x1, .f32⟩ : BufTy).Contents (Elt F) → (⟨S50000x1, .f32⟩ : BufTy).Contents (Elt F) → (⟨S50000x1, .f32⟩ : BufTy).Contents (Elt F)),
    StableHlo.unary main_v64 main_v72 (broadcastInDim S50000x128 ![0, 1] bcast_S50000x1_S50000x128_0_1 : (⟨S50000x1, .f32⟩ : BufTy).Contents (Elt F) → (⟨S50000x128, .f32⟩ : BufTy).Contents (Elt F)),
    StableHlo.binary main_v60 main_v72 main_v73 (subf : (⟨S50000x128, .f32⟩ : BufTy).Contents (Elt F) → (⟨S50000x128, .f32⟩ : BufTy).Contents (Elt F) → (⟨S50000x128, .f32⟩ : BufTy).Contents (Elt F)),
    StableHlo.nullary main_cst_17 (constant S_ .f32 0x3727C5AC#32),
    StableHlo.unary main_cst_17 main_v74 (broadcastInDim S50000x1 ![] bcast_S_S50000x1 : (⟨S_, .f32⟩ : BufTy).Contents (Elt F) → (⟨S50000x1, .f32⟩ : BufTy).Contents (Elt F)),
    StableHlo.binary main_v71 main_v74 main_v75 (addf : (⟨S50000x1, .f32⟩ : BufTy).Contents (Elt F) → (⟨S50000x1, .f32⟩ : BufTy).Contents (Elt F) → (⟨S50000x1, .f32⟩ : BufTy).Contents (Elt F)),
    StableHlo.unary main_v75 main_v76 (Host.sqrt : (⟨S50000x1, .f32⟩ : BufTy).Contents (Elt F) → (⟨S50000x1, .f32⟩ : BufTy).Contents (Elt F)),
    StableHlo.unary main_v76 main_v77 (broadcastInDim S50000x128 ![0, 1] bcast_S50000x1_S50000x128_0_1 : (⟨S50000x1, .f32⟩ : BufTy).Contents (Elt F) → (⟨S50000x128, .f32⟩ : BufTy).Contents (Elt F)),
    StableHlo.binary main_v73 main_v77 main_v78 (Host.divf : (⟨S50000x128, .f32⟩ : BufTy).Contents (Elt F) → (⟨S50000x128, .f32⟩ : BufTy).Contents (Elt F) → (⟨S50000x128, .f32⟩ : BufTy).Contents (Elt F)),
    StableHlo.unary main_arg8 main_v79 (broadcastInDim S1x128 ![1] bcast_S128_S1x128_1 : (⟨S128, .f32⟩ : BufTy).Contents (Elt F) → (⟨S1x128, .f32⟩ : BufTy).Contents (Elt F)),
    StableHlo.unary main_v79 main_v80 (broadcastInDim S50000x128 ![0, 1] bcast_S1x128_S50000x128_0_1 : (⟨S1x128, .f32⟩ : BufTy).Contents (Elt F) → (⟨S50000x128, .f32⟩ : BufTy).Contents (Elt F)),
    StableHlo.binary main_v78 main_v80 main_v81 (mulf : (⟨S50000x128, .f32⟩ : BufTy).Contents (Elt F) → (⟨S50000x128, .f32⟩ : BufTy).Contents (Elt F) → (⟨S50000x128, .f32⟩ : BufTy).Contents (Elt F)),
    StableHlo.unary main_arg9 main_v82 (broadcastInDim S1x128 ![1] bcast_S128_S1x128_1 : (⟨S128, .f32⟩ : BufTy).Contents (Elt F) → (⟨S1x128, .f32⟩ : BufTy).Contents (Elt F)),
    StableHlo.unary main_v82 main_v83 (broadcastInDim S50000x128 ![0, 1] bcast_S1x128_S50000x128_0_1 : (⟨S1x128, .f32⟩ : BufTy).Contents (Elt F) → (⟨S50000x128, .f32⟩ : BufTy).Contents (Elt F)),
    StableHlo.binary main_v81 main_v83 main_v84 (addf : (⟨S50000x128, .f32⟩ : BufTy).Contents (Elt F) → (⟨S50000x128, .f32⟩ : BufTy).Contents (Elt F) → (⟨S50000x128, .f32⟩ : BufTy).Contents (Elt F)) ]

/-- The second normalization, `%85 … %109`, of `%59` (call 4): its first 18 operations. -/
abbrev opsD2a : List (HloOp τ sig (Elt F)) :=
  [ StableHlo.TRef.nullary main_call4.cst (constant S_ .f32 0x00000000#32),
    StableHlo.TRef.unary main_call4.cst main_call4.v0 (broadcastInDim S50000x128 ![] bcast_S_S50000x128),
    StableHlo.TRef.binary (.of main_v59) main_call4.v0 main_call4.v1 maximumf,
    StableHlo.nullary main_cst_18 (constant S_ .f32 0x00000000#32),
    StableHlo.binary main_v85 main_cst_18 main_v86 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    StableHlo.unary main_v86 main_v87 (broadcastInDim S50000x1 ![0] bcast_S50000_S50000x1_0 : (⟨S50000, .f32⟩ : BufTy).Contents (Elt F) → (⟨S50000x1, .f32⟩ : BufTy).Contents (Elt F)),
    StableHlo.nullary main_cst_19 (constant S_ .f32 0x43000000#32),
    StableHlo.unary main_cst_19 main_v88 (broadcastInDim S50000x1 ![] bcast_S_S50000x1 : (⟨S_, .f32⟩ : BufTy).Contents (Elt F) → (⟨S50000x1, .f32⟩ : BufTy).Contents (Elt F)),
    StableHlo.binary main_v87 main_v88 main_v89 (Host.divf : (⟨S50000x1, .f32⟩ : BufTy).Contents (Elt F) → (⟨S50000x1, .f32⟩ : BufTy).Contents (Elt F) → (⟨S50000x1, .f32⟩ : BufTy).Contents (Elt F)),
    StableHlo.unary main_v89 main_v90 (broadcastInDim S50000x128 ![0, 1] bcast_S50000x1_S50000x128_0_1 : (⟨S50000x1, .f32⟩ : BufTy).Contents (Elt F) → (⟨S50000x128, .f32⟩ : BufTy).Contents (Elt F)),
    StableHlo.binary main_v85 main_v90 main_v91 (subf : (⟨S50000x128, .f32⟩ : BufTy).Contents (Elt F) → (⟨S50000x128, .f32⟩ : BufTy).Contents (Elt F) → (⟨S50000x128, .f32⟩ : BufTy).Contents (Elt F)),
    StableHlo.binary main_v91 main_v91 main_v92 (mulf : (⟨S50000x128, .f32⟩ : BufTy).Contents (Elt F) → (⟨S50000x128, .f32⟩ : BufTy).Contents (Elt F) → (⟨S50000x128, .f32⟩ : BufTy).Contents (Elt F)),
    StableHlo.nullary main_cst_20 (constant S_ .f32 0x00000000#32),
    StableHlo.binary main_v92 main_cst_20 main_v93 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    StableHlo.unary main_v93 main_v94 (broadcastInDim S50000x1 ![0] bcast_S50000_S50000x1_0 : (⟨S50000, .f32⟩ : BufTy).Contents (Elt F) → (⟨S50000x1, .f32⟩ : BufTy).Contents (Elt F)),
    StableHlo.nullary main_cst_21 (constant S_ .f32 0x43000000#32),
    StableHlo.unary main_cst_21 main_v95 (broadcastInDim S50000x1 ![] bcast_S_S50000x1 : (⟨S_, .f32⟩ : BufTy).Contents (Elt F) → (⟨S50000x1, .f32⟩ : BufTy).Contents (Elt F)),
    StableHlo.binary main_v94 main_v95 main_v96 (Host.divf : (⟨S50000x1, .f32⟩ : BufTy).Contents (Elt F) → (⟨S50000x1, .f32⟩ : BufTy).Contents (Elt F) → (⟨S50000x1, .f32⟩ : BufTy).Contents (Elt F)) ]

/-- The second normalization: its last 14 operations. -/
abbrev opsD2b : List (HloOp τ sig (Elt F)) :=
  [ StableHlo.unary main_v89 main_v97 (broadcastInDim S50000x128 ![0, 1] bcast_S50000x1_S50000x128_0_1 : (⟨S50000x1, .f32⟩ : BufTy).Contents (Elt F) → (⟨S50000x128, .f32⟩ : BufTy).Contents (Elt F)),
    StableHlo.binary main_v85 main_v97 main_v98 (subf : (⟨S50000x128, .f32⟩ : BufTy).Contents (Elt F) → (⟨S50000x128, .f32⟩ : BufTy).Contents (Elt F) → (⟨S50000x128, .f32⟩ : BufTy).Contents (Elt F)),
    StableHlo.nullary main_cst_22 (constant S_ .f32 0x3727C5AC#32),
    StableHlo.unary main_cst_22 main_v99 (broadcastInDim S50000x1 ![] bcast_S_S50000x1 : (⟨S_, .f32⟩ : BufTy).Contents (Elt F) → (⟨S50000x1, .f32⟩ : BufTy).Contents (Elt F)),
    StableHlo.binary main_v96 main_v99 main_v100 (addf : (⟨S50000x1, .f32⟩ : BufTy).Contents (Elt F) → (⟨S50000x1, .f32⟩ : BufTy).Contents (Elt F) → (⟨S50000x1, .f32⟩ : BufTy).Contents (Elt F)),
    StableHlo.unary main_v100 main_v101 (Host.sqrt : (⟨S50000x1, .f32⟩ : BufTy).Contents (Elt F) → (⟨S50000x1, .f32⟩ : BufTy).Contents (Elt F)),
    StableHlo.unary main_v101 main_v102 (broadcastInDim S50000x128 ![0, 1] bcast_S50000x1_S50000x128_0_1 : (⟨S50000x1, .f32⟩ : BufTy).Contents (Elt F) → (⟨S50000x128, .f32⟩ : BufTy).Contents (Elt F)),
    StableHlo.binary main_v98 main_v102 main_v103 (Host.divf : (⟨S50000x128, .f32⟩ : BufTy).Contents (Elt F) → (⟨S50000x128, .f32⟩ : BufTy).Contents (Elt F) → (⟨S50000x128, .f32⟩ : BufTy).Contents (Elt F)),
    StableHlo.unary main_arg8 main_v104 (broadcastInDim S1x128 ![1] bcast_S128_S1x128_1 : (⟨S128, .f32⟩ : BufTy).Contents (Elt F) → (⟨S1x128, .f32⟩ : BufTy).Contents (Elt F)),
    StableHlo.unary main_v104 main_v105 (broadcastInDim S50000x128 ![0, 1] bcast_S1x128_S50000x128_0_1 : (⟨S1x128, .f32⟩ : BufTy).Contents (Elt F) → (⟨S50000x128, .f32⟩ : BufTy).Contents (Elt F)),
    StableHlo.binary main_v103 main_v105 main_v106 (mulf : (⟨S50000x128, .f32⟩ : BufTy).Contents (Elt F) → (⟨S50000x128, .f32⟩ : BufTy).Contents (Elt F) → (⟨S50000x128, .f32⟩ : BufTy).Contents (Elt F)),
    StableHlo.unary main_arg9 main_v107 (broadcastInDim S1x128 ![1] bcast_S128_S1x128_1 : (⟨S128, .f32⟩ : BufTy).Contents (Elt F) → (⟨S1x128, .f32⟩ : BufTy).Contents (Elt F)),
    StableHlo.unary main_v107 main_v108 (broadcastInDim S50000x128 ![0, 1] bcast_S1x128_S50000x128_0_1 : (⟨S1x128, .f32⟩ : BufTy).Contents (Elt F) → (⟨S50000x128, .f32⟩ : BufTy).Contents (Elt F)),
    StableHlo.binary main_v106 main_v108 main_v109 (addf : (⟨S50000x128, .f32⟩ : BufTy).Contents (Elt F) → (⟨S50000x128, .f32⟩ : BufTy).Contents (Elt F) → (⟨S50000x128, .f32⟩ : BufTy).Contents (Elt F)) ]

/-- @main's 204 operations in order, the calls unfolded. -/
abbrev ops : List (HloOp τ sig (Elt F)) :=
  opsA ++ (opsB1 ++ (opsB2 ++ (opsC ++ (opsB3a ++ (opsB3b ++ (opsD1 ++ (opsD2a ++ opsD2b)))))))

/-! ## @main is that line -/

set_option maxRecDepth 16384 in
set_option maxHeartbeats 4000000 in
/-- @main is the line: its three windows in order, the functions' bodies unfolded at their calls and the records at
    their fields; both sides are one chain of `hlo` steps once sequencing is reassociated. -/
theorem main_eq (c : Dev nD) : main (F := F) c = StableHlo.seq ops := by
  simp only [main, main_part0, main_part1, main_part2, fn_take.body, fn_where.body, fn_relu.body, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

/-- A property of every element of two lists is one of every element of their concatenation. -/
theorem forall_append {α : Type} {p : α → Prop} {l₁ l₂ : List α} (h₁ : l₁.Forall p) (h₂ : l₂.Forall p) :
    (l₁ ++ l₂).Forall p :=
  List.forall_iff_forall_mem.mpr fun x hx =>
    (List.mem_append.mp hx).elim (List.forall_iff_forall_mem.mp h₁ x) (List.forall_iff_forall_mem.mp h₂ x)

theorem opsA_sub : (opsA : List (HloOp τ sig (Elt F))).Forall fun op => op.bufs ⊆ StableHlo.tcRefs τ sig :=
  ⟨StableHlo.unary_bufs_sub .., StableHlo.binary_bufs_sub .., StableHlo.unary_bufs_sub ..,
    StableHlo.binary_bufs_sub .., StableHlo.binary_bufs_sub .., StableHlo.nullary_bufs_sub ..,
    StableHlo.unary_bufs_sub .., StableHlo.binary_bufs_sub .., StableHlo.unary_bufs_sub ..,
    StableHlo.binary_bufs_sub ..⟩
theorem opsB1_sub : (opsB1 : List (HloOp τ sig (Elt F))).Forall fun op => op.bufs ⊆ StableHlo.tcRefs τ sig :=
  ⟨StableHlo.unary_bufs_sub .., StableHlo.reshape_bufs_sub .., StableHlo.unary_bufs_sub ..,
    StableHlo.reshape_bufs_sub .., StableHlo.nullary_bufs_sub .., StableHlo.unary_bufs_sub ..,
    StableHlo.binary_bufs_sub .., StableHlo.nullary_bufs_sub .., StableHlo.unary_bufs_sub ..,
    StableHlo.binary_bufs_sub .., StableHlo.ternary_bufs_sub .., StableHlo.unary_bufs_sub ..,
    StableHlo.nullary_bufs_sub .., StableHlo.nullary_bufs_sub .., StableHlo.unary_bufs_sub ..,
    StableHlo.binary_bufs_sub .., StableHlo.unary_bufs_sub .., StableHlo.unary_bufs_sub ..,
    StableHlo.binary_bufs_sub .., StableHlo.binary_bufs_sub .., StableHlo.nullary_bufs_sub ..,
    StableHlo.binary_bufs_sub .., StableHlo.binary_bufs_sub .., StableHlo.unary_bufs_sub ..,
    StableHlo.nullary_bufs_sub .., StableHlo.unary_bufs_sub .., StableHlo.ternary_bufs_sub ..,
    StableHlo.nullary_bufs_sub .., StableHlo.unary_bufs_sub .., StableHlo.unary_bufs_sub ..,
    StableHlo.ternary_bufs_sub .., StableHlo.nullary_bufs_sub .., StableHlo.unary_bufs_sub ..,
    StableHlo.nullary_bufs_sub .., StableHlo.unary_bufs_sub .., StableHlo.unary_bufs_sub ..,
    StableHlo.ternary_bufs_sub .., StableHlo.nullary_bufs_sub .., StableHlo.unary_bufs_sub ..,
    StableHlo.binary_bufs_sub .., StableHlo.unary_bufs_sub .., StableHlo.binary_bufs_sub ..⟩
theorem opsB2_sub : (opsB2 : List (HloOp τ sig (Elt F))).Forall fun op => op.bufs ⊆ StableHlo.tcRefs τ sig :=
  ⟨StableHlo.unary_bufs_sub .., StableHlo.reshape_bufs_sub .., StableHlo.unary_bufs_sub ..,
    StableHlo.reshape_bufs_sub .., StableHlo.nullary_bufs_sub .., StableHlo.unary_bufs_sub ..,
    StableHlo.binary_bufs_sub .., StableHlo.nullary_bufs_sub .., StableHlo.unary_bufs_sub ..,
    StableHlo.binary_bufs_sub .., StableHlo.ternary_bufs_sub .., StableHlo.unary_bufs_sub ..,
    StableHlo.nullary_bufs_sub .., StableHlo.nullary_bufs_sub .., StableHlo.unary_bufs_sub ..,
    StableHlo.binary_bufs_sub .., StableHlo.unary_bufs_sub .., StableHlo.unary_bufs_sub ..,
    StableHlo.binary_bufs_sub .., StableHlo.binary_bufs_sub .., StableHlo.nullary_bufs_sub ..,
    StableHlo.binary_bufs_sub .., StableHlo.binary_bufs_sub .., StableHlo.unary_bufs_sub ..,
    StableHlo.nullary_bufs_sub .., StableHlo.unary_bufs_sub .., StableHlo.ternary_bufs_sub ..,
    StableHlo.nullary_bufs_sub .., StableHlo.unary_bufs_sub .., StableHlo.unary_bufs_sub ..,
    StableHlo.ternary_bufs_sub .., StableHlo.nullary_bufs_sub .., StableHlo.unary_bufs_sub ..,
    StableHlo.nullary_bufs_sub .., StableHlo.unary_bufs_sub .., StableHlo.unary_bufs_sub ..,
    StableHlo.ternary_bufs_sub .., StableHlo.nullary_bufs_sub .., StableHlo.unary_bufs_sub ..,
    StableHlo.binary_bufs_sub .., StableHlo.unary_bufs_sub .., StableHlo.binary_bufs_sub ..⟩
theorem opsC_sub : (opsC : List (HloOp τ sig (Elt F))).Forall fun op => op.bufs ⊆ StableHlo.tcRefs τ sig :=
  ⟨StableHlo.binary_bufs_sub .., StableHlo.nullary_bufs_sub .., StableHlo.unary_bufs_sub ..,
    StableHlo.binary_bufs_sub ..⟩
theorem opsB3a_sub : (opsB3a : List (HloOp τ sig (Elt F))).Forall fun op => op.bufs ⊆ StableHlo.tcRefs τ sig :=
  ⟨StableHlo.unary_bufs_sub .., StableHlo.reshape_bufs_sub .., StableHlo.unary_bufs_sub ..,
    StableHlo.reshape_bufs_sub .., StableHlo.nullary_bufs_sub .., StableHlo.unary_bufs_sub ..,
    StableHlo.binary_bufs_sub .., StableHlo.nullary_bufs_sub .., StableHlo.unary_bufs_sub ..,
    StableHlo.binary_bufs_sub .., StableHlo.ternary_bufs_sub .., StableHlo.unary_bufs_sub ..,
    StableHlo.nullary_bufs_sub .., StableHlo.nullary_bufs_sub .., StableHlo.unary_bufs_sub ..,
    StableHlo.binary_bufs_sub .., StableHlo.unary_bufs_sub .., StableHlo.unary_bufs_sub ..,
    StableHlo.binary_bufs_sub .., StableHlo.binary_bufs_sub .., StableHlo.nullary_bufs_sub ..,
    StableHlo.binary_bufs_sub .., StableHlo.binary_bufs_sub .., StableHlo.unary_bufs_sub ..,
    StableHlo.nullary_bufs_sub .., StableHlo.unary_bufs_sub .., StableHlo.ternary_bufs_sub ..,
    StableHlo.nullary_bufs_sub ..⟩
theorem opsB3b_sub : (opsB3b : List (HloOp τ sig (Elt F))).Forall fun op => op.bufs ⊆ StableHlo.tcRefs τ sig :=
  ⟨StableHlo.unary_bufs_sub .., StableHlo.unary_bufs_sub .., StableHlo.ternary_bufs_sub ..,
    StableHlo.nullary_bufs_sub .., StableHlo.unary_bufs_sub .., StableHlo.nullary_bufs_sub ..,
    StableHlo.unary_bufs_sub .., StableHlo.unary_bufs_sub .., StableHlo.ternary_bufs_sub ..,
    StableHlo.nullary_bufs_sub .., StableHlo.unary_bufs_sub .., StableHlo.binary_bufs_sub ..,
    StableHlo.unary_bufs_sub .., StableHlo.binary_bufs_sub ..⟩
theorem opsD1_sub : (opsD1 : List (HloOp τ sig (Elt F))).Forall fun op => op.bufs ⊆ StableHlo.tcRefs τ sig :=
  ⟨StableHlo.nullary_bufs_sub .., StableHlo.unary_bufs_sub .., StableHlo.binary_bufs_sub ..,
    StableHlo.nullary_bufs_sub .., StableHlo.binary_bufs_sub .., StableHlo.unary_bufs_sub ..,
    StableHlo.nullary_bufs_sub .., StableHlo.unary_bufs_sub .., StableHlo.binary_bufs_sub ..,
    StableHlo.unary_bufs_sub .., StableHlo.binary_bufs_sub .., StableHlo.binary_bufs_sub ..,
    StableHlo.nullary_bufs_sub .., StableHlo.binary_bufs_sub .., StableHlo.unary_bufs_sub ..,
    StableHlo.nullary_bufs_sub .., StableHlo.unary_bufs_sub .., StableHlo.binary_bufs_sub ..,
    StableHlo.unary_bufs_sub .., StableHlo.binary_bufs_sub .., StableHlo.nullary_bufs_sub ..,
    StableHlo.unary_bufs_sub .., StableHlo.binary_bufs_sub .., StableHlo.unary_bufs_sub ..,
    StableHlo.unary_bufs_sub .., StableHlo.binary_bufs_sub .., StableHlo.unary_bufs_sub ..,
    StableHlo.unary_bufs_sub .., StableHlo.binary_bufs_sub .., StableHlo.unary_bufs_sub ..,
    StableHlo.unary_bufs_sub .., StableHlo.binary_bufs_sub ..⟩
theorem opsD2a_sub : (opsD2a : List (HloOp τ sig (Elt F))).Forall fun op => op.bufs ⊆ StableHlo.tcRefs τ sig :=
  ⟨StableHlo.nullary_bufs_sub .., StableHlo.unary_bufs_sub .., StableHlo.binary_bufs_sub ..,
    StableHlo.nullary_bufs_sub .., StableHlo.binary_bufs_sub .., StableHlo.unary_bufs_sub ..,
    StableHlo.nullary_bufs_sub .., StableHlo.unary_bufs_sub .., StableHlo.binary_bufs_sub ..,
    StableHlo.unary_bufs_sub .., StableHlo.binary_bufs_sub .., StableHlo.binary_bufs_sub ..,
    StableHlo.nullary_bufs_sub .., StableHlo.binary_bufs_sub .., StableHlo.unary_bufs_sub ..,
    StableHlo.nullary_bufs_sub .., StableHlo.unary_bufs_sub .., StableHlo.binary_bufs_sub ..⟩
theorem opsD2b_sub : (opsD2b : List (HloOp τ sig (Elt F))).Forall fun op => op.bufs ⊆ StableHlo.tcRefs τ sig :=
  ⟨StableHlo.unary_bufs_sub .., StableHlo.binary_bufs_sub .., StableHlo.nullary_bufs_sub ..,
    StableHlo.unary_bufs_sub .., StableHlo.binary_bufs_sub .., StableHlo.unary_bufs_sub ..,
    StableHlo.unary_bufs_sub .., StableHlo.binary_bufs_sub .., StableHlo.unary_bufs_sub ..,
    StableHlo.unary_bufs_sub .., StableHlo.binary_bufs_sub .., StableHlo.unary_bufs_sub ..,
    StableHlo.unary_bufs_sub .., StableHlo.binary_bufs_sub ..⟩

/-- Every operation reads and writes TensorCore buffers only. -/
theorem ops_sub : (ops : List (HloOp τ sig (Elt F))).Forall fun op => op.bufs ⊆ StableHlo.tcRefs τ sig :=
  forall_append opsA_sub (forall_append opsB1_sub (forall_append opsB2_sub (forall_append opsC_sub (forall_append opsB3a_sub
    (forall_append opsB3b_sub (forall_append opsD1_sub (forall_append opsD2a_sub opsD2b_sub)))))))

theorem opsA_fresh : (opsA : List (HloOp τ sig (Elt F))).Forall fun op => op.fresh = ∅ := by
  simp only [List.Forall]; repeat' constructor
theorem opsB1_fresh : (opsB1 : List (HloOp τ sig (Elt F))).Forall fun op => op.fresh = ∅ := by
  simp only [List.Forall]; repeat' constructor
theorem opsB2_fresh : (opsB2 : List (HloOp τ sig (Elt F))).Forall fun op => op.fresh = ∅ := by
  simp only [List.Forall]; repeat' constructor
theorem opsC_fresh : (opsC : List (HloOp τ sig (Elt F))).Forall fun op => op.fresh = ∅ := by
  simp only [List.Forall]; repeat' constructor
theorem opsB3a_fresh : (opsB3a : List (HloOp τ sig (Elt F))).Forall fun op => op.fresh = ∅ := by
  simp only [List.Forall]; repeat' constructor
theorem opsB3b_fresh : (opsB3b : List (HloOp τ sig (Elt F))).Forall fun op => op.fresh = ∅ := by
  simp only [List.Forall]; repeat' constructor
theorem opsD1_fresh : (opsD1 : List (HloOp τ sig (Elt F))).Forall fun op => op.fresh = ∅ := by
  simp only [List.Forall]; repeat' constructor
theorem opsD2a_fresh : (opsD2a : List (HloOp τ sig (Elt F))).Forall fun op => op.fresh = ∅ := by
  simp only [List.Forall]; repeat' constructor
theorem opsD2b_fresh : (opsD2b : List (HloOp τ sig (Elt F))).Forall fun op => op.fresh = ∅ := by
  simp only [List.Forall]; repeat' constructor

/-- Every operation determines its results. -/
theorem ops_fresh : (ops : List (HloOp τ sig (Elt F))).Forall fun op => op.fresh = ∅ :=
  forall_append opsA_fresh (forall_append opsB1_fresh (forall_append opsB2_fresh (forall_append opsC_fresh (forall_append opsB3a_fresh
    (forall_append opsB3b_fresh (forall_append opsD1_fresh (forall_append opsD2a_fresh opsD2b_fresh)))))))

/-- At the compiled mesh, for any float values, from any memory with zero counters: every weakly fair execution of
    @main on the TensorCore terminates, and every final state has each buffer at the operations' fold over the
    launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b)
        = StableHlo.after ops (StableHlo.launchContents m c) (Proc.devRef .tc b) :=
  StableHlo.run_seq scopedRefs_eq scopedSems_eq defs main (fun _ => ops) main_eq (fun _ => ops_sub) m ρ
    (fun _ => List.forall_iff_forall_mem.mp ops_fresh)

/-! ## The values, stage by stage

Each stage's result as a function of the contents it reads: the operations' functions composed in the program's
order, nothing simplified. -/

/-- `%6`: the user table through the two transposed weight matrices, the products summed and halved. -/
def tUser (a0 : (⟨S50000x128, .f32⟩ : BufTy).Contents (Elt F)) (w5 w6 : (⟨S128x128, .f32⟩ : BufTy).Contents (Elt F)) : (⟨S50000x128, .f32⟩ : BufTy).Contents (Elt F) :=
  Host.divf
    (addf (Host.dotGeneral dot_S50000x128_S128x128_S50000x128_1_0_0_1_n_n none a0 (transpose S128x128 [1, 0] w5 transposes_S128x128_S128x128_1_0))
      (Host.dotGeneral dot_S50000x128_S128x128_S50000x128_1_0_0_1_n_n none a0 (transpose S128x128 [1, 0] w6 transposes_S128x128_S128x128_1_0)))
    (broadcastInDim S50000x128 ![] bcast_S_S50000x128 (constant S_ .f32 0x40000000#32))

/-- `%8`: the item table through the transposed third weight matrix. -/
def tItem (a1 : (⟨S50000x128, .f32⟩ : BufTy).Contents (Elt F)) (w7 : (⟨S128x128, .f32⟩ : BufTy).Contents (Elt F)) : (⟨S50000x128, .f32⟩ : BufTy).Contents (Elt F) :=
  Host.dotGeneral dot_S50000x128_S128x128_S50000x128_1_0_0_1_n_n none a1 (transpose S128x128 [1, 0] w7 transposes_S128x128_S128x128_1_0)

/-- The first row of an edge list, as a vector: the sources. -/
def edgeSrc (e : (⟨S2x200000, .i32⟩ : BufTy).Contents (Elt F)) : (⟨S200000, .i32⟩ : BufTy).Contents (Elt F) :=
  shapeCast S200000 (extractStridedSlice S1x200000 ![0, 0] e slices_S2x200000_S1x200000_0_0) shapeCasts_S1x200000_S200000

/-- The second row of an edge list, as a vector: the destinations. -/
def edgeDst (e : (⟨S2x200000, .i32⟩ : BufTy).Contents (Elt F)) : (⟨S200000, .i32⟩ : BufTy).Contents (Elt F) :=
  shapeCast S200000 (extractStridedSlice S1x200000 ![1, 0] e slices_S2x200000_S1x200000_1_0) shapeCasts_S1x200000_S200000

/-- `_take`'s index column: a negative index moved up by the table's 50000 rows (`_where`), as a column. -/
def takeIdx (idx : (⟨S200000, .i32⟩ : BufTy).Contents (Elt F)) : (⟨S200000x1, .i32⟩ : BufTy).Contents (Elt F) :=
  broadcastInDim S200000x1 ![0] bcast_S200000_S200000x1_0
    (select (cmpi .slt idx (broadcastInDim S200000 ![] bcast_S_S200000 (constantI S_ 32 0#32)))
      (addi idx (broadcastInDim S200000 ![] bcast_S_S200000 (constantI S_ 32 50000#32)))
      idx)

/-- `_take`'s mask: the moved index within `0 … 49999`, reduced along the column's one entry. -/
def takeOk (idx : (⟨S200000, .i32⟩ : BufTy).Contents (Elt F)) : (⟨S200000, .i1⟩ : BufTy).Contents (Elt F) :=
  Host.reduce IntOp.andi
    (andi (cmpi .sge (takeIdx idx) (broadcastInDim S200000x1 ![] bcast_S_S200000x1 (constantI S_ 32 0#32)))
      (cmpi .sle (takeIdx idx)
        (broadcastInDim S200000x1 ![0, 1] bcast_S1x1_S200000x1_0_1
          (broadcastInDim S1x1 ![1] bcast_S1_S1x1_1 (constantI S1 32 49999#32)))))
    (constantI S_ 1 1#1) reducesTo_S200000x1_S200000_d1 h_S_

/-- `_take`: the table's rows gathered at the index column, a row whose index is out of range replaced by NaNs. -/
def take (t : (⟨S50000x128, .f32⟩ : BufTy).Contents (Elt F)) (idx : (⟨S200000, .i32⟩ : BufTy).Contents (Elt F)) : (⟨S200000x128, .f32⟩ : BufTy).Contents (Elt F) :=
  select (broadcastInDim S200000x128 ![0] bcast_S200000_S200000x128_0 (takeOk idx))
    (Host.gather gather_S50000x128_S200000x1_S200000x128_1_0_n_n_0_1_1128 t (takeIdx idx))
    (broadcastInDim S200000x128 ![] bcast_S_S200000x128 (constant S_ .f32 0x7FC00000#32))

/-- The rows taken at the edges' sources, summed into zeros at the edges' destinations. -/
def segSum (t : (⟨S50000x128, .f32⟩ : BufTy).Contents (Elt F)) (e : (⟨S2x200000, .i32⟩ : BufTy).Contents (Elt F)) : (⟨S50000x128, .f32⟩ : BufTy).Contents (Elt F) :=
  Host.scatterAdd scatter_S50000x128_S200000x1_S200000x128_1_0_0_1
    (broadcastInDim S50000x128 ![] bcast_S_S50000x128 (constant S_ .f32 0x00000000#32))
    (broadcastInDim S200000x1 ![0] bcast_S200000_S200000x1_0 (edgeDst e))
    (take t (edgeSrc e))

/-- Ones summed into zeros at the edges' destinations: each row's number of incoming edges. -/
def segCount (e : (⟨S2x200000, .i32⟩ : BufTy).Contents (Elt F)) : (⟨S50000x1, .f32⟩ : BufTy).Contents (Elt F) :=
  Host.scatterAdd scatter_S50000x1_S200000x1_S200000x1_1_0_0_1
    (broadcastInDim S50000x1 ![] bcast_S_S50000x1 (constant S_ .f32 0x00000000#32))
    (broadcastInDim S200000x1 ![0] bcast_S200000_S200000x1_0 (edgeDst e))
    (broadcastInDim S200000x1 ![] bcast_S_S200000x1 (constant S_ .f32 0x3F800000#32))

/-- A neighbourhood mean (`%24`, `%40`, `%59`): the sums over the counts, a count below one read as one. -/
def segMean (t : (⟨S50000x128, .f32⟩ : BufTy).Contents (Elt F)) (e : (⟨S2x200000, .i32⟩ : BufTy).Contents (Elt F)) : (⟨S50000x128, .f32⟩ : BufTy).Contents (Elt F) :=
  Host.divf (segSum t e)
    (broadcastInDim S50000x128 ![0, 1] bcast_S50000x1_S50000x128_0_1
      (maximumf (segCount e) (broadcastInDim S50000x1 ![] bcast_S_S50000x1 (constant S_ .f32 0x3F800000#32))))

/-- `%43` of `%24` and `%40`: the sum halved. -/
def halfSum (x y : (⟨S50000x128, .f32⟩ : BufTy).Contents (Elt F)) : (⟨S50000x128, .f32⟩ : BufTy).Contents (Elt F) :=
  Host.divf (addf x y) (broadcastInDim S50000x128 ![] bcast_S_S50000x128 (constant S_ .f32 0x40000000#32))

/-- `%43` of the arguments: the half sum of the users' mean over the first edge list and the items' mean over the third. -/
def hUser (a0 a1 : (⟨S50000x128, .f32⟩ : BufTy).Contents (Elt F)) (e2 e4 : (⟨S2x200000, .i32⟩ : BufTy).Contents (Elt F)) (w5 w6 w7 : (⟨S128x128, .f32⟩ : BufTy).Contents (Elt F)) : (⟨S50000x128, .f32⟩ : BufTy).Contents (Elt F) :=
  halfSum (segMean (tUser a0 w5 w6) e2) (segMean (tItem a1 w7) e4)

/-- `relu`: the maximum with zero. -/
def relu (x : (⟨S50000x128, .f32⟩ : BufTy).Contents (Elt F)) : (⟨S50000x128, .f32⟩ : BufTy).Contents (Elt F) :=
  maximumf x (broadcastInDim S50000x128 ![] bcast_S_S50000x128 (constant S_ .f32 0x00000000#32))

/-- A row's sum from zero over its 128 entries, divided by 128, as a column. -/
def rowMean (r : (⟨S50000x128, .f32⟩ : BufTy).Contents (Elt F)) : (⟨S50000x1, .f32⟩ : BufTy).Contents (Elt F) :=
  Host.divf
    (broadcastInDim S50000x1 ![0] bcast_S50000_S50000x1_0
      (Host.reduceAdd r (constant S_ .f32 0x00000000#32) reducesTo_S50000x128_S50000_d1 h_S_))
    (broadcastInDim S50000x1 ![] bcast_S_S50000x1 (constant S_ .f32 0x43000000#32))

/-- The rows less their means. -/
def centered (r : (⟨S50000x128, .f32⟩ : BufTy).Contents (Elt F)) : (⟨S50000x128, .f32⟩ : BufTy).Contents (Elt F) :=
  subf r (broadcastInDim S50000x128 ![0, 1] bcast_S50000x1_S50000x128_0_1 (rowMean r))

/-- The row mean of the centred rows' squares. -/
def rowVar (r : (⟨S50000x128, .f32⟩ : BufTy).Contents (Elt F)) : (⟨S50000x1, .f32⟩ : BufTy).Contents (Elt F) :=
  rowMean (mulf (centered r) (centered r))

/-- The normalization after `relu`: the centred rows over the root of variance plus epsilon, scaled by `g`, shifted by `b`. -/
def lnormR (r : (⟨S50000x128, .f32⟩ : BufTy).Contents (Elt F)) (g b : (⟨S128, .f32⟩ : BufTy).Contents (Elt F)) : (⟨S50000x128, .f32⟩ : BufTy).Contents (Elt F) :=
  addf
    (mulf
      (Host.divf (centered r)
        (broadcastInDim S50000x128 ![0, 1] bcast_S50000x1_S50000x128_0_1
          (Host.sqrt (addf (rowVar r) (broadcastInDim S50000x1 ![] bcast_S_S50000x1 (constant S_ .f32 0x3727C5AC#32))))))
      (broadcastInDim S50000x128 ![0, 1] bcast_S1x128_S50000x128_0_1 (broadcastInDim S1x128 ![1] bcast_S128_S1x128_1 g)))
    (broadcastInDim S50000x128 ![0, 1] bcast_S1x128_S50000x128_0_1 (broadcastInDim S1x128 ![1] bcast_S128_S1x128_1 b))

/-- `%84` of `%43`, `%109` of `%59`: `relu`, then the normalization. -/
def lnorm (x : (⟨S50000x128, .f32⟩ : BufTy).Contents (Elt F)) (g b : (⟨S128, .f32⟩ : BufTy).Contents (Elt F)) : (⟨S50000x128, .f32⟩ : BufTy).Contents (Elt F) :=
  lnormR (relu x) g b

/-! ## The fold, stage by stage -/

/-- The fold over a concatenation is the folds in turn. -/
theorem after_append (l₁ l₂ : List (HloOp τ sig (Elt F))) (V : Valuation τ sig (Elt F)) :
    StableHlo.after (l₁ ++ l₂) V = StableHlo.after l₂ (StableHlo.after l₁ V) := by
  induction l₁ generalizing V with
  | nil => rfl
  | cons op l ih => simp only [List.cons_append, StableHlo.after_cons, ih]

/-- The buffers `opsA` writes. -/
abbrev WA : List (Ref sig .tc) :=
  [main_v0, main_v1, main_v2, main_v3, main_v4, main_cst, main_v5, main_v6, main_v7, main_v8]
theorem opsA_writes : (opsA : List (HloOp τ sig (Elt F))).Forall fun op =>
    op.writes ⊆ (WA.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  and_intros <;> exact List.mem_map_of_mem (by decide)
/-- A buffer `opsA` does not write keeps its contents. -/
theorem frameA (V : Valuation τ sig (Elt F)) (r : Ref sig .tc) (h : r ∉ WA) :
    StableHlo.after opsA V (Proc.devRef .tc r) = V (Proc.devRef .tc r) :=
  StableHlo.after_of_writes_sub opsA V opsA_writes h

/-- The buffers `opsB1` writes. -/
abbrev WB1 : List (Ref sig .tc) :=
  [main_v9, main_v10, main_v11, main_v12, main_call0.c.ref, main_call0.v0.ref, main_call0.v1.ref, main_call0.c_0.ref,
    main_call0.v2.ref, main_call0.v3.ref, main_call0.call0.v0.ref, main_call0.v5.ref, main_call0.c_1.ref,
    main_call0.c_2.ref, main_call0.v6.ref, main_call0.v7.ref, main_call0.v8.ref, main_call0.v9.ref,
    main_call0.v10.ref, main_call0.v11.ref, main_call0.c_3.ref, main_call0.v12.ref, main_call0.v13.ref,
    main_call0.v14.ref, main_call0.cst.ref, main_call0.v15.ref, main_call0.v16.ref, main_cst_0, main_v14, main_v15,
    main_v16, main_cst_1, main_v17, main_cst_2, main_v18, main_v19, main_v20, main_cst_3, main_v21, main_v22,
    main_v23, main_v24]
theorem opsB1_writes : (opsB1 : List (HloOp τ sig (Elt F))).Forall fun op =>
    op.writes ⊆ (WB1.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  and_intros <;> exact List.mem_map_of_mem (by decide)
/-- A buffer `opsB1` does not write keeps its contents. -/
theorem frameB1 (V : Valuation τ sig (Elt F)) (r : Ref sig .tc) (h : r ∉ WB1) :
    StableHlo.after opsB1 V (Proc.devRef .tc r) = V (Proc.devRef .tc r) :=
  StableHlo.after_of_writes_sub opsB1 V opsB1_writes h

/-- The buffers `opsB2` writes. -/
abbrev WB2 : List (Ref sig .tc) :=
  [main_v25, main_v26, main_v27, main_v28, main_call1.c.ref, main_call1.v0.ref, main_call1.v1.ref,
    main_call1.c_0.ref, main_call1.v2.ref, main_call1.v3.ref, main_call1.call0.v0.ref, main_call1.v5.ref,
    main_call1.c_1.ref, main_call1.c_2.ref, main_call1.v6.ref, main_call1.v7.ref, main_call1.v8.ref,
    main_call1.v9.ref, main_call1.v10.ref, main_call1.v11.ref, main_call1.c_3.ref, main_call1.v12.ref,
    main_call1.v13.ref, main_call1.v14.ref, main_call1.cst.ref, main_call1.v15.ref, main_call1.v16.ref, main_cst_4,
    main_v30, main_v31, main_v32, main_cst_5, main_v33, main_cst_6, main_v34, main_v35, main_v36, main_cst_7,
    main_v37, main_v38, main_v39, main_v40]
theorem opsB2_writes : (opsB2 : List (HloOp τ sig (Elt F))).Forall fun op =>
    op.writes ⊆ (WB2.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  and_intros <;> exact List.mem_map_of_mem (by decide)
/-- A buffer `opsB2` does not write keeps its contents. -/
theorem frameB2 (V : Valuation τ sig (Elt F)) (r : Ref sig .tc) (h : r ∉ WB2) :
    StableHlo.after opsB2 V (Proc.devRef .tc r) = V (Proc.devRef .tc r) :=
  StableHlo.after_of_writes_sub opsB2 V opsB2_writes h

/-- The buffers `opsC` writes. -/
abbrev WC : List (Ref sig .tc) :=
  [main_v41, main_cst_8, main_v42, main_v43]
theorem opsC_writes : (opsC : List (HloOp τ sig (Elt F))).Forall fun op =>
    op.writes ⊆ (WC.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  and_intros <;> exact List.mem_map_of_mem (by decide)
/-- A buffer `opsC` does not write keeps its contents. -/
theorem frameC (V : Valuation τ sig (Elt F)) (r : Ref sig .tc) (h : r ∉ WC) :
    StableHlo.after opsC V (Proc.devRef .tc r) = V (Proc.devRef .tc r) :=
  StableHlo.after_of_writes_sub opsC V opsC_writes h

/-- The buffers `opsB3a` writes. -/
abbrev WB3a : List (Ref sig .tc) :=
  [main_v44, main_v45, main_v46, main_v47, main_call2.c.ref, main_call2.v0.ref, main_call2.v1.ref,
    main_call2.c_0.ref, main_call2.v2.ref, main_call2.v3.ref, main_call2.call0.v0.ref, main_call2.v5.ref,
    main_call2.c_1.ref, main_call2.c_2.ref, main_call2.v6.ref, main_call2.v7.ref, main_call2.v8.ref,
    main_call2.v9.ref, main_call2.v10.ref, main_call2.v11.ref, main_call2.c_3.ref, main_call2.v12.ref,
    main_call2.v13.ref, main_call2.v14.ref, main_call2.cst.ref, main_call2.v15.ref, main_call2.v16.ref, main_cst_9]
theorem opsB3a_writes : (opsB3a : List (HloOp τ sig (Elt F))).Forall fun op =>
    op.writes ⊆ (WB3a.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  and_intros <;> exact List.mem_map_of_mem (by decide)
/-- A buffer `opsB3a` does not write keeps its contents. -/
theorem frameB3a (V : Valuation τ sig (Elt F)) (r : Ref sig .tc) (h : r ∉ WB3a) :
    StableHlo.after opsB3a V (Proc.devRef .tc r) = V (Proc.devRef .tc r) :=
  StableHlo.after_of_writes_sub opsB3a V opsB3a_writes h

/-- The buffers `opsB3b` writes. -/
abbrev WB3b : List (Ref sig .tc) :=
  [main_v49, main_v50, main_v51, main_cst_10, main_v52, main_cst_11, main_v53, main_v54, main_v55, main_cst_12,
    main_v56, main_v57, main_v58, main_v59]
theorem opsB3b_writes : (opsB3b : List (HloOp τ sig (Elt F))).Forall fun op =>
    op.writes ⊆ (WB3b.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  and_intros <;> exact List.mem_map_of_mem (by decide)
/-- A buffer `opsB3b` does not write keeps its contents. -/
theorem frameB3b (V : Valuation τ sig (Elt F)) (r : Ref sig .tc) (h : r ∉ WB3b) :
    StableHlo.after opsB3b V (Proc.devRef .tc r) = V (Proc.devRef .tc r) :=
  StableHlo.after_of_writes_sub opsB3b V opsB3b_writes h

/-- The buffers `opsD1` writes. -/
abbrev WD1 : List (Ref sig .tc) :=
  [main_call3.cst.ref, main_call3.v0.ref, main_call3.v1.ref, main_cst_13, main_v61, main_v62, main_cst_14, main_v63,
    main_v64, main_v65, main_v66, main_v67, main_cst_15, main_v68, main_v69, main_cst_16, main_v70, main_v71,
    main_v72, main_v73, main_cst_17, main_v74, main_v75, main_v76, main_v77, main_v78, main_v79, main_v80, main_v81,
    main_v82, main_v83, main_v84]
theorem opsD1_writes : (opsD1 : List (HloOp τ sig (Elt F))).Forall fun op =>
    op.writes ⊆ (WD1.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  and_intros <;> exact List.mem_map_of_mem (by decide)
/-- A buffer `opsD1` does not write keeps its contents. -/
theorem frameD1 (V : Valuation τ sig (Elt F)) (r : Ref sig .tc) (h : r ∉ WD1) :
    StableHlo.after opsD1 V (Proc.devRef .tc r) = V (Proc.devRef .tc r) :=
  StableHlo.after_of_writes_sub opsD1 V opsD1_writes h

/-- The buffers `opsD2a` writes. -/
abbrev WD2a : List (Ref sig .tc) :=
  [main_call4.cst.ref, main_call4.v0.ref, main_call4.v1.ref, main_cst_18, main_v86, main_v87, main_cst_19, main_v88,
    main_v89, main_v90, main_v91, main_v92, main_cst_20, main_v93, main_v94, main_cst_21, main_v95, main_v96]
theorem opsD2a_writes : (opsD2a : List (HloOp τ sig (Elt F))).Forall fun op =>
    op.writes ⊆ (WD2a.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  and_intros <;> exact List.mem_map_of_mem (by decide)
/-- A buffer `opsD2a` does not write keeps its contents. -/
theorem frameD2a (V : Valuation τ sig (Elt F)) (r : Ref sig .tc) (h : r ∉ WD2a) :
    StableHlo.after opsD2a V (Proc.devRef .tc r) = V (Proc.devRef .tc r) :=
  StableHlo.after_of_writes_sub opsD2a V opsD2a_writes h

/-- The buffers `opsD2b` writes. -/
abbrev WD2b : List (Ref sig .tc) :=
  [main_v97, main_v98, main_cst_22, main_v99, main_v100, main_v101, main_v102, main_v103, main_v104, main_v105,
    main_v106, main_v107, main_v108, main_v109]
theorem opsD2b_writes : (opsD2b : List (HloOp τ sig (Elt F))).Forall fun op =>
    op.writes ⊆ (WD2b.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  and_intros <;> exact List.mem_map_of_mem (by decide)
/-- A buffer `opsD2b` does not write keeps its contents. -/
theorem frameD2b (V : Valuation τ sig (Elt F)) (r : Ref sig .tc) (h : r ∉ WD2b) :
    StableHlo.after opsD2b V (Proc.devRef .tc r) = V (Proc.devRef .tc r) :=
  StableHlo.after_of_writes_sub opsD2b V opsD2b_writes h

attribute [local irreducible] Host.gather Host.scatterAdd Host.reduce Host.reduceAdd

/-! Each stage's result buffer, from any contents, by one pass over the stage's operations: each operation's result at
its own buffer is its function of the operands' contents, at any other buffer what was there; what is left is the
stage's function, by unfolding. -/

set_option maxRecDepth 8192 in
theorem A_v6 (V : Valuation τ sig (Elt F)) : StableHlo.after opsA V (Proc.devRef .tc main_v6)
    = tUser (V (Proc.devRef .tc main_arg0)) (V (Proc.devRef .tc main_arg5)) (V (Proc.devRef .tc main_arg6)) := by
  after_results_simp
  rfl

set_option maxRecDepth 8192 in
theorem A_v8 (V : Valuation τ sig (Elt F)) : StableHlo.after opsA V (Proc.devRef .tc main_v8)
    = tItem (V (Proc.devRef .tc main_arg1)) (V (Proc.devRef .tc main_arg7)) := by
  after_results_simp
  rfl

set_option maxRecDepth 8192 in
set_option maxHeartbeats 1000000 in
theorem B1_v24 (V : Valuation τ sig (Elt F)) : StableHlo.after opsB1 V (Proc.devRef .tc main_v24)
    = segMean (V (Proc.devRef .tc main_v6)) (V (Proc.devRef .tc main_arg2)) := by
  after_results_simp
  rfl

set_option maxRecDepth 8192 in
set_option maxHeartbeats 1000000 in
theorem B2_v40 (V : Valuation τ sig (Elt F)) : StableHlo.after opsB2 V (Proc.devRef .tc main_v40)
    = segMean (V (Proc.devRef .tc main_v8)) (V (Proc.devRef .tc main_arg4)) := by
  after_results_simp
  rfl

set_option maxRecDepth 8192 in
theorem C_v43 (V : Valuation τ sig (Elt F)) : StableHlo.after opsC V (Proc.devRef .tc main_v43)
    = halfSum (V (Proc.devRef .tc main_v24)) (V (Proc.devRef .tc main_v40)) := by
  after_results_simp
  rfl

set_option maxRecDepth 8192 in
set_option maxHeartbeats 1000000 in
theorem B3_v59 (V : Valuation τ sig (Elt F)) : StableHlo.after opsB3b (StableHlo.after opsB3a V) (Proc.devRef .tc main_v59)
    = segMean (V (Proc.devRef .tc main_v6)) (V (Proc.devRef .tc main_arg3)) := by
  after_results_simp
  rfl

set_option maxRecDepth 8192 in
set_option maxHeartbeats 1000000 in
theorem D1_v84 (V : Valuation τ sig (Elt F)) : StableHlo.after opsD1 V (Proc.devRef .tc main_v84)
    = lnorm (V (Proc.devRef .tc main_v43)) (V (Proc.devRef .tc main_arg8)) (V (Proc.devRef .tc main_arg9)) := by
  after_results_simp
  rfl

set_option maxRecDepth 8192 in
set_option maxHeartbeats 1000000 in
theorem D2_v109 (V : Valuation τ sig (Elt F)) : StableHlo.after opsD2b (StableHlo.after opsD2a V) (Proc.devRef .tc main_v109)
    = lnorm (V (Proc.devRef .tc main_v59)) (V (Proc.devRef .tc main_arg8)) (V (Proc.devRef .tc main_arg9)) := by
  after_results_simp
  rfl

/-! ## The results and the arguments after the whole line -/

/-- A buffer no stage writes keeps its contents through the whole line. -/
theorem frame_all (V : Valuation τ sig (Elt F)) (r : Ref sig .tc) (hA : r ∉ WA) (hB1 : r ∉ WB1) (hB2 : r ∉ WB2) (hC : r ∉ WC)
    (hB3a : r ∉ WB3a) (hB3b : r ∉ WB3b) (hD1 : r ∉ WD1) (hD2a : r ∉ WD2a) (hD2b : r ∉ WD2b) :
    StableHlo.after ops V (Proc.devRef .tc r) = V (Proc.devRef .tc r) := by
  simp only [ops, after_append]
  rw [frameD2b _ _ hD2b, frameD2a _ _ hD2a, frameD1 _ _ hD1, frameB3b _ _ hB3b, frameB3a _ _ hB3a, frameC _ _ hC,
    frameB2 _ _ hB2, frameB1 _ _ hB1, frameA _ _ hA]

theorem arg0_eq (V : Valuation τ sig (Elt F)) : StableHlo.after ops V (Proc.devRef .tc main_arg0) = V (Proc.devRef .tc main_arg0) :=
  frame_all V main_arg0 (by decide) (by decide) (by decide) (by decide) (by decide) (by decide) (by decide) (by decide) (by decide)
theorem arg1_eq (V : Valuation τ sig (Elt F)) : StableHlo.after ops V (Proc.devRef .tc main_arg1) = V (Proc.devRef .tc main_arg1) :=
  frame_all V main_arg1 (by decide) (by decide) (by decide) (by decide) (by decide) (by decide) (by decide) (by decide) (by decide)
theorem arg2_eq (V : Valuation τ sig (Elt F)) : StableHlo.after ops V (Proc.devRef .tc main_arg2) = V (Proc.devRef .tc main_arg2) :=
  frame_all V main_arg2 (by decide) (by decide) (by decide) (by decide) (by decide) (by decide) (by decide) (by decide) (by decide)
theorem arg3_eq (V : Valuation τ sig (Elt F)) : StableHlo.after ops V (Proc.devRef .tc main_arg3) = V (Proc.devRef .tc main_arg3) :=
  frame_all V main_arg3 (by decide) (by decide) (by decide) (by decide) (by decide) (by decide) (by decide) (by decide) (by decide)
theorem arg4_eq (V : Valuation τ sig (Elt F)) : StableHlo.after ops V (Proc.devRef .tc main_arg4) = V (Proc.devRef .tc main_arg4) :=
  frame_all V main_arg4 (by decide) (by decide) (by decide) (by decide) (by decide) (by decide) (by decide) (by decide) (by decide)
theorem arg5_eq (V : Valuation τ sig (Elt F)) : StableHlo.after ops V (Proc.devRef .tc main_arg5) = V (Proc.devRef .tc main_arg5) :=
  frame_all V main_arg5 (by decide) (by decide) (by decide) (by decide) (by decide) (by decide) (by decide) (by decide) (by decide)
theorem arg6_eq (V : Valuation τ sig (Elt F)) : StableHlo.after ops V (Proc.devRef .tc main_arg6) = V (Proc.devRef .tc main_arg6) :=
  frame_all V main_arg6 (by decide) (by decide) (by decide) (by decide) (by decide) (by decide) (by decide) (by decide) (by decide)
theorem arg7_eq (V : Valuation τ sig (Elt F)) : StableHlo.after ops V (Proc.devRef .tc main_arg7) = V (Proc.devRef .tc main_arg7) :=
  frame_all V main_arg7 (by decide) (by decide) (by decide) (by decide) (by decide) (by decide) (by decide) (by decide) (by decide)
theorem arg8_eq (V : Valuation τ sig (Elt F)) : StableHlo.after ops V (Proc.devRef .tc main_arg8) = V (Proc.devRef .tc main_arg8) :=
  frame_all V main_arg8 (by decide) (by decide) (by decide) (by decide) (by decide) (by decide) (by decide) (by decide) (by decide)
theorem arg9_eq (V : Valuation τ sig (Elt F)) : StableHlo.after ops V (Proc.devRef .tc main_arg9) = V (Proc.devRef .tc main_arg9) :=
  frame_all V main_arg9 (by decide) (by decide) (by decide) (by decide) (by decide) (by decide) (by decide) (by decide) (by decide)

/-- The first result: the normalization of the half sum of the users' mean over the edge list `%arg2` and the items'
    mean over `%arg4`. -/
theorem out0_eq (V : Valuation τ sig (Elt F)) : StableHlo.after ops V (Proc.devRef .tc main_v84)
    = lnorm (hUser (V (Proc.devRef .tc main_arg0)) (V (Proc.devRef .tc main_arg1)) (V (Proc.devRef .tc main_arg2)) (V (Proc.devRef .tc main_arg4))
        (V (Proc.devRef .tc main_arg5)) (V (Proc.devRef .tc main_arg6)) (V (Proc.devRef .tc main_arg7)))
      (V (Proc.devRef .tc main_arg8)) (V (Proc.devRef .tc main_arg9)) := by
  simp only [ops, after_append]
  -- `%84` is written by the first normalization and by nothing after it
  rw [frameD2b _ main_v84 (by decide), frameD2a _ main_v84 (by decide), D1_v84]
  -- its operands: `%43` from the half sum, the scale and the shift from the launch
  rw [frameB3b _ main_v43 (by decide), frameB3a _ main_v43 (by decide), C_v43]
  rw [frameB2 _ main_v24 (by decide), B1_v24, B2_v40, frameB1 _ main_v8 (by decide), A_v6, A_v8]
  rw [frameA _ main_arg2 (by decide)]
  rw [frameB1 _ main_arg4 (by decide), frameA _ main_arg4 (by decide)]
  rw [frameB3b _ main_arg8 (by decide), frameB3a _ main_arg8 (by decide), frameC _ main_arg8 (by decide), frameB2 _ main_arg8 (by decide), frameB1 _ main_arg8 (by decide), frameA _ main_arg8 (by decide)]
  rw [frameB3b _ main_arg9 (by decide), frameB3a _ main_arg9 (by decide), frameC _ main_arg9 (by decide), frameB2 _ main_arg9 (by decide), frameB1 _ main_arg9 (by decide), frameA _ main_arg9 (by decide)]
  rfl

/-- The second result: the normalization of the users' mean over the edge list `%arg3`. -/
theorem out1_eq (V : Valuation τ sig (Elt F)) : StableHlo.after ops V (Proc.devRef .tc main_v109)
    = lnorm (segMean (tUser (V (Proc.devRef .tc main_arg0)) (V (Proc.devRef .tc main_arg5)) (V (Proc.devRef .tc main_arg6))) (V (Proc.devRef .tc main_arg3)))
      (V (Proc.devRef .tc main_arg8)) (V (Proc.devRef .tc main_arg9)) := by
  simp only [ops, after_append]
  rw [D2_v109]
  -- `%59` from the third mean, through the first normalization
  rw [frameD1 _ main_v59 (by decide), B3_v59]
  rw [frameC _ main_v6 (by decide), frameB2 _ main_v6 (by decide), frameB1 _ main_v6 (by decide), A_v6]
  rw [frameC _ main_arg3 (by decide), frameB2 _ main_arg3 (by decide), frameB1 _ main_arg3 (by decide), frameA _ main_arg3 (by decide)]
  rw [frameD1 _ main_arg8 (by decide), frameB3b _ main_arg8 (by decide), frameB3a _ main_arg8 (by decide), frameC _ main_arg8 (by decide), frameB2 _ main_arg8 (by decide), frameB1 _ main_arg8 (by decide), frameA _ main_arg8 (by decide)]
  rw [frameD1 _ main_arg9 (by decide), frameB3b _ main_arg9 (by decide), frameB3a _ main_arg9 (by decide), frameC _ main_arg9 (by decide), frameB2 _ main_arg9 (by decide), frameB1 _ main_arg9 (by decide), frameA _ main_arg9 (by decide)]

end Cert.ReferenceIdeal.RefRun

end
-- ==== Proof.Finite.lean ====
/-
  What the precondition gives: it is the conjunction, over the seven float arguments, of "every entry's absolute
  value is below plus infinity", so every entry of the user features and of the two user weights is a real number
  (these are the three arrays whose finiteness the algebra uses).
-/
import proofs.«173363_g86715389706548_cont_9to1_m_205_2_alg».proof.Defs
import proofs.«173363_g86715389706548_cont_9to1_m_205_2_alg».proof.Proof.Gen.Pre_finite_inputs
import Idealize.ShloMosaic.Lib.ReduceAll
import Idealize.ShloMosaic.Lib.Affine
import Idealize.ShloMosaic.Lib.ValueIdx
import Idealize.ShloMosaic.PureOps.Ideal.Laws

noncomputable section

namespace Cert.Finite

open Idealize.ShloMosaic Idealize.ShloMosaic.ValueIdx Cert.Pre_finite_inputs

instance : Subsingleton S_.Idx := ⟨fun a b => funext fun d => d.elim0⟩

/-- An extended real whose absolute value compares below the plus-infinity word is a real number. -/
theorem real_of_abs_lt (x : EReal)
    (h : FloatOps.cmpf (F := Ideal) (φ := .f32) .olt (FloatOps.hostAbsf (F := Ideal) (φ := .f32) x) (Ideal.ofBits .f32 0x7F800000#32) = 1#1) :
    ∃ r : ℝ, x = (r : EReal) := by
  have htop : Ideal.ofBits .f32 0x7F800000#32 = ⊤ := by simp [Ideal.ofBits, Ideal.ieee]
  rw [Ideal.hostAbsf_def, Ideal.cmpf_def, Ideal.absf_def, htop] at h
  induction x using EReal.rec with
  | bot => simp [Ideal.cmp] at h
  | top => simp [Ideal.cmp] at h
  | coe r => exact ⟨r, rfl⟩

/-- A conjunction of two one-bit arrays that is one at an index is one in both. -/
theorem vandi_one {s : Shape} (a b : IVec s 1) (i : s.Idx) (h : andi a b i = 1#1) : a i = 1#1 ∧ b i = 1#1 :=
  IntOp.andi_eq_one.1 h

/-- The precondition at the ideal values, opened: every entry of arguments 0, 5 and 6 is real. -/
theorem entries_real (a0 a1 : FVec Ideal S50000x128 .f32) (a2 a3 a4 : IVec S2x200000 32) (a5 a6 a7 : FVec Ideal S128x128 .f32)
    (a8 a9 : FVec Ideal S128 .f32)
    (h : Cert.Pre_finite_inputs.fn (F := Ideal) a0 a1 a2 a3 a4 a5 a6 a7 a8 a9 = fun _ => 1#1) :
    (∀ i, ∃ r : ℝ, a0 i = (r : EReal)) ∧ (∀ i, ∃ r : ℝ, a5 i = (r : EReal)) ∧ (∀ i, ∃ r : ℝ, a6 i = (r : EReal)) := by
  have h0 := congrFun h ix0
  dsimp only [Cert.Pre_finite_inputs.fn, Cert.Pre_finite_inputs.fn_part1] at h0
  obtain ⟨h5, h_9⟩ := vandi_one _ _ _ h0
  obtain ⟨h4, h_8⟩ := vandi_one _ _ _ h5
  obtain ⟨h3, h_7⟩ := vandi_one _ _ _ h4
  obtain ⟨h2, h_6⟩ := vandi_one _ _ _ h3
  obtain ⟨h1, h_5⟩ := vandi_one _ _ _ h2
  obtain ⟨h_0, h_1⟩ := vandi_one _ _ _ h1
  refine ⟨fun i => ?_, fun i => ?_, fun i => ?_⟩
  · exact real_of_abs_lt _ (Host.reduce_andi_all _ _ _ _ _ h_0 i)
  · exact real_of_abs_lt _ (Host.reduce_andi_all _ _ _ _ _ h_5 i)
  · exact real_of_abs_lt _ (Host.reduce_andi_all _ _ _ _ _ h_6 i)

end Cert.Finite

end
-- ==== Proof.RefRead.lean ====
/-
  The reference's stages read at an index, at the ideal values: a feature row against a transposed weight is the
  sum over k of feature (r, k) times weight (j, k); a neighbourhood mean at (r, k) is the summed message over the
  clipped count of row r; the half sum is a quotient by two; the normalization of row r is the row-level
  normalization of the clipped row.
-/
import proofs.«173363_g86715389706548_cont_9to1_m_205_2_alg».proof.Proof.RefRun
import proofs.«173363_g86715389706548_cont_9to1_m_205_2_alg».proof.Proof.LibKeepdims
import proofs.«173363_g86715389706548_cont_9to1_m_205_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefRead

open Idealize.ShloMosaic Idealize.ShloMosaic.ValueIdx Cert.ReferenceIdeal Cert.ReferenceIdeal.Gen Cert.ReferenceIdeal.RefRun
open Cert.Keepdims Cert.Spec

/-! ## A feature row against a transposed weight -/

theorem lhs_0 (i : S50000x128.Idx) (q : dot_S50000x128_S128x128_S50000x128_1_0_0_1_n_n.contr.Idx) : (dot_S50000x128_S128x128_S50000x128_1_0_0_1_n_n.lhsIdx i q 0).val = (i 0).val := by
  unfold DotDims.lhsIdx
  rw [dif_neg (show ¬(0 : Fin S50000x128.rank) ∈ dot_S50000x128_S128x128_S50000x128_1_0_0_1_n_n.lhsBatch by decide), dif_pos (show (0 : Fin S50000x128.rank) ∈ dot_S50000x128_S128x128_S50000x128_1_0_0_1_n_n.lhsNonContracting by decide)]
  rfl
theorem lhs_1 (i : S50000x128.Idx) (q : dot_S50000x128_S128x128_S50000x128_1_0_0_1_n_n.contr.Idx) : (dot_S50000x128_S128x128_S50000x128_1_0_0_1_n_n.lhsIdx i q 1).val = (q ⟨0, by decide⟩).val :=
  dot_S50000x128_S128x128_S50000x128_1_0_0_1_n_n.lhsIdx_val_of_single rfl i q
theorem rhs_0 (i : S50000x128.Idx) (q : dot_S50000x128_S128x128_S50000x128_1_0_0_1_n_n.contr.Idx) : (dot_S50000x128_S128x128_S50000x128_1_0_0_1_n_n.rhsIdx i q 0).val = (q ⟨0, by decide⟩).val :=
  dot_S50000x128_S128x128_S50000x128_1_0_0_1_n_n.rhsIdx_val_of_single rfl i q
theorem rhs_1 (i : S50000x128.Idx) (q : dot_S50000x128_S128x128_S50000x128_1_0_0_1_n_n.contr.Idx) : (dot_S50000x128_S128x128_S50000x128_1_0_0_1_n_n.rhsIdx i q 1).val = (i 1).val := by
  unfold DotDims.rhsIdx
  rw [dif_neg (show ¬(1 : Fin S128x128.rank) ∈ dot_S50000x128_S128x128_S50000x128_1_0_0_1_n_n.rhsBatch by decide), dif_pos (show (1 : Fin S128x128.rank) ∈ dot_S50000x128_S128x128_S50000x128_1_0_0_1_n_n.rhsNonContracting by decide)]
  rfl

/-- The host's product of the features with a weight matrix, at (r, j): the sum over the contracted axis. -/
theorem dot_apply (a : FVec Ideal S50000x128 .f32) (w : FVec Ideal S128x128 .f32) (r : Fin 50000) (j : Fin 128) :
    Host.dotGeneral (F := Ideal) dot_S50000x128_S128x128_S50000x128_1_0_0_1_n_n none a w (ix2 r j) = ∑ k : Fin 128, a (ix2 r k) * w (ix2 k j) := by
  simp only [Host.dotGeneral]
  rw [Ideal.dotGeneral_apply, ← Equiv.sum_comp (contrEquiv1 dot_S50000x128_S128x128_S50000x128_1_0_0_1_n_n 128 rfl rfl).symm]
  refine Finset.sum_congr rfl fun k _ => ?_
  have hk := contrEquiv1_symm_val dot_S50000x128_S128x128_S50000x128_1_0_0_1_n_n 128 rfl rfl k
  have el : dot_S50000x128_S128x128_S50000x128_1_0_0_1_n_n.lhsIdx (ix2 r j) ((contrEquiv1 dot_S50000x128_S128x128_S50000x128_1_0_0_1_n_n 128 rfl rfl).symm k) = ix2 r k := funext fun a => Fin.ext (by
    match a with
    | ⟨0, _⟩ => exact lhs_0 _ _
    | ⟨1, _⟩ => exact (lhs_1 _ _).trans hk)
  have er : dot_S50000x128_S128x128_S50000x128_1_0_0_1_n_n.rhsIdx (ix2 r j) ((contrEquiv1 dot_S50000x128_S128x128_S50000x128_1_0_0_1_n_n 128 rfl rfl).symm k) = ix2 k j := funext fun a => Fin.ext (by
    match a with
    | ⟨0, _⟩ => exact (rhs_0 _ _).trans hk
    | ⟨1, _⟩ => exact rhs_1 _ _)
  rw [el, er]

/-- A transposed weight at (k, j) is the weight at (j, k). -/
theorem transpose_at (w : FVec Ideal S128x128 .f32) (k j : Fin 128) :
    transpose S128x128 [1, 0] w transposes_S128x128_S128x128_1_0 (ix2 k j) = w (ix2 j k) :=
  transpose_ix2_apply w _ k j

theorem hdivf_apply {s : Shape} (x y : FVec Ideal s .f32) (i : s.Idx) : Host.divf x y i = Ideal.div (x i) (y i) := rfl

theorem hsqrt_apply {s : Shape} (x : FVec Ideal s .f32) (i : s.Idx) : Host.sqrt x i = Ideal.sqrt (x i) := rfl

/-- The host's sum along a row, from the zero word. -/
theorem hsum_apply (x : FVec Ideal S50000x128 .f32) (r : Fin 50000) :
    Host.reduceAdd x (constant (F := Ideal) S_ .f32 0x00000000#32) reducesTo_S50000x128_S50000_d1 h_S_ (ix1 r)
      = ∑ k : Fin 128, x (ix2 r k) := by
  rw [hostRowSum_apply x _ _ _ (by decide) r, constant_apply, Cert.Laws.ofBits_zero, zero_add]

/-- The item transform at (r, j): the sum over k of feature (r, k) times weight (j, k). -/
theorem tItem_apply (a1 : FVec Ideal S50000x128 .f32) (w7 : FVec Ideal S128x128 .f32) (r : Fin 50000) (j : Fin 128) :
    tItem (F := Ideal) a1 w7 (ix2 r j) = ∑ k : Fin 128, a1 (ix2 r k) * w7 (ix2 j k) := by
  unfold tItem
  rw [dot_apply]
  exact Finset.sum_congr rfl fun k _ => by rw [transpose_at]

/-- The user transform at (r, j): the two products added, over two. -/
theorem tUser_apply (a0 : FVec Ideal S50000x128 .f32) (w5 w6 : FVec Ideal S128x128 .f32) (r : Fin 50000) (j : Fin 128) :
    tUser (F := Ideal) a0 w5 w6 (ix2 r j)
      = Ideal.div (∑ k : Fin 128, a0 (ix2 r k) * w5 (ix2 j k) + ∑ k : Fin 128, a0 (ix2 r k) * w6 (ix2 j k))
          (Ideal.ofBits .f32 0x40000000#32) := by
  unfold tUser
  rw [hdivf_apply, addf_apply, dot_apply, dot_apply, bcastInDim_scalar_apply, constant_apply]
  refine congrArg (fun s => Ideal.div s _) ?_
  refine congrArg₂ (· + ·) (Finset.sum_congr rfl fun k _ => ?_) (Finset.sum_congr rfl fun k _ => ?_) <;> rw [transpose_at]

/-! ## The neighbourhood mean and the half sum -/

theorem segMean_apply (t : FVec Ideal S50000x128 .f32) (e : IVec S2x200000 32) (r : Fin 50000) (k : Fin 128) :
    segMean (F := Ideal) t e (ix2 r k)
      = meanRow (fun k => segSum (F := Ideal) t e (ix2 r k)) (segCount (F := Ideal) e (ix2 r (0 : Fin 1))) k := by
  unfold segMean meanRow
  rw [hdivf_apply, bcastInDim_a1_ab_apply ![0, 1] rfl rfl, maximumf_apply, bcastInDim_scalar_apply, constant_apply]

theorem halfSum_apply (x y : FVec Ideal S50000x128 .f32) (i : S50000x128.Idx) :
    halfSum (F := Ideal) x y i = Ideal.div (x i + y i) (Ideal.ofBits .f32 0x40000000#32) := by
  unfold halfSum
  rw [hdivf_apply, addf_apply, bcastInDim_scalar_apply, constant_apply]

/-! ## The normalization -/

theorem rowMean_apply (x : FVec Ideal S50000x128 .f32) (r : Fin 50000) (u : Fin 1) :
    rowMean (F := Ideal) x (ix2 r u) = Ideal.div (∑ k : Fin 128, x (ix2 r k)) (Ideal.ofBits .f32 0x43000000#32) := by
  unfold rowMean
  rw [hdivf_apply, bcastInDim_a_a1_apply ![0] rfl, hsum_apply, bcastInDim_scalar_apply, constant_apply]

theorem centered_apply (x : FVec Ideal S50000x128 .f32) (r : Fin 50000) (k : Fin 128) :
    centered (F := Ideal) x (ix2 r k) = x (ix2 r k) - rowMean (F := Ideal) x (ix2 r (0 : Fin 1)) := by
  unfold centered
  rw [subf_apply, bcastInDim_a1_ab_apply ![0, 1] rfl rfl]

/-- The reference's normalization of the clipped rows, at (r, q): the row-level normalization of row r. -/
theorem lnorm_apply (x : FVec Ideal S50000x128 .f32) (g b : FVec Ideal S128 .f32) (r : Fin 50000) (q : Fin 128) :
    lnorm (F := Ideal) x g b (ix2 r q)
      = normR (fun k => max (x (ix2 r k)) (Ideal.ofBits .f32 0x00000000#32)) (fun k => g (ix1 k)) (fun k => b (ix1 k)) q := by
  have hrelu : ∀ k : Fin 128, relu (F := Ideal) x (ix2 r k) = max (x (ix2 r k)) (Ideal.ofBits .f32 0x00000000#32) := by
    intro k
    unfold relu
    rw [maximumf_apply, bcastInDim_scalar_apply, constant_apply]
  unfold lnorm lnormR
  rw [addf_apply, mulf_apply, hdivf_apply, bcastInDim_a1_ab_apply ![0, 1] rfl rfl, bcastInDim_1b_ab_apply ![0, 1] rfl rfl,
    bcastInDim_1b_ab_apply ![0, 1] rfl rfl, bcastInDim_b_1b_apply ![1] rfl, bcastInDim_b_1b_apply ![1] rfl,
    hsqrt_apply, addf_apply, bcastInDim_scalar_apply, constant_apply]
  unfold rowVar
  rw [rowMean_apply, centered_apply, rowMean_apply]
  simp only [mulf_apply, centered_apply, rowMean_apply, hrelu]
  rfl

end Cert.ReferenceIdeal.RefRead

end
-- ==== Proof.Bridge.lean ====
/-
  The two programs compute one function.  The segment sums, the counts, the clipping and the normalization are the
  same operations on both sides; the sides differ in three places, each closed by one law: the kernel multiplies the
  user features by the combined weight (Wf + Wr)/2 where the reference averages the two products (equal when the
  entries are real numbers: the precondition), the kernel averages two means by one half where the reference divides
  by two, and the kernel multiplies by the reciprocal square root where the reference divides by the square root
  (equal because variance plus offset is positive).
-/
import proofs.«173363_g86715389706548_cont_9to1_m_205_2_alg».proof.Proof.KValue
import proofs.«173363_g86715389706548_cont_9to1_m_205_2_alg».proof.Proof.RefRead
import proofs.«173363_g86715389706548_cont_9to1_m_205_2_alg».proof.Proof.Finite

set_option maxRecDepth 16384

noncomputable section

namespace Cert.Bridge

open Idealize.ShloMosaic Idealize.ShloMosaic.ValueIdx Cert.Spec Cert.Keepdims

/-! ## The shared host chain is one function in both programs -/

theorem segSum_eq : Cert.KernelIdeal.KHost.segSum (F := Ideal) = Cert.ReferenceIdeal.RefRun.segSum (F := Ideal) := rfl

theorem segCnt_eq : Cert.KernelIdeal.KHost.segCnt (F := Ideal) = Cert.ReferenceIdeal.RefRun.segCount (F := Ideal) := rfl

/-! ## The transformed features -/

theorem prodArr_apply (A : FVec Ideal Cert.KernelIdeal.S50000x128 .f32) (W : FVec Ideal Cert.KernelIdeal.S128x128 .f32) (r : Fin 50000) (j : Fin 128) :
    Cert.KernelIdeal.TransformValue.prodArr A W (ix2 r j) = ∑ k : Fin 128, A (ix2 r k) * W (ix2 k j) := rfl

theorem transposeK_at (w : FVec Ideal Cert.KernelIdeal.S128x128 .f32) (k j : Fin 128) :
    transpose Cert.KernelIdeal.S128x128 [1, 0] w Cert.KernelIdeal.Facts₀.transposes_S128x128_S128x128_1_0 (ix2 k j) = w (ix2 j k) :=
  transpose_ix2_apply w _ k j

theorem combinedWeight_at (w5 w6 : FVec Ideal Cert.KernelIdeal.S128x128 .f32) (k j : Fin 128) :
    Cert.KernelIdeal.KHost.combinedWeight (F := Ideal) w5 w6 (ix2 k j) = (w5 (ix2 j k) + w6 (ix2 j k)) * Ideal.ofBits .f32 0x3F000000#32 := by
  unfold Cert.KernelIdeal.KHost.combinedWeight
  rw [transposeK_at]
  rfl

/-- The item transform: the kernel's product with the transposed weight is the reference's contraction. -/
theorem tItem_eq (a1 : FVec Ideal Cert.KernelIdeal.S50000x128 .f32) (w7 : FVec Ideal Cert.KernelIdeal.S128x128 .f32) :
    Cert.KernelIdeal.TransformValue.prodArr a1
        (transpose Cert.KernelIdeal.S128x128 [1, 0] w7 Cert.KernelIdeal.Facts₀.transposes_S128x128_S128x128_1_0)
      = Cert.ReferenceIdeal.RefRun.tItem (F := Ideal) a1 w7 := by
  funext i
  obtain ⟨r, j, rfl⟩ : ∃ (r : Fin 50000) (j : Fin 128), i = ix2 r j := ⟨i 0, i 1, eq_ix2 (n0 := 50000) (n1 := 128) i⟩
  rw [Cert.ReferenceIdeal.RefRead.tItem_apply, prodArr_apply]
  exact Finset.sum_congr rfl fun k _ => by rw [transposeK_at]

/-- The user transform, over real entries: the product with the halved sum of the two weights is half the sum of
    the two products. -/
theorem tUser_eq (a0 : FVec Ideal Cert.KernelIdeal.S50000x128 .f32) (w5 w6 : FVec Ideal Cert.KernelIdeal.S128x128 .f32)
    (h0 : ∀ i, ∃ r : ℝ, a0 i = (r : EReal)) (h5 : ∀ i, ∃ r : ℝ, w5 i = (r : EReal)) (h6 : ∀ i, ∃ r : ℝ, w6 i = (r : EReal)) :
    Cert.KernelIdeal.TransformValue.prodArr a0 (Cert.KernelIdeal.KHost.combinedWeight (F := Ideal) w5 w6)
      = Cert.ReferenceIdeal.RefRun.tUser (F := Ideal) a0 w5 w6 := by
  choose f0 hf0 using h0
  choose f5 hf5 using h5
  choose f6 hf6 using h6
  funext i
  obtain ⟨r, j, rfl⟩ : ∃ (r : Fin 50000) (j : Fin 128), i = ix2 r j := ⟨i 0, i 1, eq_ix2 (n0 := 50000) (n1 := 128) i⟩
  rw [Cert.ReferenceIdeal.RefRead.tUser_apply, prodArr_apply]
  have hsum : ∑ k : Fin 128, a0 (ix2 r k) * Cert.KernelIdeal.KHost.combinedWeight (F := Ideal) w5 w6 (ix2 k j)
      = ∑ k : Fin 128, ((f0 (ix2 r k) : ℝ) : EReal) * ((((f5 (ix2 j k) : ℝ) : EReal) + ((f6 (ix2 j k) : ℝ) : EReal)) * Ideal.ofBits .f32 0x3F000000#32) :=
    Finset.sum_congr rfl fun k _ => by rw [combinedWeight_at, hf0, hf5, hf6]
  rw [hsum]
  simp only [hf0, hf5, hf6]
  exact Cert.Laws.row_combined (fun k => f0 (ix2 r k)) (fun k => f5 (ix2 j k)) (fun k => f6 (ix2 j k))

/-! ## The results -/

section Results

variable (a0 a1 : FVec Ideal Cert.KernelIdeal.S50000x128 .f32) (e2 e3 e4 : IVec Cert.KernelIdeal.S2x200000 32)
  (w5 w6 w7 : FVec Ideal Cert.KernelIdeal.S128x128 .f32) (g b : FVec Ideal Cert.KernelIdeal.S128 .f32)

/-- The scale / shift vector recast as a row reads the vector. -/
theorem row_apply (v : FVec Ideal Cert.KernelIdeal.S128 .f32) :
    (fun k : Fin 128 => (shapeCast Cert.KernelIdeal.S1x128 v Cert.KernelIdeal.Facts₀.shapeCasts_S128_S1x128 : Cert.KernelIdeal.S1x128.Idx → Elt Ideal .f32) (ix2 (0 : Fin 1) k))
      = fun k => v (ix1 k) :=
  funext fun k => shapeCast_a_1a_apply v _ 0 k

theorem userArr_apply (A0 : FVec Ideal Cert.KernelIdeal.S50000x128 .f32) (C0 : FVec Ideal Cert.KernelIdeal.S50000x1 .f32) (A2 : FVec Ideal Cert.KernelIdeal.S50000x128 .f32)
    (C2 : FVec Ideal Cert.KernelIdeal.S50000x1 .f32) (gr br : FVec Ideal Cert.KernelIdeal.S1x128 .f32) (r : Fin 50000) (q : Fin 128) :
    Cert.KernelIdeal.FinishValue.userArr A0 C0 A2 C2 gr br (ix2 r q)
      = normK (userRowK (fun k => A0 (ix2 r k)) (C0 (ix2 r (0 : Fin 1))) (fun k => A2 (ix2 r k)) (C2 (ix2 r (0 : Fin 1))))
          (fun k => gr (ix2 (0 : Fin 1) k)) (fun k => br (ix2 (0 : Fin 1) k)) q := rfl

theorem itemArr_apply (A4 : FVec Ideal Cert.KernelIdeal.S50000x128 .f32) (C4 : FVec Ideal Cert.KernelIdeal.S50000x1 .f32) (gr br : FVec Ideal Cert.KernelIdeal.S1x128 .f32)
    (r : Fin 50000) (q : Fin 128) :
    Cert.KernelIdeal.FinishValue.itemArr A4 C4 gr br (ix2 r q)
      = normK (itemRow (fun k => A4 (ix2 r k)) (C4 (ix2 r (0 : Fin 1))))
          (fun k => gr (ix2 (0 : Fin 1) k)) (fun k => br (ix2 (0 : Fin 1) k)) q := rfl

/-- The user result of the kernel is the user result of the reference. -/
theorem user_eq (h0 : ∀ i, ∃ r : ℝ, a0 i = (r : EReal)) (h5 : ∀ i, ∃ r : ℝ, w5 i = (r : EReal)) (h6 : ∀ i, ∃ r : ℝ, w6 i = (r : EReal)) :
    Cert.KernelIdeal.FinishValue.userArr
        (Cert.KernelIdeal.KHost.segSum (F := Ideal) (Cert.KernelIdeal.TransformValue.prodArr a0 (Cert.KernelIdeal.KHost.combinedWeight (F := Ideal) w5 w6)) e2)
        (Cert.KernelIdeal.KHost.segCnt (F := Ideal) e2)
        (Cert.KernelIdeal.KHost.segSum (F := Ideal) (Cert.KernelIdeal.TransformValue.prodArr a1
          (transpose Cert.KernelIdeal.S128x128 [1, 0] w7 Cert.KernelIdeal.Facts₀.transposes_S128x128_S128x128_1_0)) e4)
        (Cert.KernelIdeal.KHost.segCnt (F := Ideal) e4)
        (shapeCast Cert.KernelIdeal.S1x128 g Cert.KernelIdeal.Facts₀.shapeCasts_S128_S1x128)
        (shapeCast Cert.KernelIdeal.S1x128 b Cert.KernelIdeal.Facts₀.shapeCasts_S128_S1x128)
      = Cert.ReferenceIdeal.RefRun.lnorm (F := Ideal) (Cert.ReferenceIdeal.RefRun.hUser (F := Ideal) a0 a1 e2 e4 w5 w6 w7) g b := by
  rw [tUser_eq a0 w5 w6 h0 h5 h6, tItem_eq a1 w7, segSum_eq, segCnt_eq]
  funext i
  obtain ⟨r, q, rfl⟩ : ∃ (r : Fin 50000) (q : Fin 128), i = ix2 r q := ⟨i 0, i 1, eq_ix2 (n0 := 50000) (n1 := 128) i⟩
  rw [Cert.ReferenceIdeal.RefRead.lnorm_apply, userArr_apply]
  have hrow : (fun k : Fin 128 => max (Cert.ReferenceIdeal.RefRun.hUser (F := Ideal) a0 a1 e2 e4 w5 w6 w7 (ix2 r k)) (Ideal.ofBits .f32 0x00000000#32))
      = userRowR (fun k => Cert.ReferenceIdeal.RefRun.segSum (F := Ideal) (Cert.ReferenceIdeal.RefRun.tUser (F := Ideal) a0 w5 w6) e2 (ix2 r k))
          (Cert.ReferenceIdeal.RefRun.segCount (F := Ideal) e2 (ix2 r (0 : Fin 1)))
          (fun k => Cert.ReferenceIdeal.RefRun.segSum (F := Ideal) (Cert.ReferenceIdeal.RefRun.tItem (F := Ideal) a1 w7) e4 (ix2 r k))
          (Cert.ReferenceIdeal.RefRun.segCount (F := Ideal) e4 (ix2 r (0 : Fin 1))) := by
    funext k
    unfold Cert.ReferenceIdeal.RefRun.hUser userRowR
    rw [Cert.ReferenceIdeal.RefRead.halfSum_apply, Cert.ReferenceIdeal.RefRead.segMean_apply, Cert.ReferenceIdeal.RefRead.segMean_apply]
  rw [hrow, row_apply g, row_apply b, normK_eq_normR, userRowK_eq_userRowR]

/-- The item result of the kernel is the item result of the reference. -/
theorem item_eq (h0 : ∀ i, ∃ r : ℝ, a0 i = (r : EReal)) (h5 : ∀ i, ∃ r : ℝ, w5 i = (r : EReal)) (h6 : ∀ i, ∃ r : ℝ, w6 i = (r : EReal)) :
    Cert.KernelIdeal.FinishValue.itemArr
        (Cert.KernelIdeal.KHost.segSum (F := Ideal) (Cert.KernelIdeal.TransformValue.prodArr a0 (Cert.KernelIdeal.KHost.combinedWeight (F := Ideal) w5 w6)) e3)
        (Cert.KernelIdeal.KHost.segCnt (F := Ideal) e3)
        (shapeCast Cert.KernelIdeal.S1x128 g Cert.KernelIdeal.Facts₀.shapeCasts_S128_S1x128)
        (shapeCast Cert.KernelIdeal.S1x128 b Cert.KernelIdeal.Facts₀.shapeCasts_S128_S1x128)
      = Cert.ReferenceIdeal.RefRun.lnorm (F := Ideal) (Cert.ReferenceIdeal.RefRun.segMean (F := Ideal) (Cert.ReferenceIdeal.RefRun.tUser (F := Ideal) a0 w5 w6) e3) g b := by
  rw [tUser_eq a0 w5 w6 h0 h5 h6, segSum_eq, segCnt_eq]
  funext i
  obtain ⟨r, q, rfl⟩ : ∃ (r : Fin 50000) (q : Fin 128), i = ix2 r q := ⟨i 0, i 1, eq_ix2 (n0 := 50000) (n1 := 128) i⟩
  rw [Cert.ReferenceIdeal.RefRead.lnorm_apply, itemArr_apply]
  have hrow : (fun k : Fin 128 => max (Cert.ReferenceIdeal.RefRun.segMean (F := Ideal) (Cert.ReferenceIdeal.RefRun.tUser (F := Ideal) a0 w5 w6) e3 (ix2 r k)) (Ideal.ofBits .f32 0x00000000#32))
      = itemRow (fun k => Cert.ReferenceIdeal.RefRun.segSum (F := Ideal) (Cert.ReferenceIdeal.RefRun.tUser (F := Ideal) a0 w5 w6) e3 (ix2 r k))
          (Cert.ReferenceIdeal.RefRun.segCount (F := Ideal) e3 (ix2 r (0 : Fin 1))) := by
    funext k
    unfold itemRow
    rw [Cert.ReferenceIdeal.RefRead.segMean_apply]
  rw [hrow, row_apply g, row_apply b, normK_eq_normR]

end Results

end Cert.Bridge

end
-- ==== Proof.lean ====
/-
  A relational graph-convolution layer over two node types: three per-relation linear maps of the node features,
  mean aggregation over three edge lists (a gather of source rows and a sum into destination rows, with the
  destination counts clipped below at one), the mean of the two relations that reach the user nodes, a clip below
  at zero and a layer normalization of every row of 128 entries.

  The kernel computes the two linear maps on the matrix unit in fifty row blocks (the two user relations through
  one combined weight), aggregates on the host, and normalizes in a second pass of fifty row blocks; the reference
  does everything on the host.  At the ideal values the two agree under the precondition that the float inputs are
  finite: the aggregation is the same function on both sides, and the three places where the formulas differ are
  closed in Proof/Laws.lean and Proof/Bridge.lean.  The three frames: both kernel programs run by their
  segment-by-segment frames; the reference is a straight line of host operations.
-/
import proofs.«173363_g86715389706548_cont_9to1_m_205_2_alg».proof.Defs
import proofs.«173363_g86715389706548_cont_9to1_m_205_2_alg».proof.Proof.Gen.Kernel
import proofs.«173363_g86715389706548_cont_9to1_m_205_2_alg».proof.Proof.Gen.Kernel.Skeleton
import proofs.«173363_g86715389706548_cont_9to1_m_205_2_alg».proof.Proof.Gen.Kernel.Launch
import proofs.«173363_g86715389706548_cont_9to1_m_205_2_alg».proof.Proof.Gen.Kernel.Points
import proofs.«173363_g86715389706548_cont_9to1_m_205_2_alg».proof.Proof.Gen.Kernel.Frame
import proofs.«173363_g86715389706548_cont_9to1_m_205_2_alg».proof.Proof.Gen.KernelIdeal
import proofs.«173363_g86715389706548_cont_9to1_m_205_2_alg».proof.Proof.Gen.KernelIdeal.Skeleton
import proofs.«173363_g86715389706548_cont_9to1_m_205_2_alg».proof.Proof.Gen.KernelIdeal.Launch
import proofs.«173363_g86715389706548_cont_9to1_m_205_2_alg».proof.Proof.Gen.KernelIdeal.Points
import proofs.«173363_g86715389706548_cont_9to1_m_205_2_alg».proof.Proof.Gen.KernelIdeal.Frame
import proofs.«173363_g86715389706548_cont_9to1_m_205_2_alg».proof.Proof.Gen.ReferenceIdeal
import proofs.«173363_g86715389706548_cont_9to1_m_205_2_alg».proof.Proof.Gen.Pre_finite_inputs
import proofs.«173363_g86715389706548_cont_9to1_m_205_2_alg».proof.Proof.KRun
import proofs.«173363_g86715389706548_cont_9to1_m_205_2_alg».proof.Proof.KValue
import proofs.«173363_g86715389706548_cont_9to1_m_205_2_alg».proof.Proof.RefRun
import proofs.«173363_g86715389706548_cont_9to1_m_205_2_alg».proof.Proof.Finite
import proofs.«173363_g86715389706548_cont_9to1_m_205_2_alg».proof.Proof.Bridge
import Idealize.ShloMosaic.Adequacy
import Idealize.ShloMosaic.Init

set_option maxRecDepth 16384

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference is a straight line of host operations: it runs, and no operation writes an argument. -/
theorem frame_ri : Cert.frame_ReferenceIdeal := fun m ρ _ =>
  (θ_run Cert.ReferenceIdeal.defs _ _).mono
    (fun _ h c => ⟨(h c Cert.ReferenceIdeal.main_arg0).trans (Cert.ReferenceIdeal.RefRun.arg0_eq _),
      (h c Cert.ReferenceIdeal.main_arg1).trans (Cert.ReferenceIdeal.RefRun.arg1_eq _),
      (h c Cert.ReferenceIdeal.main_arg2).trans (Cert.ReferenceIdeal.RefRun.arg2_eq _),
      (h c Cert.ReferenceIdeal.main_arg3).trans (Cert.ReferenceIdeal.RefRun.arg3_eq _),
      (h c Cert.ReferenceIdeal.main_arg4).trans (Cert.ReferenceIdeal.RefRun.arg4_eq _),
      (h c Cert.ReferenceIdeal.main_arg5).trans (Cert.ReferenceIdeal.RefRun.arg5_eq _),
      (h c Cert.ReferenceIdeal.main_arg6).trans (Cert.ReferenceIdeal.RefRun.arg6_eq _),
      (h c Cert.ReferenceIdeal.main_arg7).trans (Cert.ReferenceIdeal.RefRun.arg7_eq _),
      (h c Cert.ReferenceIdeal.main_arg8).trans (Cert.ReferenceIdeal.RefRun.arg8_eq _),
      (h c Cert.ReferenceIdeal.main_arg9).trans (Cert.ReferenceIdeal.RefRun.arg9_eq _)⟩)
    (Cert.ReferenceIdeal.RefRun.run_main (F := Ideal) m ρ)

/-- Nothing was rewritten when the kernel was idealized. -/
theorem preserves : Cert.preserves_Kernel_KernelIdeal := trivial

/-- From memories agreeing on the arguments both programs end with the same two arrays: the kernel's are what its
    second region's write-backs leave, read as functions of the arguments; the reference's are its last operations'
    results, the same functions under the precondition. -/
theorem algebraic : Cert.algebraic_KernelIdeal_ReferenceIdeal := by
  intro m ρ m' ρ' hpre hagree
  refine ⟨fun c => (Cert.KernelIdeal.Gen.dat1 (Cert.KernelIdeal.Gen.V9 m ρ) c).arrAt 8 Cert.KernelIdeal.cfg1.N,
    fun c => (Cert.KernelIdeal.Gen.dat1 (Cert.KernelIdeal.Gen.V9 m ρ) c).arrAt 9 Cert.KernelIdeal.cfg1.N, Cert.KernelIdeal.KRun.run (F := Ideal) m ρ, ?_⟩
  refine (θ_run Cert.ReferenceIdeal.defs _ _).mono
    (fun _ h c => ⟨((h c Cert.ReferenceIdeal.main_v84).trans (Cert.ReferenceIdeal.RefRun.out0_eq _)).trans ?_,
      ((h c Cert.ReferenceIdeal.main_v109).trans (Cert.ReferenceIdeal.RefRun.out1_eq _)).trans ?_,
      (h c Cert.ReferenceIdeal.main_arg0).trans (Cert.ReferenceIdeal.RefRun.arg0_eq _),
      (h c Cert.ReferenceIdeal.main_arg1).trans (Cert.ReferenceIdeal.RefRun.arg1_eq _),
      (h c Cert.ReferenceIdeal.main_arg2).trans (Cert.ReferenceIdeal.RefRun.arg2_eq _),
      (h c Cert.ReferenceIdeal.main_arg3).trans (Cert.ReferenceIdeal.RefRun.arg3_eq _),
      (h c Cert.ReferenceIdeal.main_arg4).trans (Cert.ReferenceIdeal.RefRun.arg4_eq _),
      (h c Cert.ReferenceIdeal.main_arg5).trans (Cert.ReferenceIdeal.RefRun.arg5_eq _),
      (h c Cert.ReferenceIdeal.main_arg6).trans (Cert.ReferenceIdeal.RefRun.arg6_eq _),
      (h c Cert.ReferenceIdeal.main_arg7).trans (Cert.ReferenceIdeal.RefRun.arg7_eq _),
      (h c Cert.ReferenceIdeal.main_arg8).trans (Cert.ReferenceIdeal.RefRun.arg8_eq _),
      (h c Cert.ReferenceIdeal.main_arg9).trans (Cert.ReferenceIdeal.RefRun.arg9_eq _)⟩)
    (Cert.ReferenceIdeal.RefRun.run_main (F := Ideal) m' ρ')
  all_goals
    obtain ⟨g0, g1, g2, g3, g4, g5, g6, g7, g8, g9⟩ := hagree c
    have e0 : StableHlo.launchContents m' c (Proc.devRef .tc Cert.ReferenceIdeal.main_arg0) = m ((c.tc : Thread Cert.KernelIdeal.nD Cert.KernelIdeal.τ).loc Cert.KernelIdeal.main_arg0) := g0
    have e1 : StableHlo.launchContents m' c (Proc.devRef .tc Cert.ReferenceIdeal.main_arg1) = m ((c.tc : Thread Cert.KernelIdeal.nD Cert.KernelIdeal.τ).loc Cert.KernelIdeal.main_arg1) := g1
    have e2 : StableHlo.launchContents m' c (Proc.devRef .tc Cert.ReferenceIdeal.main_arg2) = m ((c.tc : Thread Cert.KernelIdeal.nD Cert.KernelIdeal.τ).loc Cert.KernelIdeal.main_arg2) := g2
    have e3 : StableHlo.launchContents m' c (Proc.devRef .tc Cert.ReferenceIdeal.main_arg3) = m ((c.tc : Thread Cert.KernelIdeal.nD Cert.KernelIdeal.τ).loc Cert.KernelIdeal.main_arg3) := g3
    have e4 : StableHlo.launchContents m' c (Proc.devRef .tc Cert.ReferenceIdeal.main_arg4) = m ((c.tc : Thread Cert.KernelIdeal.nD Cert.KernelIdeal.τ).loc Cert.KernelIdeal.main_arg4) := g4
    have e5 : StableHlo.launchContents m' c (Proc.devRef .tc Cert.ReferenceIdeal.main_arg5) = m ((c.tc : Thread Cert.KernelIdeal.nD Cert.KernelIdeal.τ).loc Cert.KernelIdeal.main_arg5) := g5
    have e6 : StableHlo.launchContents m' c (Proc.devRef .tc Cert.ReferenceIdeal.main_arg6) = m ((c.tc : Thread Cert.KernelIdeal.nD Cert.KernelIdeal.τ).loc Cert.KernelIdeal.main_arg6) := g6
    have e7 : StableHlo.launchContents m' c (Proc.devRef .tc Cert.ReferenceIdeal.main_arg7) = m ((c.tc : Thread Cert.KernelIdeal.nD Cert.KernelIdeal.τ).loc Cert.KernelIdeal.main_arg7) := g7
    have e8 : StableHlo.launchContents m' c (Proc.devRef .tc Cert.ReferenceIdeal.main_arg8) = m ((c.tc : Thread Cert.KernelIdeal.nD Cert.KernelIdeal.τ).loc Cert.KernelIdeal.main_arg8) := g8
    have e9 : StableHlo.launchContents m' c (Proc.devRef .tc Cert.ReferenceIdeal.main_arg9) = m ((c.tc : Thread Cert.KernelIdeal.nD Cert.KernelIdeal.τ).loc Cert.KernelIdeal.main_arg9) := g9
    obtain ⟨h0, h5, h6⟩ := Cert.Finite.entries_real _ _ _ _ _ _ _ _ _ _ (hpre c)
  · rw [e0, e1, e2, e4, e5, e6, e7, e8, e9]
    exact ((Cert.KernelIdeal.KValue.out0_eq m ρ c).trans (Cert.Bridge.user_eq (h0 := h0) (h5 := h5) (h6 := h6) ..)).symm
  · rw [e0, e3, e5, e6, e8, e9]
    exact ((Cert.KernelIdeal.KValue.out1_eq m ρ c).trans (Cert.Bridge.item_eq (h0 := h0) (h5 := h5) (h6 := h6) ..)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
